-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v178)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v178) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S800000x9 : Shape := ⟨2, ![800000, 9]⟩
abbrev S2x128 : Shape := ⟨2, ![2, 128]⟩
abbrev S2x9x128 : Shape := ⟨3, ![2, 9, 128]⟩
abbrev S2x256x256 : Shape := ⟨3, ![2, 256, 256]⟩
abbrev S2x256 : Shape := ⟨2, ![2, 256]⟩
abbrev S2x256x128 : Shape := ⟨3, ![2, 256, 128]⟩
abbrev S128x128 : Shape := ⟨2, ![128, 128]⟩
abbrev S_ : Shape := ⟨0, ![]⟩

class Facts : Prop where
  bcast_S_S800000x9 : S_.BroadcastsInDim S800000x9 (![] : Fin 0 → Fin S800000x9.rank)
  reducesTo_S800000x9_S_d0_1 : S800000x9.ReducesTo [0, 1] S_
  h_S_ : 0 < S_.numel
  bcast_S_S2x128 : S_.BroadcastsInDim S2x128 (![] : Fin 0 → Fin S2x128.rank)
  reducesTo_S2x128_S_d0_1 : S2x128.ReducesTo [0, 1] S_
  bcast_S_S2x9x128 : S_.BroadcastsInDim S2x9x128 (![] : Fin 0 → Fin S2x9x128.rank)
  reducesTo_S2x9x128_S_d0_1_2 : S2x9x128.ReducesTo [0, 1, 2] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg10 : FVec F S2x256 .f32) (main_arg11 : FVec F S2x256x128 .f32) (main_arg12 : FVec F S2x128 .f32) (main_arg13 : FVec F S128x128 .f32) (main_v33 : IVec S_ 1) : IVec S_ 1 :=
  let main_v34 : FVec F S2x256 .f32 := Host.absf main_arg10
  let main_cst_12 : FVec F S_ .f32 := constant S_ .f32 0x7F800000#32
  let main_v35 : FVec F S2x256 .f32 := broadcastInDim S2x256 ![] bcast_S_S2x256 main_cst_12
  let main_v36 : IVec S2x256 1 := cmpf .olt main_v34 main_v35
  let main_c_13 : IVec S_ 1 := constantI S_ 1 1#1
  let main_v37 : IVec S_ 1 := (fun x v => Host.reduce IntOp.andi x v reducesTo_S2x256_S_d0_1 h_S_) main_v36 main_c_13
  let main_v38 : IVec S_ 1 := andi main_v33 main_v37
  let main_v39 : FVec F S2x256x128 .f32 := Host.absf main_arg11
  let main_cst_14 : FVec F S_ .f32 := constant S_ .f32 0x7F800000#32
  let main_v40 : FVec F S2x256x128 .f32 := broadcastInDim S2x256x128 ![] bcast_S_S2x256x128 main_cst_14
  let main_v41 : IVec S2x256x128 1 := cmpf .olt main_v39 main_v40
  let main_c_15 : IVec S_ 1 := constantI S_ 1 1#1
  let main_v42 : IVec S_ 1 := (fun x v => Host.reduce IntOp.andi x v reducesTo_S2x256x128_S_d0_1_2 h_S_) main_v41 main_c_15
  let main_v43 : IVec S_ 1 := andi main_v38 main_v42
  let main_v44 : FVec F S2x128 .f32 := Host.absf main_arg12
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg7 : FVec F S2x256x256 .f32) (main_arg8 : FVec F S2x256 .f32) (main_arg9 : FVec F S2x256 .f32) (main_arg10 : FVec F S2x256 .f32) (main_arg11 : FVec F S2x256x128 .f32) (main_arg12 : FVec F S2x128 .f32) (main_arg13 : FVec F S128x128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x256x256 .f32 := Host.absf main_arg7
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256 .f32 := Host.absf main_arg8
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S2x256 .f32 := Host.absf main_arg9
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  fn_part2 (F := F) main_arg10 main_arg11 main_arg12 main_arg13 main_v33

def fn {F : FTy → Type} [FloatOps F] (main_arg0 : IVec S50000 32) (main_arg1 : IVec S2x800000 32) (main_arg2 : IVec S50000 32) (main_arg3 : FVec F S800000x9 .f32) (main_arg4 : FVec F S2x128 .f32) (main_arg5 : FVec F S2x9x128 .f32) (main_arg6 : FVec F S2x128 .f32) (main_arg7 : FVec F S2x256x256 .f32) (main_arg8 : FVec F S2x256 .f32) (main_arg9 : FVec F S2x256 .f32) (main_arg10 : FVec F S2x256 .f32) (main_arg11 : FVec F S2x256x128 .f32) (main_arg12 : FVec F S2x128 .f32) (main_arg13 : FVec F S128x128 .f32) : IVec S_ 1 :=
  let main_v0 : FVec F S800000x9 .f32 := Host.absf main_arg3
  let main_cst : FVec F S_ .f32 := constant S_ .f32 0x7F800000#32
  let main_v1 : FVec F S800000x9 .f32 := broadcastInDim S800000x9 ![] bcast_S_S800000x9 main_cst
  let main_v2 : IVec S800000x9 1 := cmpf .olt main_v0 main_v1
  let main_c : IVec S_ 1 := constantI S_ 1 1#1
  let main_v3 : IVec S_ 1 := (fun x v => Host.reduce IntOp.andi x v reducesTo_S800000x9_S_d0_1 h_S_) main_v2 main_c
  let main_v4 : FVec F S2x128 .f32 := Host.absf main_arg4
  let main_cst_0 : FVec F S_ .f32 := constant S_ .f32 0x7F800000#32
  let main_v5 : FVec F S2x128 .f32 := broadcastInDim S2x128 ![] bcast_S_S2x128 main_cst_0
  let main_v6 : IVec S2x128 1 := cmpf .olt main_v4 main_v5
  let main_c_1 : IVec S_ 1 := constantI S_ 1 1#1
  let main_v7 : IVec S_ 1 := (fun x v => Host.reduce IntOp.andi x v reducesTo_S2x128_S_d0_1 h_S_) main_v6 main_c_1
  let main_v8 : IVec S_ 1 := andi main_v3 main_v7
  let main_v9 : FVec F S2x9x128 .f32 := Host.absf main_arg5
  let main_cst_2 : FVec F S_ .f32 := constant S_ .f32 0x7F800000#32
  let main_v10 : FVec F S2x9x128 .f32 := broadcastInDim S2x9x128 ![] bcast_S_S2x9x128 main_cst_2
  let main_v11 : IVec S2x9x128 1 := cmpf .olt main_v9 main_v10
  let main_c_3 : IVec S_ 1 := constantI S_ 1 1#1
  let main_v12 : IVec S_ 1 := (fun x v => Host.reduce IntOp.andi x v reducesTo_S2x9x128_S_d0_1_2 h_S_) main_v11 main_c_3
  let main_v13 : IVec S_ 1 := andi main_v8 main_v12
  let main_v14 : FVec F S2x128 .f32 := Host.absf main_arg6
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg7 main_arg8 main_arg9 main_arg10 main_arg11 main_arg12 main_arg13 main_v13 main_v16
-- ==== Kernel.lean ====
abbrev S50000 : Shape := ⟨1, ![50000]⟩
abbrev S2x800000 : Shape := ⟨2, ![2, 800000]⟩
abbrev S800000x9 : Shape := ⟨2, ![800000, 9]⟩
abbrev S2x128 : Shape := ⟨2, ![2, 128]⟩
abbrev S2x9x128 : Shape := ⟨3, ![2, 9, 128]⟩
abbrev S2x256x256 : Shape := ⟨3, ![2, 256, 256]⟩
abbrev S2x256 : Shape := ⟨2, ![2, 256]⟩
abbrev S2x256x128 : Shape := ⟨3, ![2, 256, 128]⟩
abbrev S128x128 : Shape := ⟨2, ![128, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S50000x9 : Shape := ⟨2, ![50000, 9]⟩
abbrev S1 : Shape := ⟨1, ![1]⟩
abbrev S850000x9 : Shape := ⟨2, ![850000, 9]⟩
abbrev S850000x1 : Shape := ⟨2, ![850000, 1]⟩
abbrev S50000x1 : Shape := ⟨2, ![50000, 1]⟩
abbrev S50000x128 : Shape := ⟨2, ![50000, 128]⟩
abbrev S850000x128 : Shape := ⟨2, ![850000, 128]⟩
abbrev S1x9x128 : Shape := ⟨3, ![1, 9, 128]⟩
abbrev S9x128 : Shape := ⟨2, ![9, 128]⟩
abbrev S1x128 : Shape := ⟨2, ![1, 128]⟩
abbrev S128 : Shape := ⟨1, ![128]⟩
abbrev S50000x256 : Shape := ⟨2, ![50000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S5000x256 : Shape := ⟨2, ![5000, 256]⟩
abbrev S1x256x128 : Shape := ⟨3, ![1, 256, 128]⟩
abbrev S256x128 : Shape := ⟨2, ![256, 128]⟩
abbrev S5000x128 : Shape := ⟨2, ![5000, 128]⟩
abbrev S256x1 : Shape := ⟨2, ![256, 1]⟩
abbrev S1x50000 : Shape := ⟨2, ![1, 50000]⟩
abbrev S2x50000 : Shape := ⟨2, ![2, 50000]⟩

abbrev nBuf : Space → Nat
  | .hbm => 251
  | .vmem => 32
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S800000x9, .f32⟩
  | 4 => ⟨S2x128, .f32⟩
  | 5 => ⟨S2x9x128, .f32⟩
  | 6 => ⟨S2x128, .f32⟩
  | 7 => ⟨S2x256x256, .f32⟩
  | 8 => ⟨S2x256, .f32⟩
  | 9 => ⟨S2x256, .f32⟩
  | 10 => ⟨S2x256, .f32⟩
  | 11 => ⟨S2x256x128, .f32⟩
  | 12 => ⟨S2x128, .f32⟩
  | 13 => ⟨S128x128, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S50000x9, .f32⟩
  | 23 => ⟨S_, .i32⟩
  | 24 => ⟨S1, .i32⟩
  | 25 => ⟨S_, .f32⟩
  | 26 => ⟨S50000, .f32⟩
  | 27 => ⟨S50000x9, .f32⟩
  | 28 => ⟨S850000x9, .f32⟩
  | 29 => ⟨S_, .f32⟩
  | 30 => ⟨S50000x9, .f32⟩
  | 31 => ⟨S850000x1, .i32⟩
  | 32 => ⟨S50000x9, .f32⟩
  | 33 => ⟨S_, .f32⟩
  | 34 => ⟨S850000x1, .f32⟩
  | 35 => ⟨S_, .f32⟩
  | 36 => ⟨S50000x1, .f32⟩
  | 37 => ⟨S850000x1, .i32⟩
  | 38 => ⟨S50000x1, .f32⟩
  | 39 => ⟨S_, .i32⟩
  | 40 => ⟨S50000, .i32⟩
  | 41 => ⟨S50000, .i1⟩
  | 42 => ⟨S_, .i32⟩
  | 43 => ⟨S50000, .i32⟩
  | 44 => ⟨S50000, .i32⟩
  | 45 => ⟨S50000, .i32⟩
  | 46 => ⟨S50000x1, .i32⟩
  | 47 => ⟨S50000x128, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S_, .f32⟩
  | 58 => ⟨S50000x128, .f32⟩
  | 59 => ⟨S850000x1, .i32⟩
  | 60 => ⟨S50000x128, .f32⟩
  | 61 => ⟨S1x9x128, .f32⟩
  | 62 => ⟨S9x128, .f32⟩
  | 63 => ⟨S50000x128, .f32⟩
  | 64 => ⟨S1x128, .f32⟩
  | 65 => ⟨S128, .f32⟩
  | 66 => ⟨S1x128, .f32⟩
  | 67 => ⟨S50000x128, .f32⟩
  | 68 => ⟨S50000x128, .f32⟩
  | 69 => ⟨S50000x128, .f32⟩
  | 70 => ⟨S50000x128, .f32⟩
  | 71 => ⟨S50000x256, .f32⟩
  | 72 => ⟨S1x256x256, .f32⟩
  | 73 => ⟨S256x256, .f32⟩
  | 74 => ⟨S1x256, .f32⟩
  | 75 => ⟨S256, .f32⟩
  | 76 => ⟨S1x256, .f32⟩
  | 77 => ⟨S50000x256, .f32⟩
  | 78 => ⟨S_, .f32⟩
  | 79 => ⟨S256, .f32⟩
  | 80 => ⟨S_, .f32⟩
  | 81 => ⟨S256, .f32⟩
  | 82 => ⟨S256, .f32⟩
  | 83 => ⟨S1x256, .f32⟩
  | 84 => ⟨S50000x256, .f32⟩
  | 85 => ⟨S50000x256, .f32⟩
  | 86 => ⟨S50000x256, .f32⟩
  | 87 => ⟨S_, .f32⟩
  | 88 => ⟨S256, .f32⟩
  | 89 => ⟨S_, .f32⟩
  | 90 => ⟨S256, .f32⟩
  | 91 => ⟨S256, .f32⟩
  | 92 => ⟨S1x256, .f32⟩
  | 93 => ⟨S256, .f32⟩
  | 94 => ⟨S1x256, .f32⟩
  | 95 => ⟨S256, .f32⟩
  | 96 => ⟨S1x256x128, .f32⟩
  | 97 => ⟨S256x128, .f32⟩
  | 98 => ⟨S1x128, .f32⟩
  | 99 => ⟨S128, .f32⟩
  | 100 => ⟨S1x256, .f32⟩
  | 101 => ⟨S1x256, .f32⟩
  | 102 => ⟨S1x256, .f32⟩
  | 103 => ⟨S1x256, .f32⟩
  | 104 => ⟨S1x128, .f32⟩
  | 105 => ⟨S50000x128, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x128, .f32⟩
  | 115 => ⟨S_, .f32⟩
  | 116 => ⟨S50000x128, .f32⟩
  | 117 => ⟨S850000x1, .i32⟩
  | 118 => ⟨S50000x128, .f32⟩
  | 119 => ⟨S1x9x128, .f32⟩
  | 120 => ⟨S9x128, .f32⟩
  | 121 => ⟨S50000x128, .f32⟩
  | 122 => ⟨S1x128, .f32⟩
  | 123 => ⟨S128, .f32⟩
  | 124 => ⟨S1x128, .f32⟩
  | 125 => ⟨S50000x128, .f32⟩
  | 126 => ⟨S50000x128, .f32⟩
  | 127 => ⟨S50000x128, .f32⟩
  | _ => ⟨S50000, .i32⟩

abbrev hbmTy0_1 (i : Nat) : BufTy := match i % 128 with
  | 0 => ⟨S50000x128, .f32⟩
  | 1 => ⟨S50000x256, .f32⟩
  | 2 => ⟨S1x256x256, .f32⟩
  | 3 => ⟨S256x256, .f32⟩
  | 4 => ⟨S1x256, .f32⟩
  | 5 => ⟨S256, .f32⟩
  | 6 => ⟨S1x256, .f32⟩
  | 7 => ⟨S50000x256, .f32⟩
  | 8 => ⟨S_, .f32⟩
  | 9 => ⟨S256, .f32⟩
  | 10 => ⟨S_, .f32⟩
  | 11 => ⟨S256, .f32⟩
  | 12 => ⟨S256, .f32⟩
  | 13 => ⟨S1x256, .f32⟩
  | 14 => ⟨S50000x256, .f32⟩
  | 15 => ⟨S50000x256, .f32⟩
  | 16 => ⟨S50000x256, .f32⟩
  | 17 => ⟨S_, .f32⟩
  | 18 => ⟨S256, .f32⟩
  | 19 => ⟨S_, .f32⟩
  | 20 => ⟨S256, .f32⟩
  | 21 => ⟨S256, .f32⟩
  | 22 => ⟨S1x256, .f32⟩
  | 23 => ⟨S256, .f32⟩
  | 24 => ⟨S1x256, .f32⟩
  | 25 => ⟨S256, .f32⟩
  | 26 => ⟨S1x256x128, .f32⟩
  | 27 => ⟨S256x128, .f32⟩
  | 28 => ⟨S1x128, .f32⟩
  | 29 => ⟨S128, .f32⟩
  | 30 => ⟨S1x256, .f32⟩
  | 31 => ⟨S1x256, .f32⟩
  | 32 => ⟨S1x256, .f32⟩
  | 33 => ⟨S1x256, .f32⟩
  | 34 => ⟨S1x128, .f32⟩
  | 35 => ⟨S50000x128, .f32⟩
  | 36 => ⟨S_, .f32⟩
  | 37 => ⟨S50000x1, .f32⟩
  | 38 => ⟨S_, .f32⟩
  | 39 => ⟨S256x1, .f32⟩
  | 40 => ⟨S50000x1, .i32⟩
  | 41 => ⟨S256x1, .f32⟩
  | 42 => ⟨S_, .f32⟩
  | 43 => ⟨S256x128, .f32⟩
  | 44 => ⟨S50000x1, .i32⟩
  | 45 => ⟨S256x128, .f32⟩
  | 46 => ⟨S_, .f32⟩
  | 47 => ⟨S256x1, .f32⟩
  | 48 => ⟨S256x1, .f32⟩
  | 49 => ⟨S256x128, .f32⟩
  | 50 => ⟨S256x128, .f32⟩
  | 51 => ⟨S256x128, .f32⟩
  | 52 => ⟨S256x128, .f32⟩
  | 53 => ⟨S_, .f32⟩
  | 54 => ⟨S256x128, .f32⟩
  | 55 => ⟨S256x128, .f32⟩
  | 56 => ⟨S_, .f32⟩
  | 57 => ⟨S256x128, .f32⟩
  | 58 => ⟨S256x128, .f32⟩
  | 59 => ⟨S256, .i32⟩
  | 60 => ⟨S_, .i32⟩
  | 61 => ⟨S256, .i32⟩
  | 62 => ⟨S256, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S256, .i32⟩
  | 70 => ⟨S256, .i32⟩
  | 71 => ⟨S_, .i32⟩
  | 72 => ⟨S256, .i32⟩
  | 73 => ⟨S256, .i1⟩
  | 74 => ⟨S_, .i32⟩
  | 75 => ⟨S256, .i32⟩
  | 76 => ⟨S256, .i1⟩
  | 77 => ⟨S_, .i32⟩
  | 78 => ⟨S_, .i1⟩
  | 79 => ⟨S256, .i1⟩
  | 80 => ⟨S256, .i1⟩
  | 81 => ⟨S256, .i1⟩
  | 82 => ⟨S256, .i32⟩
  | 83 => ⟨S256, .i32⟩
  | 84 => ⟨S256, .i32⟩
  | 85 => ⟨S_, .i32⟩
  | 86 => ⟨S256, .i32⟩
  | 87 => ⟨S256, .i1⟩
  | 88 => ⟨S_, .i32⟩
  | 89 => ⟨S256, .i32⟩
  | 90 => ⟨S256, .i32⟩
  | 91 => ⟨S256, .i32⟩
  | 92 => ⟨S256x1, .i32⟩
  | 93 => ⟨S256x128, .f32⟩
  | 94 => ⟨S256x128, .f32⟩
  | 95 => ⟨S256x128, .f32⟩
  | 96 => ⟨S_, .i32⟩
  | 97 => ⟨S50000, .i32⟩
  | 98 => ⟨S50000, .i1⟩
  | 99 => ⟨S_, .i32⟩
  | 100 => ⟨S50000, .i32⟩
  | 101 => ⟨S50000, .i32⟩
  | 102 => ⟨S50000, .i32⟩
  | 103 => ⟨S50000x1, .i32⟩
  | 104 => ⟨S50000x128, .f32⟩
  | 105 => ⟨S50000x128, .f32⟩
  | 106 => ⟨S_, .f32⟩
  | 107 => ⟨S50000, .f32⟩
  | 108 => ⟨S_, .i32⟩
  | 109 => ⟨S50000, .i32⟩
  | 110 => ⟨S50000, .i1⟩
  | 111 => ⟨S_, .i32⟩
  | 112 => ⟨S50000, .i32⟩
  | 113 => ⟨S50000, .i32⟩
  | 114 => ⟨S50000, .i32⟩
  | 115 => ⟨S50000x1, .i32⟩
  | 116 => ⟨S50000x128, .f32⟩
  | 117 => ⟨S50000x128, .f32⟩
  | 118 => ⟨S_, .f32⟩
  | 119 => ⟨S50000, .f32⟩
  | 120 => ⟨S1x50000, .f32⟩
  | 121 => ⟨S1x50000, .f32⟩
  | 122 => ⟨S2x50000, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S256x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x256, .f32⟩
  | .local _ .vmem, ⟨17, _⟩ => ⟨S5000x256, .f32⟩
  | .local _ .vmem, ⟨18, _⟩ => ⟨S256x256, .f32⟩
  | .local _ .vmem, ⟨19, _⟩ => ⟨S1x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S5000x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S256x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_c_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_13 : Ref sig .tc := ⟨.hbm, 106, rfl⟩
abbrev main_v77 : Ref sig .tc := ⟨.hbm, 107, rfl⟩
abbrev main_v78 : Ref sig .tc := ⟨.hbm, 108, rfl⟩
abbrev main_c_14 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_15 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_16 : Ref sig .tc := ⟨.hbm, 136, rfl⟩
abbrev main_v104 : Ref sig .tc := ⟨.hbm, 137, rfl⟩
abbrev main_cst_17 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_18 : Ref sig .tc := ⟨.hbm, 145, rfl⟩
abbrev main_v111 : Ref sig .tc := ⟨.hbm, 146, rfl⟩
abbrev main_cst_19 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_20 : Ref sig .tc := ⟨.hbm, 164, rfl⟩
abbrev main_v128 : Ref sig .tc := ⟨.hbm, 165, rfl⟩
abbrev main_cst_21 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_22 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_23 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_cst_24 : Ref sig .tc := ⟨.hbm, 181, rfl⟩
abbrev main_v141 : Ref sig .tc := ⟨.hbm, 182, rfl⟩
abbrev main_v142 : Ref sig .tc := ⟨.hbm, 183, rfl⟩
abbrev main_cst_25 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_c_26 : Ref sig .tc := ⟨.hbm, 188, rfl⟩
abbrev main_v146 : Ref sig .tc := ⟨.hbm, 189, rfl⟩
abbrev main_v147 : Ref sig .tc := ⟨.hbm, 190, rfl⟩
abbrev main_c_27 : Ref sig .tc := ⟨.hbm, 191, rfl⟩
abbrev main_call0_v0 : Ref sig .tc := ⟨.hbm, 192, rfl⟩
abbrev main_call0_c : Ref sig .tc := ⟨.hbm, 193, rfl⟩
abbrev main_call0_v1 : Ref sig .tc := ⟨.hbm, 194, rfl⟩
abbrev main_call0_c_0 : Ref sig .tc := ⟨.hbm, 195, rfl⟩
abbrev main_call0_v2 : Ref sig .tc := ⟨.hbm, 196, rfl⟩
abbrev main_call0_v3 : Ref sig .tc := ⟨.hbm, 197, rfl⟩
abbrev main_call0_v4 : Ref sig .tc := ⟨.hbm, 198, rfl⟩
abbrev main_call0_c_1 : Ref sig .tc := ⟨.hbm, 199, rfl⟩
abbrev main_call0_v5 : Ref sig .tc := ⟨.hbm, 200, rfl⟩
abbrev main_call0_v6 : Ref sig .tc := ⟨.hbm, 201, rfl⟩
abbrev main_call0_c_2 : Ref sig .tc := ⟨.hbm, 202, rfl⟩
abbrev main_call0_v7 : Ref sig .tc := ⟨.hbm, 203, rfl⟩
abbrev main_call0_v8 : Ref sig .tc := ⟨.hbm, 204, rfl⟩
abbrev main_call0_c_3 : Ref sig .tc := ⟨.hbm, 205, rfl⟩
abbrev main_call0_v9 : Ref sig .tc := ⟨.hbm, 206, rfl⟩
abbrev main_call0_v10 : Ref sig .tc := ⟨.hbm, 207, rfl⟩
abbrev main_call0_v11 : Ref sig .tc := ⟨.hbm, 208, rfl⟩
abbrev main_call0_v12 : Ref sig .tc := ⟨.hbm, 209, rfl⟩
abbrev main_call0_v13 : Ref sig .tc := ⟨.hbm, 210, rfl⟩
abbrev main_call0_v14 : Ref sig .tc := ⟨.hbm, 211, rfl⟩
abbrev main_v148 : Ref sig .tc := ⟨.hbm, 212, rfl⟩
abbrev main_c_28 : Ref sig .tc := ⟨.hbm, 213, rfl⟩
abbrev main_v149 : Ref sig .tc := ⟨.hbm, 214, rfl⟩
abbrev main_v150 : Ref sig .tc := ⟨.hbm, 215, rfl⟩
abbrev main_c_29 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_c_30 : Ref sig .tc := ⟨.hbm, 224, rfl⟩
abbrev main_v158 : Ref sig .tc := ⟨.hbm, 225, rfl⟩
abbrev main_v159 : Ref sig .tc := ⟨.hbm, 226, rfl⟩
abbrev main_c_31 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_cst_32 : Ref sig .tc := ⟨.hbm, 234, rfl⟩
abbrev main_v166 : Ref sig .tc := ⟨.hbm, 235, rfl⟩
abbrev main_c_33 : Ref sig .tc := ⟨.hbm, 236, rfl⟩
abbrev main_v167 : Ref sig .tc := ⟨.hbm, 237, rfl⟩
abbrev main_v168 : Ref sig .tc := ⟨.hbm, 238, rfl⟩
abbrev main_c_34 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_cst_35 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg7_0 : Ref sig .tc := ⟨.vmem, 30, rfl⟩
abbrev cc3_stg7_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem7_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000x9 : S_.BroadcastsInDim S50000x9 (![] : Fin 0 → Fin S50000x9.rank)
  bcast_S_S1 : S_.BroadcastsInDim S1 (![] : Fin 0 → Fin S1.rank)
  bcast_S_S50000 : S_.BroadcastsInDim S50000 (![] : Fin 0 → Fin S50000.rank)
  concatenates_S800000x9_S50000x9_S850000x9_d0 : Shape.Concatenates [S800000x9, S50000x9] S850000x9 0
  bcast_S850000_S850000x1_0 : S850000.BroadcastsInDim S850000x1 (![0] : Fin 1 → Fin S850000x1.rank)
  bcast_S_S850000x1 : S_.BroadcastsInDim S850000x1 (![] : Fin 0 → Fin S850000x1.rank)
  bcast_S_S50000x1 : S_.BroadcastsInDim S50000x1 (![] : Fin 0 → Fin S50000x1.rank)
  bcast_S50000_S50000x1_0 : S50000.BroadcastsInDim S50000x1 (![0] : Fin 1 → Fin S50000x1.rank)
  bcast_S_S850000 : S_.BroadcastsInDim S850000 (![] : Fin 0 → Fin S850000.rank)
  bcast_S_S50000x128 : S_.BroadcastsInDim S50000x128 (![] : Fin 0 → Fin S50000x128.rank)
  slices_S2x9x128_S1x9x128_0_0_0 : S2x9x128.Slices ![0, 0, 0] S1x9x128
  shapeCasts_S1x9x128_S9x128 : S1x9x128.ShapeCasts S9x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x256x128_S1x256x128_0_0_0 : S2x256x128.Slices ![0, 0, 0] S1x256x128
  shapeCasts_S1x256x128_S256x128 : S1x256x128.ShapeCasts S256x128
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x9x128_S1x9x128_1_0_0 : S2x9x128.Slices ![1, 0, 0] S1x9x128
  slices_S2x128_S1x128_1_0 : S2x128.Slices ![1, 0] S1x128
  slices_S2x256x256_S1x256x256_1_0_0 : S2x256x256.Slices ![1, 0, 0] S1x256x256
  slices_S2x256_S1x256_1_0 : S2x256.Slices ![1, 0] S1x256
  slices_S2x256x128_S1x256x128_1_0_0 : S2x256x128.Slices ![1, 0, 0] S1x256x128
  bcast_S_S256x1 : S_.BroadcastsInDim S256x1 (![] : Fin 0 → Fin S256x1.rank)
  bcast_S_S256x128 : S_.BroadcastsInDim S256x128 (![] : Fin 0 → Fin S256x128.rank)
  bcast_S256x1_S256x128_0_1 : S256x1.BroadcastsInDim S256x128 (![0, 1] : Fin 2 → Fin S256x128.rank)
  bcast_S256_S256x1_0 : S256.BroadcastsInDim S256x1 (![0] : Fin 1 → Fin S256x1.rank)
  reducesTo_S50000x128_S50000_d1 : S50000x128.ReducesTo [1] S50000
  bcast_S50000_S1x50000_1 : S50000.BroadcastsInDim S1x50000 (![1] : Fin 1 → Fin S1x50000.rank)
  concatenates_S1x50000_S1x50000_S2x50000_d0 : Shape.Concatenates [S1x50000, S1x50000] S2x50000 0
  scatter_S50000x9_S1_S50000_0_1_1_0_wf : ScatterDims.WF S50000x9 S1 S50000 [0] [1] [1] 0
  scatter_S50000x9_S850000x1_S850000x9_1_0_0_1_wf : ScatterDims.WF S50000x9 S850000x1 S850000x9 [1] [0] [0] 1
  scatter_S50000x1_S850000x1_S850000x1_1_0_0_1_wf : ScatterDims.WF S50000x1 S850000x1 S850000x1 [1] [0] [0] 1
  gather_S2x128_S50000x1_S50000x128_1_0_n_n_0_1_1128_wf : GatherDims.WF S2x128 S50000x1 S50000x128 [1] [0] [] [0] [] 1 ![1, 128]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x9_S9x128_S50000x128_1_0_0_1_n_n_wf : DotDims.WF S50000x9 S9x128 S50000x128 [1] [0] [0] [1] [] []
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  scatter_S256x1_S50000x1_S50000x1_1_0_0_1_wf : ScatterDims.WF S256x1 S50000x1 S50000x1 [1] [0] [0] 1
  scatter_S256x128_S50000x1_S50000x128_1_0_0_1_wf : ScatterDims.WF S256x128 S50000x1 S50000x128 [1] [0] [0] 1
  gather_S256x128_S256x1_S256x128_1_0_n_n_0_1_1128_wf : GatherDims.WF S256x128 S256x1 S256x128 [1] [0] [] [0] [] 1 ![1, 128]
  dot_S256x128_S128x128_S256x128_1_0_0_1_n_n_wf : DotDims.WF S256x128 S128x128 S256x128 [1] [0] [0] [1] [] []
  gather_S256x128_S50000x1_S50000x128_1_0_n_n_0_1_1128_wf : GatherDims.WF S256x128 S50000x1 S50000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)

variable [Facts₀]

def scatter_S50000x9_S1_S50000_0_1_1_0 : ScatterDims S50000x9 S1 S50000 where
  updateWindowDims := [0]
  insertedWindowDims := [1]
  scatterDimsToOperandDims := [1]
  indexVectorDim := 0
  wf := scatter_S50000x9_S1_S50000_0_1_1_0_wf
def scatter_S50000x9_S850000x1_S850000x9_1_0_0_1 : ScatterDims S50000x9 S850000x1 S850000x9 where
  updateWindowDims := [1]
  insertedWindowDims := [0]
  scatterDimsToOperandDims := [0]
  indexVectorDim := 1
  wf := scatter_S50000x9_S850000x1_S850000x9_1_0_0_1_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf
def gather_S2x128_S50000x1_S50000x128_1_0_n_n_0_1_1128 : GatherDims S2x128 S50000x1 S50000x128 where
  offsetDims := [1]
  collapsedSliceDims := [0]
  operandBatchingDims := []
  startIndicesBatchingDims := []
  startIndexMap := [0]
  indexVectorDim := 1
  sliceSizes := ![1, 128]
  wf := gather_S2x128_S50000x1_S50000x128_1_0_n_n_0_1_1128_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x9_S9x128_S50000x128_1_0_0_1_n_n : DotDims S50000x9 S9x128 S50000x128 where
  lhsContracting := [1]
  rhsContracting := [0]
  lhsNonContracting := [0]
  rhsNonContracting := [1]
  lhsBatch := []
  rhsBatch := []
  wf := dot_S50000x9_S9x128_S50000x128_1_0_0_1_n_n_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S256x1_S50000x1_S50000x1_1_0_0_1 : ScatterDims S256x1 S50000x1 S50000x1 where
  updateWindowDims := [1]
  insertedWindowDims := [0]
  scatterDimsToOperandDims := [0]
  indexVectorDim := 1
  wf := scatter_S256x1_S50000x1_S50000x1_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def gather_S256x128_S256x1_S256x128_1_0_n_n_0_1_1128 : GatherDims S256x128 S256x1 S256x128 where
  offsetDims := [1]
  collapsedSliceDims := [0]
  operandBatchingDims := []
  startIndicesBatchingDims := []
  startIndexMap := [0]
  indexVectorDim := 1
  sliceSizes := ![1, 128]
  wf := gather_S256x128_S256x1_S256x128_1_0_n_n_0_1_1128_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def gather_S256x128_S50000x1_S50000x128_1_0_n_n_0_1_1128 : GatherDims S256x128 S50000x1 S50000x128 where
  offsetDims := [1]
  collapsedSliceDims := [0]
  operandBatchingDims := []
  startIndicesBatchingDims := []
  startIndexMap := [0]
  indexVectorDim := 1
  sliceSizes := ![1, 128]
  wf := gather_S256x128_S50000x1_S50000x128_1_0_n_n_0_1_1128_wf

abbrev win0_0 : Pipeline.Window sig grid0 :=
  Pipeline.Window.ofSpec (Memref.whole main_v46) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v51) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v72) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v73) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v74) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v75) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v76) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v97) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v99) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v102) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v103) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v103) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v122) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v123) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v124) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v125) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v119) S256x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v126) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v127) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000 : Shape := ⟨1, ![50000]⟩
abbrev S2x800000 : Shape := ⟨2, ![2, 800000]⟩
abbrev S800000x9 : Shape := ⟨2, ![800000, 9]⟩
abbrev S2x128 : Shape := ⟨2, ![2, 128]⟩
abbrev S2x9x128 : Shape := ⟨3, ![2, 9, 128]⟩
abbrev S2x256x256 : Shape := ⟨3, ![2, 256, 256]⟩
abbrev S2x256 : Shape := ⟨2, ![2, 256]⟩
abbrev S2x256x128 : Shape := ⟨3, ![2, 256, 128]⟩
abbrev S128x128 : Shape := ⟨2, ![128, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S50000x9 : Shape := ⟨2, ![50000, 9]⟩
abbrev S1 : Shape := ⟨1, ![1]⟩
abbrev S850000x9 : Shape := ⟨2, ![850000, 9]⟩
abbrev S50000x1 : Shape := ⟨2, ![50000, 1]⟩
abbrev S50000x128 : Shape := ⟨2, ![50000, 128]⟩
abbrev S1x9x128 : Shape := ⟨3, ![1, 9, 128]⟩
abbrev S9x128 : Shape := ⟨2, ![9, 128]⟩
abbrev S850000x128 : Shape := ⟨2, ![850000, 128]⟩
abbrev S1x128 : Shape := ⟨2, ![1, 128]⟩
abbrev S128 : Shape := ⟨1, ![128]⟩
abbrev S850000x1 : Shape := ⟨2, ![850000, 1]⟩
abbrev S850000x256 : Shape := ⟨2, ![850000, 256]⟩
abbrev S50000x256 : Shape := ⟨2, ![50000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S256x1 : Shape := ⟨2, ![256, 1]⟩
abbrev S1x50000 : Shape := ⟨2, ![1, 50000]⟩
abbrev S2x50000 : Shape := ⟨2, ![2, 50000]⟩

abbrev nBuf : Space → Nat
  | .hbm => 278
  | .vmem => 0
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S800000x9, .f32⟩
  | 4 => ⟨S2x128, .f32⟩
  | 5 => ⟨S2x9x128, .f32⟩
  | 6 => ⟨S2x128, .f32⟩
  | 7 => ⟨S2x256x256, .f32⟩
  | 8 => ⟨S2x256, .f32⟩
  | 9 => ⟨S2x256, .f32⟩
  | 10 => ⟨S2x256, .f32⟩
  | 11 => ⟨S2x256x128, .f32⟩
  | 12 => ⟨S2x128, .f32⟩
  | 13 => ⟨S128x128, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S50000x9, .f32⟩
  | 23 => ⟨S_, .i32⟩
  | 24 => ⟨S1, .i32⟩
  | 25 => ⟨S_, .f32⟩
  | 26 => ⟨S50000, .f32⟩
  | 27 => ⟨S50000x9, .f32⟩
  | 28 => ⟨S850000x9, .f32⟩
  | 29 => ⟨S_, .i32⟩
  | 30 => ⟨S50000, .i32⟩
  | 31 => ⟨S50000, .i1⟩
  | 32 => ⟨S_, .i32⟩
  | 33 => ⟨S50000, .i32⟩
  | 34 => ⟨S50000, .i32⟩
  | 35 => ⟨S50000, .i32⟩
  | 36 => ⟨S50000x1, .i32⟩
  | 37 => ⟨S50000x128, .f32⟩
  | 38 => ⟨S1x9x128, .f32⟩
  | 39 => ⟨S9x128, .f32⟩
  | 40 => ⟨S850000x128, .f32⟩
  | 41 => ⟨S1x128, .f32⟩
  | 42 => ⟨S128, .f32⟩
  | 43 => ⟨S1x128, .f32⟩
  | 44 => ⟨S850000x128, .f32⟩
  | 45 => ⟨S850000x128, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x128, .f32⟩
  | 55 => ⟨S850000x256, .f32⟩
  | 56 => ⟨S_, .f32⟩
  | 57 => ⟨S50000x256, .f32⟩
  | 58 => ⟨S850000x1, .i32⟩
  | 59 => ⟨S50000x256, .f32⟩
  | 60 => ⟨S1x256x256, .f32⟩
  | 61 => ⟨S256x256, .f32⟩
  | 62 => ⟨S50000x256, .f32⟩
  | 63 => ⟨S1x256, .f32⟩
  | 64 => ⟨S256, .f32⟩
  | 65 => ⟨S1x256, .f32⟩
  | 66 => ⟨S50000x256, .f32⟩
  | 67 => ⟨S50000x256, .f32⟩
  | 68 => ⟨S_, .f32⟩
  | 69 => ⟨S256, .f32⟩
  | 70 => ⟨S_, .f32⟩
  | 71 => ⟨S256, .f32⟩
  | 72 => ⟨S256, .f32⟩
  | 73 => ⟨S1x256, .f32⟩
  | 74 => ⟨S50000x256, .f32⟩
  | 75 => ⟨S50000x256, .f32⟩
  | 76 => ⟨S50000x256, .f32⟩
  | 77 => ⟨S_, .f32⟩
  | 78 => ⟨S256, .f32⟩
  | 79 => ⟨S_, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S_, .f32⟩
  | 86 => ⟨S256, .f32⟩
  | 87 => ⟨S256, .f32⟩
  | 88 => ⟨S256, .f32⟩
  | 89 => ⟨S1x256, .f32⟩
  | 90 => ⟨S50000x256, .f32⟩
  | 91 => ⟨S50000x256, .f32⟩
  | 92 => ⟨S1x256, .f32⟩
  | 93 => ⟨S256, .f32⟩
  | 94 => ⟨S1x256, .f32⟩
  | 95 => ⟨S50000x256, .f32⟩
  | 96 => ⟨S50000x256, .f32⟩
  | 97 => ⟨S1x256, .f32⟩
  | 98 => ⟨S256, .f32⟩
  | 99 => ⟨S1x256, .f32⟩
  | 100 => ⟨S50000x256, .f32⟩
  | 101 => ⟨S50000x256, .f32⟩
  | 102 => ⟨S_, .f32⟩
  | 103 => ⟨S50000x256, .f32⟩
  | 104 => ⟨S50000x256, .f32⟩
  | 105 => ⟨S1x256x128, .f32⟩
  | 106 => ⟨S256x128, .f32⟩
  | 107 => ⟨S50000x128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S1x9x128, .f32⟩
  | 117 => ⟨S9x128, .f32⟩
  | 118 => ⟨S850000x128, .f32⟩
  | 119 => ⟨S1x128, .f32⟩
  | 120 => ⟨S128, .f32⟩
  | 121 => ⟨S1x128, .f32⟩
  | 122 => ⟨S850000x128, .f32⟩
  | 123 => ⟨S850000x128, .f32⟩
  | 124 => ⟨S_, .i32⟩
  | 125 => ⟨S850000, .i32⟩
  | 126 => ⟨S850000, .i1⟩
  | 127 => ⟨S_, .i32⟩
  | _ => ⟨S50000, .i32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x128, .f32⟩
  | 5 => ⟨S850000x256, .f32⟩
  | 6 => ⟨S_, .f32⟩
  | 7 => ⟨S50000x256, .f32⟩
  | 8 => ⟨S850000x1, .i32⟩
  | 9 => ⟨S50000x256, .f32⟩
  | 10 => ⟨S1x256x256, .f32⟩
  | 11 => ⟨S256x256, .f32⟩
  | 12 => ⟨S50000x256, .f32⟩
  | 13 => ⟨S1x256, .f32⟩
  | 14 => ⟨S256, .f32⟩
  | 15 => ⟨S1x256, .f32⟩
  | 16 => ⟨S50000x256, .f32⟩
  | 17 => ⟨S50000x256, .f32⟩
  | 18 => ⟨S_, .f32⟩
  | 19 => ⟨S256, .f32⟩
  | 20 => ⟨S_, .f32⟩
  | 21 => ⟨S256, .f32⟩
  | 22 => ⟨S256, .f32⟩
  | 23 => ⟨S1x256, .f32⟩
  | 24 => ⟨S50000x256, .f32⟩
  | 25 => ⟨S50000x256, .f32⟩
  | 26 => ⟨S50000x256, .f32⟩
  | 27 => ⟨S_, .f32⟩
  | 28 => ⟨S256, .f32⟩
  | 29 => ⟨S_, .f32⟩
  | 30 => ⟨S256, .f32⟩
  | 31 => ⟨S256, .f32⟩
  | 32 => ⟨S1x256, .f32⟩
  | 33 => ⟨S50000x256, .f32⟩
  | 34 => ⟨S50000x256, .f32⟩
  | 35 => ⟨S_, .f32⟩
  | 36 => ⟨S256, .f32⟩
  | 37 => ⟨S256, .f32⟩
  | 38 => ⟨S256, .f32⟩
  | 39 => ⟨S1x256, .f32⟩
  | 40 => ⟨S50000x256, .f32⟩
  | 41 => ⟨S50000x256, .f32⟩
  | 42 => ⟨S1x256, .f32⟩
  | 43 => ⟨S256, .f32⟩
  | 44 => ⟨S1x256, .f32⟩
  | 45 => ⟨S50000x256, .f32⟩
  | 46 => ⟨S50000x256, .f32⟩
  | 47 => ⟨S1x256, .f32⟩
  | 48 => ⟨S256, .f32⟩
  | 49 => ⟨S1x256, .f32⟩
  | 50 => ⟨S50000x256, .f32⟩
  | 51 => ⟨S50000x256, .f32⟩
  | 52 => ⟨S_, .f32⟩
  | 53 => ⟨S50000x256, .f32⟩
  | 54 => ⟨S50000x256, .f32⟩
  | 55 => ⟨S1x256x128, .f32⟩
  | 56 => ⟨S256x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000x1, .f32⟩
  | 65 => ⟨S_, .f32⟩
  | 66 => ⟨S256x1, .f32⟩
  | 67 => ⟨S50000x1, .i32⟩
  | 68 => ⟨S256x1, .f32⟩
  | 69 => ⟨S_, .f32⟩
  | 70 => ⟨S256x128, .f32⟩
  | 71 => ⟨S50000x1, .i32⟩
  | 72 => ⟨S256x128, .f32⟩
  | 73 => ⟨S_, .f32⟩
  | 74 => ⟨S256x1, .f32⟩
  | 75 => ⟨S256x1, .f32⟩
  | 76 => ⟨S256x128, .f32⟩
  | 77 => ⟨S256x128, .f32⟩
  | 78 => ⟨S256x128, .f32⟩
  | 79 => ⟨S256x128, .f32⟩
  | 80 => ⟨S_, .f32⟩
  | 81 => ⟨S256x128, .f32⟩
  | 82 => ⟨S256x128, .f32⟩
  | 83 => ⟨S_, .f32⟩
  | 84 => ⟨S256x128, .f32⟩
  | 85 => ⟨S256x128, .f32⟩
  | 86 => ⟨S256, .i32⟩
  | 87 => ⟨S_, .i32⟩
  | 88 => ⟨S256, .i32⟩
  | 89 => ⟨S256, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S256, .i32⟩
  | 97 => ⟨S256, .i32⟩
  | 98 => ⟨S_, .i32⟩
  | 99 => ⟨S256, .i32⟩
  | 100 => ⟨S256, .i1⟩
  | 101 => ⟨S_, .i32⟩
  | 102 => ⟨S256, .i32⟩
  | 103 => ⟨S256, .i1⟩
  | 104 => ⟨S_, .i32⟩
  | 105 => ⟨S_, .i1⟩
  | 106 => ⟨S256, .i1⟩
  | 107 => ⟨S256, .i1⟩
  | 108 => ⟨S256, .i1⟩
  | 109 => ⟨S256, .i32⟩
  | 110 => ⟨S256, .i32⟩
  | 111 => ⟨S256, .i32⟩
  | 112 => ⟨S_, .i32⟩
  | 113 => ⟨S256, .i32⟩
  | 114 => ⟨S256, .i1⟩
  | 115 => ⟨S_, .i32⟩
  | 116 => ⟨S256, .i32⟩
  | 117 => ⟨S256, .i32⟩
  | 118 => ⟨S256, .i32⟩
  | 119 => ⟨S256x1, .i32⟩
  | 120 => ⟨S256x128, .f32⟩
  | 121 => ⟨S_, .i32⟩
  | 122 => ⟨S50000, .i32⟩
  | 123 => ⟨S50000, .i1⟩
  | 124 => ⟨S_, .i32⟩
  | 125 => ⟨S50000, .i32⟩
  | 126 => ⟨S50000, .i32⟩
  | 127 => ⟨S50000, .i32⟩
  | _ => ⟨S50000, .i32⟩

abbrev hbmTy0_2 (i : Nat) : BufTy := match i % 128 with
  | 0 => ⟨S50000x1, .i32⟩
  | 1 => ⟨S50000x128, .f32⟩
  | 2 => ⟨S50000x128, .f32⟩
  | 3 => ⟨S50000x128, .f32⟩
  | 4 => ⟨S_, .f32⟩
  | 5 => ⟨S50000, .f32⟩
  | 6 => ⟨S_, .i32⟩
  | 7 => ⟨S50000, .i32⟩
  | 8 => ⟨S50000, .i1⟩
  | 9 => ⟨S_, .i32⟩
  | 10 => ⟨S50000, .i32⟩
  | 11 => ⟨S50000, .i32⟩
  | 12 => ⟨S50000, .i32⟩
  | 13 => ⟨S50000x1, .i32⟩
  | 14 => ⟨S50000x128, .f32⟩
  | 15 => ⟨S50000x128, .f32⟩
  | 16 => ⟨S50000x128, .f32⟩
  | 17 => ⟨S_, .f32⟩
  | 18 => ⟨S50000, .f32⟩
  | 19 => ⟨S1x50000, .f32⟩
  | 20 => ⟨S1x50000, .f32⟩
  | 21 => ⟨S2x50000, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call0_cst : Ref sig .tc := ⟨.hbm, 102, rfl⟩
abbrev main_call0_v0 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_call1_cst : Ref sig .tc := ⟨.hbm, 113, rfl⟩
abbrev main_call1_v0 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_11 : Ref sig .tc := ⟨.hbm, 124, rfl⟩
abbrev main_v93 : Ref sig .tc := ⟨.hbm, 125, rfl⟩
abbrev main_v94 : Ref sig .tc := ⟨.hbm, 126, rfl⟩
abbrev main_c_12 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_13 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_14 : Ref sig .tc := ⟨.hbm, 146, rfl⟩
abbrev main_v112 : Ref sig .tc := ⟨.hbm, 147, rfl⟩
abbrev main_cst_15 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_16 : Ref sig .tc := ⟨.hbm, 155, rfl⟩
abbrev main_v119 : Ref sig .tc := ⟨.hbm, 156, rfl⟩
abbrev main_cst_17 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_18 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_call2_cst : Ref sig .tc := ⟨.hbm, 180, rfl⟩
abbrev main_call2_v0 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_19 : Ref sig .tc := ⟨.hbm, 191, rfl⟩
abbrev main_v150 : Ref sig .tc := ⟨.hbm, 192, rfl⟩
abbrev main_cst_20 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_cst_21 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_22 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_cst_23 : Ref sig .tc := ⟨.hbm, 208, rfl⟩
abbrev main_v163 : Ref sig .tc := ⟨.hbm, 209, rfl⟩
abbrev main_v164 : Ref sig .tc := ⟨.hbm, 210, rfl⟩
abbrev main_cst_24 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_c_25 : Ref sig .tc := ⟨.hbm, 215, rfl⟩
abbrev main_v168 : Ref sig .tc := ⟨.hbm, 216, rfl⟩
abbrev main_v169 : Ref sig .tc := ⟨.hbm, 217, rfl⟩
abbrev main_c_26 : Ref sig .tc := ⟨.hbm, 218, rfl⟩
abbrev main_call3_v0 : Ref sig .tc := ⟨.hbm, 219, rfl⟩
abbrev main_call3_c : Ref sig .tc := ⟨.hbm, 220, rfl⟩
abbrev main_call3_v1 : Ref sig .tc := ⟨.hbm, 221, rfl⟩
abbrev main_call3_c_0 : Ref sig .tc := ⟨.hbm, 222, rfl⟩
abbrev main_call3_v2 : Ref sig .tc := ⟨.hbm, 223, rfl⟩
abbrev main_call3_v3 : Ref sig .tc := ⟨.hbm, 224, rfl⟩
abbrev main_call3_v4 : Ref sig .tc := ⟨.hbm, 225, rfl⟩
abbrev main_call3_c_1 : Ref sig .tc := ⟨.hbm, 226, rfl⟩
abbrev main_call3_v5 : Ref sig .tc := ⟨.hbm, 227, rfl⟩
abbrev main_call3_v6 : Ref sig .tc := ⟨.hbm, 228, rfl⟩
abbrev main_call3_c_2 : Ref sig .tc := ⟨.hbm, 229, rfl⟩
abbrev main_call3_v7 : Ref sig .tc := ⟨.hbm, 230, rfl⟩
abbrev main_call3_v8 : Ref sig .tc := ⟨.hbm, 231, rfl⟩
abbrev main_call3_c_3 : Ref sig .tc := ⟨.hbm, 232, rfl⟩
abbrev main_call3_v9 : Ref sig .tc := ⟨.hbm, 233, rfl⟩
abbrev main_call3_v10 : Ref sig .tc := ⟨.hbm, 234, rfl⟩
abbrev main_call3_v11 : Ref sig .tc := ⟨.hbm, 235, rfl⟩
abbrev main_call3_v12 : Ref sig .tc := ⟨.hbm, 236, rfl⟩
abbrev main_call3_v13 : Ref sig .tc := ⟨.hbm, 237, rfl⟩
abbrev main_call3_v14 : Ref sig .tc := ⟨.hbm, 238, rfl⟩
abbrev main_v170 : Ref sig .tc := ⟨.hbm, 239, rfl⟩
abbrev main_c_27 : Ref sig .tc := ⟨.hbm, 240, rfl⟩
abbrev main_v171 : Ref sig .tc := ⟨.hbm, 241, rfl⟩
abbrev main_v172 : Ref sig .tc := ⟨.hbm, 242, rfl⟩
abbrev main_c_28 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_c_29 : Ref sig .tc := ⟨.hbm, 249, rfl⟩
abbrev main_v178 : Ref sig .tc := ⟨.hbm, 250, rfl⟩
abbrev main_v179 : Ref sig .tc := ⟨.hbm, 251, rfl⟩
abbrev main_c_30 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_cst_31 : Ref sig .tc := ⟨.hbm, 260, rfl⟩
abbrev main_v187 : Ref sig .tc := ⟨.hbm, 261, rfl⟩
abbrev main_c_32 : Ref sig .tc := ⟨.hbm, 262, rfl⟩
abbrev main_v188 : Ref sig .tc := ⟨.hbm, 263, rfl⟩
abbrev main_v189 : Ref sig .tc := ⟨.hbm, 264, rfl⟩
abbrev main_c_33 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_cst_34 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000x9 : S_.BroadcastsInDim S50000x9 (![] : Fin 0 → Fin S50000x9.rank)
  bcast_S_S1 : S_.BroadcastsInDim S1 (![] : Fin 0 → Fin S1.rank)
  bcast_S_S50000 : S_.BroadcastsInDim S50000 (![] : Fin 0 → Fin S50000.rank)
  concatenates_S800000x9_S50000x9_S850000x9_d0 : Shape.Concatenates [S800000x9, S50000x9] S850000x9 0
  bcast_S50000_S50000x1_0 : S50000.BroadcastsInDim S50000x1 (![0] : Fin 1 → Fin S50000x1.rank)
  slices_S2x9x128_S1x9x128_0_0_0 : S2x9x128.Slices ![0, 0, 0] S1x9x128
  shapeCasts_S1x9x128_S9x128 : S1x9x128.ShapeCasts S9x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S850000x128_0_1 : S1x128.BroadcastsInDim S850000x128 (![0, 1] : Fin 2 → Fin S850000x128.rank)
  bcast_S_S850000 : S_.BroadcastsInDim S850000 (![] : Fin 0 → Fin S850000.rank)
  bcast_S850000_S850000x1_0 : S850000.BroadcastsInDim S850000x1 (![0] : Fin 1 → Fin S850000x1.rank)
  concatenates_S850000x128_S850000x128_S850000x256_d1 : Shape.Concatenates [S850000x128, S850000x128] S850000x256 1
  bcast_S_S50000x256 : S_.BroadcastsInDim S50000x256 (![] : Fin 0 → Fin S50000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  slices_S2x256x128_S1x256x128_0_0_0 : S2x256x128.Slices ![0, 0, 0] S1x256x128
  shapeCasts_S1x256x128_S256x128 : S1x256x128.ShapeCasts S256x128
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x9x128_S1x9x128_1_0_0 : S2x9x128.Slices ![1, 0, 0] S1x9x128
  slices_S2x128_S1x128_1_0 : S2x128.Slices ![1, 0] S1x128
  slices_S2x256x256_S1x256x256_1_0_0 : S2x256x256.Slices ![1, 0, 0] S1x256x256
  slices_S2x256_S1x256_1_0 : S2x256.Slices ![1, 0] S1x256
  slices_S2x256x128_S1x256x128_1_0_0 : S2x256x128.Slices ![1, 0, 0] S1x256x128
  bcast_S_S50000x1 : S_.BroadcastsInDim S50000x1 (![] : Fin 0 → Fin S50000x1.rank)
  bcast_S_S256x1 : S_.BroadcastsInDim S256x1 (![] : Fin 0 → Fin S256x1.rank)
  bcast_S_S256x128 : S_.BroadcastsInDim S256x128 (![] : Fin 0 → Fin S256x128.rank)
  bcast_S256x1_S256x128_0_1 : S256x1.BroadcastsInDim S256x128 (![0, 1] : Fin 2 → Fin S256x128.rank)
  bcast_S256_S256x1_0 : S256.BroadcastsInDim S256x1 (![0] : Fin 1 → Fin S256x1.rank)
  reducesTo_S50000x128_S50000_d1 : S50000x128.ReducesTo [1] S50000
  bcast_S50000_S1x50000_1 : S50000.BroadcastsInDim S1x50000 (![1] : Fin 1 → Fin S1x50000.rank)
  concatenates_S1x50000_S1x50000_S2x50000_d0 : Shape.Concatenates [S1x50000, S1x50000] S2x50000 0
  scatter_S50000x9_S1_S50000_0_1_1_0_wf : ScatterDims.WF S50000x9 S1 S50000 [0] [1] [1] 0
  gather_S2x128_S50000x1_S50000x128_1_0_n_n_0_1_1128_wf : GatherDims.WF S2x128 S50000x1 S50000x128 [1] [0] [] [0] [] 1 ![1, 128]
  dot_S850000x9_S9x128_S850000x128_1_0_0_1_n_n_wf : DotDims.WF S850000x9 S9x128 S850000x128 [1] [0] [0] [1] [] []
  gather_S50000x128_S850000x1_S850000x128_1_0_n_n_0_1_1128_wf : GatherDims.WF S50000x128 S850000x1 S850000x128 [1] [0] [] [0] [] 1 ![1, 128]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  scatter_S256x1_S50000x1_S50000x1_1_0_0_1_wf : ScatterDims.WF S256x1 S50000x1 S50000x1 [1] [0] [0] 1
  scatter_S256x128_S50000x1_S50000x128_1_0_0_1_wf : ScatterDims.WF S256x128 S50000x1 S50000x128 [1] [0] [0] 1
  gather_S256x128_S256x1_S256x128_1_0_n_n_0_1_1128_wf : GatherDims.WF S256x128 S256x1 S256x128 [1] [0] [] [0] [] 1 ![1, 128]
  gather_S256x128_S50000x1_S50000x128_1_0_n_n_0_1_1128_wf : GatherDims.WF S256x128 S50000x1 S50000x128 [1] [0] [] [0] [] 1 ![1, 128]
  dot_S50000x128_S128x128_S50000x128_1_0_0_1_n_n_wf : DotDims.WF S50000x128 S128x128 S50000x128 [1] [0] [0] [1] [] []

variable [Facts₀]

def scatter_S50000x9_S1_S50000_0_1_1_0 : ScatterDims S50000x9 S1 S50000 where
  updateWindowDims := [0]
  insertedWindowDims := [1]
  scatterDimsToOperandDims := [1]
  indexVectorDim := 0
  wf := scatter_S50000x9_S1_S50000_0_1_1_0_wf
def gather_S2x128_S50000x1_S50000x128_1_0_n_n_0_1_1128 : GatherDims S2x128 S50000x1 S50000x128 where
  offsetDims := [1]
  collapsedSliceDims := [0]
  operandBatchingDims := []
  startIndicesBatchingDims := []
  startIndexMap := [0]
  indexVectorDim := 1
  sliceSizes := ![1, 128]
  wf := gather_S2x128_S50000x1_S50000x128_1_0_n_n_0_1_1128_wf
def dot_S850000x9_S9x128_S850000x128_1_0_0_1_n_n : DotDims S850000x9 S9x128 S850000x128 where
  lhsContracting := [1]
  rhsContracting := [0]
  lhsNonContracting := [0]
  rhsNonContracting := [1]
  lhsBatch := []
  rhsBatch := []
  wf := dot_S850000x9_S9x128_S850000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S256x1_S50000x1_S50000x1_1_0_0_1 : ScatterDims S256x1 S50000x1 S50000x1 where
  updateWindowDims := [1]
  insertedWindowDims := [0]
  scatterDimsToOperandDims := [0]
  indexVectorDim := 1
  wf := scatter_S256x1_S50000x1_S50000x1_1_0_0_1_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def gather_S256x128_S256x1_S256x128_1_0_n_n_0_1_1128 : GatherDims S256x128 S256x1 S256x128 where
  offsetDims := [1]
  collapsedSliceDims := [0]
  operandBatchingDims := []
  startIndicesBatchingDims := []
  startIndexMap := [0]
  indexVectorDim := 1
  sliceSizes := ![1, 128]
  wf := gather_S256x128_S256x1_S256x128_1_0_n_n_0_1_1128_wf
def gather_S256x128_S50000x1_S50000x128_1_0_n_n_0_1_1128 : GatherDims S256x128 S50000x1 S50000x128 where
  offsetDims := [1]
  collapsedSliceDims := [0]
  operandBatchingDims := []
  startIndicesBatchingDims := []
  startIndexMap := [0]
  indexVectorDim := 1
  sliceSizes := ![1, 128]
  wf := gather_S256x128_S50000x1_S50000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run, with its result.

  The program is four kernel regions among stretches of host operations.  From any launch memory every weakly fair
  execution terminates without a fault, and the final memory holds, in every buffer that outlives the run, the contents
  of the last segment boundary: the fold of the host stretches and the regions' write-backs over the launch memory.
  Read at the result buffer this is the program's value; read at the fourteen argument buffers it is the launch
  contents, since no stretch and no region writes an argument.
-/
import proofs.«107108_j75977971466801_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the argument buffers as launched. -/
theorem run_main : θ_run defs (onTc (τ := τ) (main (F := F))) ⟨m, fun _ => 0, ρ⟩ (fun r => ∀ c : Dev nD,
      r.2.mem ((c.tc : Thread nD τ).loc main_v178) = W11 m ρ c (Proc.devRef .tc main_v178)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v178 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c)⟩)

end Cert.KernelIdeal.KRun

end
-- ==== Proof.RefRun.lean ====
/- The run of the reference program.

   The reference's @main is a straight line of host operations with no kernel launch: 238 statements (printed in four
   consecutive windows) and the return. Four of the statements call an outlined function: the rectifier on a
   50000×256 array (twice) and on a 50000×128 array (each: the zero, its broadcast, the elementwise maximum), and the
   integer remainder of a 256-vector by a scalar (21 operations: the divisor converted, replaced by 1 where it is 0 — that
   choice is a call of its own, one select —, the truncated remainder, and the sign correction that makes the result take the
   divisor's sign). A call executes the callee's body on the call's operands, each value of the body in a buffer of its own
   (the call's record), so the whole program is ONE list of 264 operations: each call's operations stand in the call's place,
   written over that call's record, the formal operands replaced by the actual ones.

   `main_eq`: @main IS that list run in order (`seq`): both sides are the same chain of steps once the windows and the called
   bodies are unfolded, and sequencing in the free monad computes (grafting a continuation on a step is a step), so the
   equation holds by computation.
   `ops_sub`: every operation reads and writes TensorCore buffers only.
   `run_main`: hence, from any memory with zero counters, every weakly fair execution of @main terminates without a fault, and
   each TensorCore buffer ends at the fold of the operations' results, in order, over the launch contents (`after`). In
   particular a buffer no operation writes — every argument — ends unchanged, and the result buffer ends at the composed
   term of the arguments. -/
import proofs.«107108_j75977971466801_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- 264 entries, each with its shape facts to elaborate: more than the default budget
set_option maxHeartbeats 40000000 in
/-- @main's 264 operations, in order; a called function's operations stand at its call, over the call's record
    (`main_call0` … `main_call3`, and `main_call3.call0` for the call nested in the remainder). -/
abbrev ops : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x00000000#32),
    StableHlo.unary main_cst main_v7 (broadcastInDim S50000x9 ![] bcast_S_S50000x9 : (⟨S_, .f32⟩ : BufTy).Contents (Elt F) → (⟨S50000x9, .f32⟩ : BufTy).Contents (Elt F)),
    StableHlo.nullary main_c (constantI S_ 32 7#32),
    StableHlo.unary main_c main_v8 (broadcastInDim S1 ![] bcast_S_S1 : (⟨S_, .i32⟩ : BufTy).Contents (Elt F) → (⟨S1, .i32⟩ : BufTy).Contents (Elt F)),
    StableHlo.nullary main_cst_0 (constant S_ .f32 0x3F800000#32),
    StableHlo.unary main_cst_0 main_v9 (broadcastInDim S50000 ![] bcast_S_S50000 : (⟨S_, .f32⟩ : BufTy).Contents (Elt F) → (⟨S50000, .f32⟩ : BufTy).Contents (Elt F)),
    StableHlo.ternary main_v7 main_v8 main_v9 main_v10 ((fun x i u => Host.scatter scatter_S50000x9_S1_S50000_0_1_1_0 (fun _ b => b) x i u) : (⟨S50000x9, .f32⟩ : BufTy).Contents (Elt F) → (⟨S1, .i32⟩ : BufTy).Contents (Elt F) → (⟨S50000, .f32⟩ : BufTy).Contents (Elt F) → (⟨S50000x9, .f32⟩ : BufTy).Contents (Elt F)),
    StableHlo.binary main_arg3 main_v10 main_v11 ((fun a b => concatenate S850000x9 0 [⟨S800000x9, a⟩, ⟨S50000x9, b⟩] concatenates_S800000x9_S50000x9_S850000x9_d0) : (⟨S800000x9, .f32⟩ : BufTy).Contents (Elt F) → (⟨S50000x9, .f32⟩ : BufTy).Contents (Elt F) → (⟨S850000x9, .f32⟩ : BufTy).Contents (Elt F)),
    StableHlo.nullary main_c_1 (constantI S_ 32 0#32),
    StableHlo.unary main_c_1 main_v12 (broadcastInDim S50000 ![] bcast_S_S50000 : (⟨S_, .i32⟩ : BufTy).Contents (Elt F) → (⟨S50000, .i32⟩ : BufTy).Contents (Elt F)),
    StableHlo.binary main_arg0 main_v12 main_v13 (cmpi .slt : (⟨S50000, .i32⟩ : BufTy).Contents (Elt F) → (⟨S50000, .i32⟩ : BufTy).Contents (Elt F) → (⟨S50000, .i1⟩ : BufTy).Contents (Elt F)),
    StableHlo.nullary main_c_2 (constantI S_ 32 2#32),
    StableHlo.unary main_c_2 main_v14 (broadcastInDim S50000 ![] bcast_S_S50000 : (⟨S_, .i32⟩ : BufTy).Contents (Elt F) → (⟨S50000, .i32⟩ : BufTy).Contents (Elt F)),
    StableHlo.binary main_arg0 main_v14 main_v15 (addi : (⟨S50000, .i32⟩ : BufTy).Contents (Elt F) → (⟨S50000, .i32⟩ : BufTy).Contents (Elt F) → (⟨S50000, .i32⟩ : BufTy).Contents (Elt F)),
    StableHlo.ternary main_v13 main_v15 main_arg0 main_v16 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v16 main_v17 (broadcastInDim S50000x1 ![0] bcast_S50000_S50000x1_0 : (⟨S50000, .i32⟩ : BufTy).Contents (Elt F) → (⟨S50000x1, .i32⟩ : BufTy).Contents (Elt F)),
    StableHlo.binary main_arg4 main_v17 main_v18 ((fun x i => Host.gather gather_S2x128_S50000x1_S50000x128_1_0_n_n_0_1_1128 x i) : (⟨S2x128, .f32⟩ : BufTy).Contents (Elt F) → (⟨S50000x1, .i32⟩ : BufTy).Contents (Elt F) → (⟨S50000x128, .f32⟩ : BufTy).Contents (Elt F)),
    StableHlo.unary main_arg5 main_v19 ((extractStridedSlice S1x9x128 ![0, 0, 0] · slices_S2x9x128_S1x9x128_0_0_0) : (⟨S2x9x128, .f32⟩ : BufTy).Contents (Elt F) → (⟨S1x9x128, .f32⟩ : BufTy).Contents (Elt F)),
    StableHlo.reshape main_v19 main_v20 rfl shapeCasts_S1x9x128_S9x128,
    StableHlo.binary main_v11 main_v20 main_v21 ((fun l r => Host.dotGeneral dot_S850000x9_S9x128_S850000x128_1_0_0_1_n_n none l r) : (⟨S850000x9, .f32⟩ : BufTy).Contents (Elt F) → (⟨S9x128, .f32⟩ : BufTy).Contents (Elt F) → (⟨S850000x128, .f32⟩ : BufTy).Contents (Elt F)),
    StableHlo.unary main_arg6 main_v22 ((extractStridedSlice S1x128 ![0, 0] · slices_S2x128_S1x128_0_0) : (⟨S2x128, .f32⟩ : BufTy).Contents (Elt F) → (⟨S1x128, .f32⟩ : BufTy).Contents (Elt F)),
    StableHlo.reshape main_v22 main_v23 rfl shapeCasts_S1x128_S128,
    StableHlo.unary main_v23 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S850000x128 ![0, 1] bcast_S1x128_S850000x128_0_1 : (⟨S1x128, .f32⟩ : BufTy).Contents (Elt F) → (⟨S850000x128, .f32⟩ : BufTy).Contents (Elt F)),
    StableHlo.binary main_v21 main_v25 main_v26 (addf : (⟨S850000x128, .f32⟩ : BufTy).Contents (Elt F) → (⟨S850000x128, .f32⟩ : BufTy).Contents (Elt F) → (⟨S850000x128, .f32⟩ : BufTy).Contents (Elt F)),
    StableHlo.nullary main_c_3 (constantI S_ 32 0#32),
    StableHlo.unary main_c_3 main_v27 (broadcastInDim S850000 ![] bcast_S_S850000 : (⟨S_, .i32⟩ : BufTy).Contents (Elt F) → (⟨S850000, .i32⟩ : BufTy).Contents (Elt F)),
    StableHlo.binary main_v6 main_v27 main_v28 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v29 (broadcastInDim S850000 ![] bcast_S_S850000 : (⟨S_, .i32⟩ : BufTy).Contents (Elt F) → (⟨S850000, .i32⟩ : BufTy).Contents (Elt F)),
    StableHlo.binary main_v6 main_v29 main_v30 (addi : (⟨S850000, .i32⟩ : BufTy).Contents (Elt F) → (⟨S850000, .i32⟩ : BufTy).Contents (Elt F) → (⟨S850000, .i32⟩ : BufTy).Contents (Elt F)),
    StableHlo.ternary main_v28 main_v30 main_v6 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v31 main_v32 (broadcastInDim S850000x1 ![0] bcast_S850000_S850000x1_0 : (⟨S850000, .i32⟩ : BufTy).Contents (Elt F) → (⟨S850000x1, .i32⟩ : BufTy).Contents (Elt F)),
    StableHlo.binary main_v18 main_v32 main_v33 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.binary main_v33 main_v26 main_v34 ((fun a b => concatenate S850000x256 1 [⟨S850000x128, a⟩, ⟨S850000x128, b⟩] concatenates_S850000x128_S850000x128_S850000x256_d1) : (⟨S850000x128, .f32⟩ : BufTy).Contents (Elt F) → (⟨S850000x128, .f32⟩ : BufTy).Contents (Elt F) → (⟨S850000x256, .f32⟩ : BufTy).Contents (Elt F)),
    StableHlo.nullary main_cst_5 (constant S_ .f32 0x00000000#32),
    StableHlo.unary main_cst_5 main_v35 (broadcastInDim S50000x256 ![] bcast_S_S50000x256 : (⟨S_, .f32⟩ : BufTy).Contents (Elt F) → (⟨S50000x256, .f32⟩ : BufTy).Contents (Elt F)),
    StableHlo.unary main_v3 main_v36 (broadcastInDim S850000x1 ![0] bcast_S850000_S850000x1_0 : (⟨S850000, .i32⟩ : BufTy).Contents (Elt F) → (⟨S850000x1, .i32⟩ : BufTy).Contents (Elt F)),
    StableHlo.ternary main_v35 main_v36 main_v34 main_v37 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v38 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v38 main_v39 rfl shapeCasts_S1x256x256_S256x256,
    StableHlo.binary main_v37 main_v39 main_v40 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v41 ((extractStridedSlice S1x256 ![0, 0] · slices_S2x256_S1x256_0_0) : (⟨S2x256, .f32⟩ : BufTy).Contents (Elt F) → (⟨S1x256, .f32⟩ : BufTy).Contents (Elt F)),
    StableHlo.reshape main_v41 main_v42 rfl shapeCasts_S1x256_S256,
    StableHlo.unary main_v42 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S50000x256 ![0, 1] bcast_S1x256_S50000x256_0_1 : (⟨S1x256, .f32⟩ : BufTy).Contents (Elt F) → (⟨S50000x256, .f32⟩ : BufTy).Contents (Elt F)),
    StableHlo.binary main_v40 main_v44 main_v45 (addf : (⟨S50000x256, .f32⟩ : BufTy).Contents (Elt F) → (⟨S50000x256, .f32⟩ : BufTy).Contents (Elt F) → (⟨S50000x256, .f32⟩ : BufTy).Contents (Elt F)),
    StableHlo.nullary main_cst_6 (constant S_ .f32 0x00000000#32),
    StableHlo.binary main_v45 main_cst_6 main_v46 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_7 (constant S_ .f32 0x47435000#32),
    StableHlo.unary main_cst_7 main_v47 (broadcastInDim S256 ![] bcast_S_S256 : (⟨S_, .f32⟩ : BufTy).Contents (Elt F) → (⟨S256, .f32⟩ : BufTy).Contents (Elt F)),
    StableHlo.binary main_v46 main_v47 main_v48 (Host.divf : (⟨S256, .f32⟩ : BufTy).Contents (Elt F) → (⟨S256, .f32⟩ : BufTy).Contents (Elt F) → (⟨S256, .f32⟩ : BufTy).Contents (Elt F)),
    StableHlo.unary main_v48 main_v49 (broadcastInDim S1x256 ![1] bcast_S256_S1x256_1 : (⟨S256, .f32⟩ : BufTy).Contents (Elt F) → (⟨S1x256, .f32⟩ : BufTy).Contents (Elt F)),
    StableHlo.unary main_v49 main_v50 (broadcastInDim S50000x256 ![0, 1] bcast_S1x256_S50000x256_0_1 : (⟨S1x256, .f32⟩ : BufTy).Contents (Elt F) → (⟨S50000x256, .f32⟩ : BufTy).Contents (Elt F)),
    StableHlo.binary main_v45 main_v50 main_v51 (subf : (⟨S50000x256, .f32⟩ : BufTy).Contents (Elt F) → (⟨S50000x256, .f32⟩ : BufTy).Contents (Elt F) → (⟨S50000x256, .f32⟩ : BufTy).Contents (Elt F)),
    StableHlo.binary main_v51 main_v51 main_v52 (mulf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x00000000#32),
    StableHlo.binary main_v52 main_cst_8 main_v53 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_9 (constant S_ .f32 0x47435000#32),
    StableHlo.unary main_cst_9 main_v54 (broadcastInDim S256 ![] bcast_S_S256 : (⟨S_, .f32⟩ : BufTy).Contents (Elt F) → (⟨S256, .f32⟩ : BufTy).Contents (Elt F)),
    StableHlo.binary main_v53 main_v54 main_v55 (Host.divf : (⟨S256, .f32⟩ : BufTy).Contents (Elt F) → (⟨S256, .f32⟩ : BufTy).Contents (Elt F) → (⟨S256, .f32⟩ : BufTy).Contents (Elt F)),
    StableHlo.unary main_v48 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S50000x256 ![0, 1] bcast_S1x256_S50000x256_0_1 : (⟨S1x256, .f32⟩ : BufTy).Contents (Elt F) → (⟨S50000x256, .f32⟩ : BufTy).Contents (Elt F)),
    StableHlo.binary main_v45 main_v57 main_v58 (subf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x3727C5AC#32),
    StableHlo.unary main_cst_10 main_v59 (broadcastInDim S256 ![] bcast_S_S256 : (⟨S_, .f32⟩ : BufTy).Contents (Elt F) → (⟨S256, .f32⟩ : BufTy).Contents (Elt F)),
    StableHlo.binary main_v55 main_v59 main_v60 (addf : (⟨S256, .f32⟩ : BufTy).Contents (Elt F) → (⟨S256, .f32⟩ : BufTy).Contents (Elt F) → (⟨S256, .f32⟩ : BufTy).Contents (Elt F)),
    StableHlo.unary main_v60 main_v61 (Host.rsqrt : (⟨S256, .f32⟩ : BufTy).Contents (Elt F) → (⟨S256, .f32⟩ : BufTy).Contents (Elt F)),
    StableHlo.unary main_v61 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v58 main_v63 main_v64 (mulf : (⟨S50000x256, .f32⟩ : BufTy).Contents (Elt F) → (⟨S50000x256, .f32⟩ : BufTy).Contents (Elt F) → (⟨S50000x256, .f32⟩ : BufTy).Contents (Elt F)),
    StableHlo.unary main_arg9 main_v65 ((extractStridedSlice S1x256 ![0, 0] · slices_S2x256_S1x256_0_0) : (⟨S2x256, .f32⟩ : BufTy).Contents (Elt F) → (⟨S1x256, .f32⟩ : BufTy).Contents (Elt F)),
    StableHlo.reshape main_v65 main_v66 rfl shapeCasts_S1x256_S256,
    StableHlo.unary main_v66 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v68 main_v69 (mulf : (⟨S50000x256, .f32⟩ : BufTy).Contents (Elt F) → (⟨S50000x256, .f32⟩ : BufTy).Contents (Elt F) → (⟨S50000x256, .f32⟩ : BufTy).Contents (Elt F)),
    StableHlo.unary main_arg10 main_v70 ((extractStridedSlice S1x256 ![0, 0] · slices_S2x256_S1x256_0_0) : (⟨S2x256, .f32⟩ : BufTy).Contents (Elt F) → (⟨S1x256, .f32⟩ : BufTy).Contents (Elt F)),
    StableHlo.reshape main_v70 main_v71 rfl shapeCasts_S1x256_S256,
    StableHlo.unary main_v71 main_v72 (broadcastInDim S1x256 ![1] bcast_S256_S1x256_1 : (⟨S256, .f32⟩ : BufTy).Contents (Elt F) → (⟨S1x256, .f32⟩ : BufTy).Contents (Elt F)),
    StableHlo.unary main_v72 main_v73 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v73 main_v74 (addf : (⟨S50000x256, .f32⟩ : BufTy).Contents (Elt F) → (⟨S50000x256, .f32⟩ : BufTy).Contents (Elt F) → (⟨S50000x256, .f32⟩ : BufTy).Contents (Elt F)),
    StableHlo.TRef.nullary main_call0.cst (constant S_ .f32 0x00000000#32),
    StableHlo.TRef.unary main_call0.cst main_call0.v0 (broadcastInDim S50000x256 ![] bcast_S_S50000x256),
    StableHlo.TRef.binary (.of main_v74) main_call0.v0 main_call0.v1 maximumf,
    StableHlo.unary main_arg11 main_v76 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v76 main_v77 rfl shapeCasts_S1x256x128_S256x128,
    StableHlo.binary main_v75 main_v77 main_v78 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v79 ((extractStridedSlice S1x128 ![0, 0] · slices_S2x128_S1x128_0_0) : (⟨S2x128, .f32⟩ : BufTy).Contents (Elt F) → (⟨S1x128, .f32⟩ : BufTy).Contents (Elt F)),
    StableHlo.reshape main_v79 main_v80 rfl shapeCasts_S1x128_S128,
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v82 main_v83 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v83) main_call1.v0 main_call1.v1 maximumf,
    StableHlo.unary main_arg5 main_v85 ((extractStridedSlice S1x9x128 ![1, 0, 0] · slices_S2x9x128_S1x9x128_1_0_0) : (⟨S2x9x128, .f32⟩ : BufTy).Contents (Elt F) → (⟨S1x9x128, .f32⟩ : BufTy).Contents (Elt F)),
    StableHlo.reshape main_v85 main_v86 rfl shapeCasts_S1x9x128_S9x128,
    StableHlo.binary main_v11 main_v86 main_v87 ((fun l r => Host.dotGeneral dot_S850000x9_S9x128_S850000x128_1_0_0_1_n_n none l r) : (⟨S850000x9, .f32⟩ : BufTy).Contents (Elt F) → (⟨S9x128, .f32⟩ : BufTy).Contents (Elt F) → (⟨S850000x128, .f32⟩ : BufTy).Contents (Elt F)),
    StableHlo.unary main_arg6 main_v88 ((extractStridedSlice S1x128 ![1, 0] · slices_S2x128_S1x128_1_0) : (⟨S2x128, .f32⟩ : BufTy).Contents (Elt F) → (⟨S1x128, .f32⟩ : BufTy).Contents (Elt F)),
    StableHlo.reshape main_v88 main_v89 rfl shapeCasts_S1x128_S128,
    StableHlo.unary main_v89 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S850000x128 ![0, 1] bcast_S1x128_S850000x128_0_1 : (⟨S1x128, .f32⟩ : BufTy).Contents (Elt F) → (⟨S850000x128, .f32⟩ : BufTy).Contents (Elt F)),
    StableHlo.binary main_v87 main_v91 main_v92 (addf : (⟨S850000x128, .f32⟩ : BufTy).Contents (Elt F) → (⟨S850000x128, .f32⟩ : BufTy).Contents (Elt F) → (⟨S850000x128, .f32⟩ : BufTy).Contents (Elt F)),
    StableHlo.nullary main_c_11 (constantI S_ 32 0#32),
    StableHlo.unary main_c_11 main_v93 (broadcastInDim S850000 ![] bcast_S_S850000 : (⟨S_, .i32⟩ : BufTy).Contents (Elt F) → (⟨S850000, .i32⟩ : BufTy).Contents (Elt F)),
    StableHlo.binary main_v6 main_v93 main_v94 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v95 (broadcastInDim S850000 ![] bcast_S_S850000 : (⟨S_, .i32⟩ : BufTy).Contents (Elt F) → (⟨S850000, .i32⟩ : BufTy).Contents (Elt F)),
    StableHlo.binary main_v6 main_v95 main_v96 (addi : (⟨S850000, .i32⟩ : BufTy).Contents (Elt F) → (⟨S850000, .i32⟩ : BufTy).Contents (Elt F) → (⟨S850000, .i32⟩ : BufTy).Contents (Elt F)),
    StableHlo.ternary main_v94 main_v96 main_v6 main_v97 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v97 main_v98 (broadcastInDim S850000x1 ![0] bcast_S850000_S850000x1_0 : (⟨S850000, .i32⟩ : BufTy).Contents (Elt F) → (⟨S850000x1, .i32⟩ : BufTy).Contents (Elt F)),
    StableHlo.binary main_v84 main_v98 main_v99 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.binary main_v99 main_v92 main_v100 ((fun a b => concatenate S850000x256 1 [⟨S850000x128, a⟩, ⟨S850000x128, b⟩] concatenates_S850000x128_S850000x128_S850000x256_d1) : (⟨S850000x128, .f32⟩ : BufTy).Contents (Elt F) → (⟨S850000x128, .f32⟩ : BufTy).Contents (Elt F) → (⟨S850000x256, .f32⟩ : BufTy).Contents (Elt F)),
    StableHlo.nullary main_cst_13 (constant S_ .f32 0x00000000#32),
    StableHlo.unary main_cst_13 main_v101 (broadcastInDim S50000x256 ![] bcast_S_S50000x256 : (⟨S_, .f32⟩ : BufTy).Contents (Elt F) → (⟨S50000x256, .f32⟩ : BufTy).Contents (Elt F)),
    StableHlo.unary main_v3 main_v102 (broadcastInDim S850000x1 ![0] bcast_S850000_S850000x1_0 : (⟨S850000, .i32⟩ : BufTy).Contents (Elt F) → (⟨S850000x1, .i32⟩ : BufTy).Contents (Elt F)),
    StableHlo.ternary main_v101 main_v102 main_v100 main_v103 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v104 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v104 main_v105 rfl shapeCasts_S1x256x256_S256x256,
    StableHlo.binary main_v103 main_v105 main_v106 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v107 ((extractStridedSlice S1x256 ![1, 0] · slices_S2x256_S1x256_1_0) : (⟨S2x256, .f32⟩ : BufTy).Contents (Elt F) → (⟨S1x256, .f32⟩ : BufTy).Contents (Elt F)),
    StableHlo.reshape main_v107 main_v108 rfl shapeCasts_S1x256_S256,
    StableHlo.unary main_v108 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S50000x256 ![0, 1] bcast_S1x256_S50000x256_0_1 : (⟨S1x256, .f32⟩ : BufTy).Contents (Elt F) → (⟨S50000x256, .f32⟩ : BufTy).Contents (Elt F)),
    StableHlo.binary main_v106 main_v110 main_v111 (addf : (⟨S50000x256, .f32⟩ : BufTy).Contents (Elt F) → (⟨S50000x256, .f32⟩ : BufTy).Contents (Elt F) → (⟨S50000x256, .f32⟩ : BufTy).Contents (Elt F)),
    StableHlo.nullary main_cst_14 (constant S_ .f32 0x00000000#32),
    StableHlo.binary main_v111 main_cst_14 main_v112 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_15 (constant S_ .f32 0x47435000#32),
    StableHlo.unary main_cst_15 main_v113 (broadcastInDim S256 ![] bcast_S_S256 : (⟨S_, .f32⟩ : BufTy).Contents (Elt F) → (⟨S256, .f32⟩ : BufTy).Contents (Elt F)),
    StableHlo.binary main_v112 main_v113 main_v114 (Host.divf : (⟨S256, .f32⟩ : BufTy).Contents (Elt F) → (⟨S256, .f32⟩ : BufTy).Contents (Elt F) → (⟨S256, .f32⟩ : BufTy).Contents (Elt F)),
    StableHlo.unary main_v114 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v116 main_v117 (subf : (⟨S50000x256, .f32⟩ : BufTy).Contents (Elt F) → (⟨S50000x256, .f32⟩ : BufTy).Contents (Elt F) → (⟨S50000x256, .f32⟩ : BufTy).Contents (Elt F)),
    StableHlo.binary main_v117 main_v117 main_v118 (mulf : (⟨S50000x256, .f32⟩ : BufTy).Contents (Elt F) → (⟨S50000x256, .f32⟩ : BufTy).Contents (Elt F) → (⟨S50000x256, .f32⟩ : BufTy).Contents (Elt F)),
    StableHlo.nullary main_cst_16 (constant S_ .f32 0x00000000#32),
    StableHlo.binary main_v118 main_cst_16 main_v119 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_17 (constant S_ .f32 0x47435000#32),
    StableHlo.unary main_cst_17 main_v120 (broadcastInDim S256 ![] bcast_S_S256 : (⟨S_, .f32⟩ : BufTy).Contents (Elt F) → (⟨S256, .f32⟩ : BufTy).Contents (Elt F)),
    StableHlo.binary main_v119 main_v120 main_v121 (Host.divf : (⟨S256, .f32⟩ : BufTy).Contents (Elt F) → (⟨S256, .f32⟩ : BufTy).Contents (Elt F) → (⟨S256, .f32⟩ : BufTy).Contents (Elt F)),
    StableHlo.unary main_v114 main_v122 (broadcastInDim S1x256 ![1] bcast_S256_S1x256_1 : (⟨S256, .f32⟩ : BufTy).Contents (Elt F) → (⟨S1x256, .f32⟩ : BufTy).Contents (Elt F)),
    StableHlo.unary main_v122 main_v123 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v123 main_v124 (subf : (⟨S50000x256, .f32⟩ : BufTy).Contents (Elt F) → (⟨S50000x256, .f32⟩ : BufTy).Contents (Elt F) → (⟨S50000x256, .f32⟩ : BufTy).Contents (Elt F)),
    StableHlo.nullary main_cst_18 (constant S_ .f32 0x3727C5AC#32),
    StableHlo.unary main_cst_18 main_v125 (broadcastInDim S256 ![] bcast_S_S256 : (⟨S_, .f32⟩ : BufTy).Contents (Elt F) → (⟨S256, .f32⟩ : BufTy).Contents (Elt F)),
    StableHlo.binary main_v121 main_v125 main_v126 (addf : (⟨S256, .f32⟩ : BufTy).Contents (Elt F) → (⟨S256, .f32⟩ : BufTy).Contents (Elt F) → (⟨S256, .f32⟩ : BufTy).Contents (Elt F)),
    StableHlo.unary main_v126 main_v127 (Host.rsqrt : (⟨S256, .f32⟩ : BufTy).Contents (Elt F) → (⟨S256, .f32⟩ : BufTy).Contents (Elt F)),
    StableHlo.unary main_v127 main_v128 (broadcastInDim S1x256 ![1] bcast_S256_S1x256_1 : (⟨S256, .f32⟩ : BufTy).Contents (Elt F) → (⟨S1x256, .f32⟩ : BufTy).Contents (Elt F)),
    StableHlo.unary main_v128 main_v129 (broadcastInDim S50000x256 ![0, 1] bcast_S1x256_S50000x256_0_1 : (⟨S1x256, .f32⟩ : BufTy).Contents (Elt F) → (⟨S50000x256, .f32⟩ : BufTy).Contents (Elt F)),
    StableHlo.binary main_v124 main_v129 main_v130 (mulf : (⟨S50000x256, .f32⟩ : BufTy).Contents (Elt F) → (⟨S50000x256, .f32⟩ : BufTy).Contents (Elt F) → (⟨S50000x256, .f32⟩ : BufTy).Contents (Elt F)),
    StableHlo.unary main_arg9 main_v131 ((extractStridedSlice S1x256 ![1, 0] · slices_S2x256_S1x256_1_0) : (⟨S2x256, .f32⟩ : BufTy).Contents (Elt F) → (⟨S1x256, .f32⟩ : BufTy).Contents (Elt F)),
    StableHlo.reshape main_v131 main_v132 rfl shapeCasts_S1x256_S256,
    StableHlo.unary main_v132 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S50000x256 ![0, 1] bcast_S1x256_S50000x256_0_1 : (⟨S1x256, .f32⟩ : BufTy).Contents (Elt F) → (⟨S50000x256, .f32⟩ : BufTy).Contents (Elt F)),
    StableHlo.binary main_v130 main_v134 main_v135 (mulf : (⟨S50000x256, .f32⟩ : BufTy).Contents (Elt F) → (⟨S50000x256, .f32⟩ : BufTy).Contents (Elt F) → (⟨S50000x256, .f32⟩ : BufTy).Contents (Elt F)),
    StableHlo.unary main_arg10 main_v136 ((extractStridedSlice S1x256 ![1, 0] · slices_S2x256_S1x256_1_0) : (⟨S2x256, .f32⟩ : BufTy).Contents (Elt F) → (⟨S1x256, .f32⟩ : BufTy).Contents (Elt F)),
    StableHlo.reshape main_v136 main_v137 rfl shapeCasts_S1x256_S256,
    StableHlo.unary main_v137 main_v138 (broadcastInDim S1x256 ![1] bcast_S256_S1x256_1 : (⟨S256, .f32⟩ : BufTy).Contents (Elt F) → (⟨S1x256, .f32⟩ : BufTy).Contents (Elt F)),
    StableHlo.unary main_v138 main_v139 (broadcastInDim S50000x256 ![0, 1] bcast_S1x256_S50000x256_0_1 : (⟨S1x256, .f32⟩ : BufTy).Contents (Elt F) → (⟨S50000x256, .f32⟩ : BufTy).Contents (Elt F)),
    StableHlo.binary main_v135 main_v139 main_v140 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v140) main_call2.v0 main_call2.v1 maximumf,
    StableHlo.unary main_arg11 main_v142 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v142 main_v143 rfl shapeCasts_S1x256x128_S256x128,
    StableHlo.binary main_v141 main_v143 main_v144 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v145 ((extractStridedSlice S1x128 ![1, 0] · slices_S2x128_S1x128_1_0) : (⟨S2x128, .f32⟩ : BufTy).Contents (Elt F) → (⟨S1x128, .f32⟩ : BufTy).Contents (Elt F)),
    StableHlo.reshape main_v145 main_v146 rfl shapeCasts_S1x128_S128,
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),
    StableHlo.binary main_v144 main_v148 main_v149 (addf : (⟨S50000x128, .f32⟩ : BufTy).Contents (Elt F) → (⟨S50000x128, .f32⟩ : BufTy).Contents (Elt F) → (⟨S50000x128, .f32⟩ : BufTy).Contents (Elt F)),
    StableHlo.nullary main_cst_19 (constant S_ .f32 0x3F800000#32),
    StableHlo.unary main_cst_19 main_v150 (broadcastInDim S50000x1 ![] bcast_S_S50000x1 : (⟨S_, .f32⟩ : BufTy).Contents (Elt F) → (⟨S50000x1, .f32⟩ : BufTy).Contents (Elt F)),
    StableHlo.nullary main_cst_20 (constant S_ .f32 0x00000000#32),
    StableHlo.unary main_cst_20 main_v151 (broadcastInDim S256x1 ![] bcast_S_S256x1 : (⟨S_, .f32⟩ : BufTy).Contents (Elt F) → (⟨S256x1, .f32⟩ : BufTy).Contents (Elt F)),
    StableHlo.unary main_arg2 main_v152 (broadcastInDim S50000x1 ![0] bcast_S50000_S50000x1_0 : (⟨S50000, .i32⟩ : BufTy).Contents (Elt F) → (⟨S50000x1, .i32⟩ : BufTy).Contents (Elt F)),
    StableHlo.ternary main_v151 main_v152 main_v150 main_v153 ((fun x i u => Host.scatterAdd scatter_S256x1_S50000x1_S50000x1_1_0_0_1 x i u) : (⟨S256x1, .f32⟩ : BufTy).Contents (Elt F) → (⟨S50000x1, .i32⟩ : BufTy).Contents (Elt F) → (⟨S50000x1, .f32⟩ : BufTy).Contents (Elt F) → (⟨S256x1, .f32⟩ : BufTy).Contents (Elt F)),
    StableHlo.nullary main_cst_21 (constant S_ .f32 0x00000000#32),
    StableHlo.unary main_cst_21 main_v154 (broadcastInDim S256x128 ![] bcast_S_S256x128 : (⟨S_, .f32⟩ : BufTy).Contents (Elt F) → (⟨S256x128, .f32⟩ : BufTy).Contents (Elt F)),
    StableHlo.unary main_arg2 main_v155 (broadcastInDim S50000x1 ![0] bcast_S50000_S50000x1_0 : (⟨S50000, .i32⟩ : BufTy).Contents (Elt F) → (⟨S50000x1, .i32⟩ : BufTy).Contents (Elt F)),
    StableHlo.ternary main_v154 main_v155 main_v149 main_v156 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    StableHlo.nullary main_cst_22 (constant S_ .f32 0x3F800000#32),
    StableHlo.unary main_cst_22 main_v157 (broadcastInDim S256x1 ![] bcast_S_S256x1 : (⟨S_, .f32⟩ : BufTy).Contents (Elt F) → (⟨S256x1, .f32⟩ : BufTy).Contents (Elt F)),
    StableHlo.binary main_v153 main_v157 main_v158 (maximumf : (⟨S256x1, .f32⟩ : BufTy).Contents (Elt F) → (⟨S256x1, .f32⟩ : BufTy).Contents (Elt F) → (⟨S256x1, .f32⟩ : BufTy).Contents (Elt F)),
    StableHlo.unary main_v158 main_v159 (broadcastInDim S256x128 ![0, 1] bcast_S256x1_S256x128_0_1 : (⟨S256x1, .f32⟩ : BufTy).Contents (Elt F) → (⟨S256x128, .f32⟩ : BufTy).Contents (Elt F)),
    StableHlo.binary main_v156 main_v159 main_v160 (Host.divf : (⟨S256x128, .f32⟩ : BufTy).Contents (Elt F) → (⟨S256x128, .f32⟩ : BufTy).Contents (Elt F) → (⟨S256x128, .f32⟩ : BufTy).Contents (Elt F)),
    StableHlo.unary main_v160 main_v161 (Host.negf : (⟨S256x128, .f32⟩ : BufTy).Contents (Elt F) → (⟨S256x128, .f32⟩ : BufTy).Contents (Elt F)),
    StableHlo.unary main_v161 main_v162 (Host.exp : (⟨S256x128, .f32⟩ : BufTy).Contents (Elt F) → (⟨S256x128, .f32⟩ : BufTy).Contents (Elt F)),
    StableHlo.nullary main_cst_23 (constant S_ .f32 0x3F800000#32),
    StableHlo.unary main_cst_23 main_v163 (broadcastInDim S256x128 ![] bcast_S_S256x128 : (⟨S_, .f32⟩ : BufTy).Contents (Elt F) → (⟨S256x128, .f32⟩ : BufTy).Contents (Elt F)),
    StableHlo.binary main_v163 main_v162 main_v164 (addf : (⟨S256x128, .f32⟩ : BufTy).Contents (Elt F) → (⟨S256x128, .f32⟩ : BufTy).Contents (Elt F) → (⟨S256x128, .f32⟩ : BufTy).Contents (Elt F)),
    StableHlo.nullary main_cst_24 (constant S_ .f32 0x3F800000#32),
    StableHlo.unary main_cst_24 main_v165 (broadcastInDim S256x128 ![] bcast_S_S256x128 : (⟨S_, .f32⟩ : BufTy).Contents (Elt F) → (⟨S256x128, .f32⟩ : BufTy).Contents (Elt F)),
    StableHlo.binary main_v165 main_v164 main_v166 (Host.divf : (⟨S256x128, .f32⟩ : BufTy).Contents (Elt F) → (⟨S256x128, .f32⟩ : BufTy).Contents (Elt F) → (⟨S256x128, .f32⟩ : BufTy).Contents (Elt F)),
    StableHlo.nullary main_v167 (iotaInDim S256 32 0),
    StableHlo.nullary main_c_25 (constantI S_ 32 1#32),
    StableHlo.unary main_c_25 main_v168 (broadcastInDim S256 ![] bcast_S_S256 : (⟨S_, .i32⟩ : BufTy).Contents (Elt F) → (⟨S256, .i32⟩ : BufTy).Contents (Elt F)),
    StableHlo.binary main_v167 main_v168 main_v169 (addi : (⟨S256, .i32⟩ : BufTy).Contents (Elt F) → (⟨S256, .i32⟩ : BufTy).Contents (Elt F) → (⟨S256, .i32⟩ : BufTy).Contents (Elt F)),
    StableHlo.nullary main_c_26 (constantI S_ 32 256#32),
    StableHlo.TRef.unary (.of main_c_26) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S256 ![] bcast_S_S256),
    StableHlo.TRef.binary (.of main_v169) main_call3.v3 main_call3.v4 Host.remsi,
    StableHlo.TRef.nullary main_call3.c_1 (constantI S_ 32 0#32),
    StableHlo.TRef.unary main_call3.c_1 main_call3.v5 (broadcastInDim S256 ![] bcast_S_S256),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S256 ![] bcast_S_S256),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S256 ![] bcast_S_S256),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S256 ![] bcast_S_S256),
    StableHlo.TRef.binary main_call3.v4 main_call3.v13 main_call3.v14 addi,
    StableHlo.TRef.ternary main_call3.v12 main_call3.v14 main_call3.v4 main_call3.v15 select,
    StableHlo.nullary main_c_27 (constantI S_ 32 0#32),
    StableHlo.unary main_c_27 main_v171 (broadcastInDim S256 ![] bcast_S_S256 : (⟨S_, .i32⟩ : BufTy).Contents (Elt F) → (⟨S256, .i32⟩ : BufTy).Contents (Elt F)),
    StableHlo.binary main_v170 main_v171 main_v172 (cmpi .slt : (⟨S256, .i32⟩ : BufTy).Contents (Elt F) → (⟨S256, .i32⟩ : BufTy).Contents (Elt F) → (⟨S256, .i1⟩ : BufTy).Contents (Elt F)),
    StableHlo.nullary main_c_28 (constantI S_ 32 256#32),
    StableHlo.unary main_c_28 main_v173 (broadcastInDim S256 ![] bcast_S_S256 : (⟨S_, .i32⟩ : BufTy).Contents (Elt F) → (⟨S256, .i32⟩ : BufTy).Contents (Elt F)),
    StableHlo.binary main_v170 main_v173 main_v174 (addi : (⟨S256, .i32⟩ : BufTy).Contents (Elt F) → (⟨S256, .i32⟩ : BufTy).Contents (Elt F) → (⟨S256, .i32⟩ : BufTy).Contents (Elt F)),
    StableHlo.ternary main_v172 main_v174 main_v170 main_v175 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v175 main_v176 (broadcastInDim S256x1 ![0] bcast_S256_S256x1_0 : (⟨S256, .i32⟩ : BufTy).Contents (Elt F) → (⟨S256x1, .i32⟩ : BufTy).Contents (Elt F)),
    StableHlo.binary main_v166 main_v176 main_v177 ((fun x i => Host.gather gather_S256x128_S256x1_S256x128_1_0_n_n_0_1_1128 x i) : (⟨S256x128, .f32⟩ : BufTy).Contents (Elt F) → (⟨S256x1, .i32⟩ : BufTy).Contents (Elt F) → (⟨S256x128, .f32⟩ : BufTy).Contents (Elt F)),
    StableHlo.nullary main_c_29 (constantI S_ 32 0#32),
    StableHlo.unary main_c_29 main_v178 (broadcastInDim S50000 ![] bcast_S_S50000 : (⟨S_, .i32⟩ : BufTy).Contents (Elt F) → (⟨S50000, .i32⟩ : BufTy).Contents (Elt F)),
    StableHlo.binary main_arg2 main_v178 main_v179 (cmpi .slt : (⟨S50000, .i32⟩ : BufTy).Contents (Elt F) → (⟨S50000, .i32⟩ : BufTy).Contents (Elt F) → (⟨S50000, .i1⟩ : BufTy).Contents (Elt F)),
    StableHlo.nullary main_c_30 (constantI S_ 32 256#32),
    StableHlo.unary main_c_30 main_v180 (broadcastInDim S50000 ![] bcast_S_S50000 : (⟨S_, .i32⟩ : BufTy).Contents (Elt F) → (⟨S50000, .i32⟩ : BufTy).Contents (Elt F)),
    StableHlo.binary main_arg2 main_v180 main_v181 (addi : (⟨S50000, .i32⟩ : BufTy).Contents (Elt F) → (⟨S50000, .i32⟩ : BufTy).Contents (Elt F) → (⟨S50000, .i32⟩ : BufTy).Contents (Elt F)),
    StableHlo.ternary main_v179 main_v181 main_arg2 main_v182 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v182 main_v183 (broadcastInDim S50000x1 ![0] bcast_S50000_S50000x1_0 : (⟨S50000, .i32⟩ : BufTy).Contents (Elt F) → (⟨S50000x1, .i32⟩ : BufTy).Contents (Elt F)),
    StableHlo.binary main_v166 main_v183 main_v184 ((fun x i => Host.gather gather_S256x128_S50000x1_S50000x128_1_0_n_n_0_1_1128 x i) : (⟨S256x128, .f32⟩ : BufTy).Contents (Elt F) → (⟨S50000x1, .i32⟩ : BufTy).Contents (Elt F) → (⟨S50000x128, .f32⟩ : BufTy).Contents (Elt F)),
    StableHlo.binary main_v184 main_arg13 main_v185 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v149 main_v185 main_v186 (mulf : (⟨S50000x128, .f32⟩ : BufTy).Contents (Elt F) → (⟨S50000x128, .f32⟩ : BufTy).Contents (Elt F) → (⟨S50000x128, .f32⟩ : BufTy).Contents (Elt F)),
    StableHlo.nullary main_cst_31 (constant S_ .f32 0x00000000#32),
    StableHlo.binary main_v186 main_cst_31 main_v187 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.nullary main_c_32 (constantI S_ 32 0#32),
    StableHlo.unary main_c_32 main_v188 (broadcastInDim S50000 ![] bcast_S_S50000 : (⟨S_, .i32⟩ : BufTy).Contents (Elt F) → (⟨S50000, .i32⟩ : BufTy).Contents (Elt F)),
    StableHlo.binary main_arg2 main_v188 main_v189 (cmpi .slt : (⟨S50000, .i32⟩ : BufTy).Contents (Elt F) → (⟨S50000, .i32⟩ : BufTy).Contents (Elt F) → (⟨S50000, .i1⟩ : BufTy).Contents (Elt F)),
    StableHlo.nullary main_c_33 (constantI S_ 32 256#32),
    StableHlo.unary main_c_33 main_v190 (broadcastInDim S50000 ![] bcast_S_S50000 : (⟨S_, .i32⟩ : BufTy).Contents (Elt F) → (⟨S50000, .i32⟩ : BufTy).Contents (Elt F)),
    StableHlo.binary main_arg2 main_v190 main_v191 (addi : (⟨S50000, .i32⟩ : BufTy).Contents (Elt F) → (⟨S50000, .i32⟩ : BufTy).Contents (Elt F) → (⟨S50000, .i32⟩ : BufTy).Contents (Elt F)),
    StableHlo.ternary main_v189 main_v191 main_arg2 main_v192 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v192 main_v193 (broadcastInDim S50000x1 ![0] bcast_S50000_S50000x1_0 : (⟨S50000, .i32⟩ : BufTy).Contents (Elt F) → (⟨S50000x1, .i32⟩ : BufTy).Contents (Elt F)),
    StableHlo.binary main_v177 main_v193 main_v194 ((fun x i => Host.gather gather_S256x128_S50000x1_S50000x128_1_0_n_n_0_1_1128 x i) : (⟨S256x128, .f32⟩ : BufTy).Contents (Elt F) → (⟨S50000x1, .i32⟩ : BufTy).Contents (Elt F) → (⟨S50000x128, .f32⟩ : BufTy).Contents (Elt F)),
    StableHlo.binary main_v194 main_arg13 main_v195 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v149 main_v195 main_v196 (mulf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x00000000#32),
    StableHlo.binary main_v196 main_cst_34 main_v197 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v187 main_v198 (broadcastInDim S1x50000 ![1] bcast_S50000_S1x50000_1 : (⟨S50000, .f32⟩ : BufTy).Contents (Elt F) → (⟨S1x50000, .f32⟩ : BufTy).Contents (Elt F)),
    StableHlo.unary main_v197 main_v199 (broadcastInDim S1x50000 ![1] bcast_S50000_S1x50000_1 : (⟨S50000, .f32⟩ : BufTy).Contents (Elt F) → (⟨S1x50000, .f32⟩ : BufTy).Contents (Elt F)),
    StableHlo.binary main_v198 main_v199 main_v200 ((fun a b => concatenate S2x50000 0 [⟨S1x50000, a⟩, ⟨S1x50000, b⟩] concatenates_S1x50000_S1x50000_S2x50000_d0) : (⟨S1x50000, .f32⟩ : BufTy).Contents (Elt F) → (⟨S1x50000, .f32⟩ : BufTy).Contents (Elt F) → (⟨S2x50000, .f32⟩ : BufTy).Contents (Elt F)) ]

-- one unfolding per statement, nested: deeper than the default recursion bound
set_option maxRecDepth 8192 in
set_option maxHeartbeats 4000000 in
/-- @main is that straight line: the four windows, the called bodies and the records unfold, and binding a continuation
    to a step is again a step, so both sides compute to the same chain of 264 steps ending in the return. -/
theorem main_eq (c : Dev nD) : main (F := F) c = seq ops := rfl

/-- The program scopes no TensorCore buffer and no semaphore: every buffer is a tensor value of @main. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only (each builder's own fact, entry by entry). -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., nullary_bufs_sub ..,
    unary_bufs_sub .., ternary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., binary_bufs_sub .., nullary_bufs_sub .., binary_bufs_sub .., nullary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., unary_bufs_sub .., reshape_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., unary_bufs_sub .., ternary_bufs_sub .., unary_bufs_sub .., reshape_bufs_sub ..,
    binary_bufs_sub .., unary_bufs_sub .., reshape_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., binary_bufs_sub .., nullary_bufs_sub .., binary_bufs_sub .., nullary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., reshape_bufs_sub .., unary_bufs_sub .., unary_bufs_sub .., binary_bufs_sub .., unary_bufs_sub ..,
    reshape_bufs_sub .., unary_bufs_sub .., unary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., nullary_bufs_sub .., unary_bufs_sub .., nullary_bufs_sub ..,
    unary_bufs_sub .., unary_bufs_sub .., ternary_bufs_sub .., nullary_bufs_sub .., unary_bufs_sub .., unary_bufs_sub ..,
    ternary_bufs_sub .., nullary_bufs_sub .., unary_bufs_sub .., binary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., nullary_bufs_sub .., nullary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    nullary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., binary_bufs_sub .., unary_bufs_sub .., unary_bufs_sub .., binary_bufs_sub ..⟩

set_option maxRecDepth 8192 in
set_option maxHeartbeats 4000000 in
/-- At the compiled mesh, for any float values, from any memory with zero counters: every weakly fair execution of @main on
    the TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefSplit.lean ====
/- The reference's straight line cut into its five stages.

   `ops` (the 264 operations of @main in order) is the concatenation of five consecutive pieces, each ending with the
   operation that writes the stage's result:
     opsA  the inputs' preparation, layer 0's aggregation (self-loops appended, gather, scatter-add) and first dense map  → main_v45
     opsB  layer 0's column means and variances, the normalisation, the rectifier, the second dense map, the rectifier     → main_v84
     opsC  layer 1's aggregation and first dense map                                                                      → main_v111
     opsD  layer 1's column statistics, normalisation, rectifier and second dense map                                     → main_v149
     opsH  the read-out head                                                                                              → main_v200
   The pieces are literal sublists, so the equation is by computation (appending literal lists). A fold of the whole line
   (`after ops`) is then the folds of the pieces composed, each stage read on its own. -/
import proofs.«107108_j75977971466801_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- entries 1 … 54 of ops (54): main_v0 … main_v45
set_option maxHeartbeats 40000000 in
abbrev opsA : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x00000000#32),
    StableHlo.unary main_cst main_v7 (broadcastInDim S50000x9 ![] bcast_S_S50000x9 : (⟨S_, .f32⟩ : BufTy).Contents (Elt F) → (⟨S50000x9, .f32⟩ : BufTy).Contents (Elt F)),
    StableHlo.nullary main_c (constantI S_ 32 7#32),
    StableHlo.unary main_c main_v8 (broadcastInDim S1 ![] bcast_S_S1 : (⟨S_, .i32⟩ : BufTy).Contents (Elt F) → (⟨S1, .i32⟩ : BufTy).Contents (Elt F)),
    StableHlo.nullary main_cst_0 (constant S_ .f32 0x3F800000#32),
    StableHlo.unary main_cst_0 main_v9 (broadcastInDim S50000 ![] bcast_S_S50000 : (⟨S_, .f32⟩ : BufTy).Contents (Elt F) → (⟨S50000, .f32⟩ : BufTy).Contents (Elt F)),
    StableHlo.ternary main_v7 main_v8 main_v9 main_v10 ((fun x i u => Host.scatter scatter_S50000x9_S1_S50000_0_1_1_0 (fun _ b => b) x i u) : (⟨S50000x9, .f32⟩ : BufTy).Contents (Elt F) → (⟨S1, .i32⟩ : BufTy).Contents (Elt F) → (⟨S50000, .f32⟩ : BufTy).Contents (Elt F) → (⟨S50000x9, .f32⟩ : BufTy).Contents (Elt F)),
    StableHlo.binary main_arg3 main_v10 main_v11 ((fun a b => concatenate S850000x9 0 [⟨S800000x9, a⟩, ⟨S50000x9, b⟩] concatenates_S800000x9_S50000x9_S850000x9_d0) : (⟨S800000x9, .f32⟩ : BufTy).Contents (Elt F) → (⟨S50000x9, .f32⟩ : BufTy).Contents (Elt F) → (⟨S850000x9, .f32⟩ : BufTy).Contents (Elt F)),
    StableHlo.nullary main_c_1 (constantI S_ 32 0#32),
    StableHlo.unary main_c_1 main_v12 (broadcastInDim S50000 ![] bcast_S_S50000 : (⟨S_, .i32⟩ : BufTy).Contents (Elt F) → (⟨S50000, .i32⟩ : BufTy).Contents (Elt F)),
    StableHlo.binary main_arg0 main_v12 main_v13 (cmpi .slt : (⟨S50000, .i32⟩ : BufTy).Contents (Elt F) → (⟨S50000, .i32⟩ : BufTy).Contents (Elt F) → (⟨S50000, .i1⟩ : BufTy).Contents (Elt F)),
    StableHlo.nullary main_c_2 (constantI S_ 32 2#32),
    StableHlo.unary main_c_2 main_v14 (broadcastInDim S50000 ![] bcast_S_S50000 : (⟨S_, .i32⟩ : BufTy).Contents (Elt F) → (⟨S50000, .i32⟩ : BufTy).Contents (Elt F)),
    StableHlo.binary main_arg0 main_v14 main_v15 (addi : (⟨S50000, .i32⟩ : BufTy).Contents (Elt F) → (⟨S50000, .i32⟩ : BufTy).Contents (Elt F) → (⟨S50000, .i32⟩ : BufTy).Contents (Elt F)),
    StableHlo.ternary main_v13 main_v15 main_arg0 main_v16 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v16 main_v17 (broadcastInDim S50000x1 ![0] bcast_S50000_S50000x1_0 : (⟨S50000, .i32⟩ : BufTy).Contents (Elt F) → (⟨S50000x1, .i32⟩ : BufTy).Contents (Elt F)),
    StableHlo.binary main_arg4 main_v17 main_v18 ((fun x i => Host.gather gather_S2x128_S50000x1_S50000x128_1_0_n_n_0_1_1128 x i) : (⟨S2x128, .f32⟩ : BufTy).Contents (Elt F) → (⟨S50000x1, .i32⟩ : BufTy).Contents (Elt F) → (⟨S50000x128, .f32⟩ : BufTy).Contents (Elt F)),
    StableHlo.unary main_arg5 main_v19 ((extractStridedSlice S1x9x128 ![0, 0, 0] · slices_S2x9x128_S1x9x128_0_0_0) : (⟨S2x9x128, .f32⟩ : BufTy).Contents (Elt F) → (⟨S1x9x128, .f32⟩ : BufTy).Contents (Elt F)),
    StableHlo.reshape main_v19 main_v20 rfl shapeCasts_S1x9x128_S9x128,
    StableHlo.binary main_v11 main_v20 main_v21 ((fun l r => Host.dotGeneral dot_S850000x9_S9x128_S850000x128_1_0_0_1_n_n none l r) : (⟨S850000x9, .f32⟩ : BufTy).Contents (Elt F) → (⟨S9x128, .f32⟩ : BufTy).Contents (Elt F) → (⟨S850000x128, .f32⟩ : BufTy).Contents (Elt F)),
    StableHlo.unary main_arg6 main_v22 ((extractStridedSlice S1x128 ![0, 0] · slices_S2x128_S1x128_0_0) : (⟨S2x128, .f32⟩ : BufTy).Contents (Elt F) → (⟨S1x128, .f32⟩ : BufTy).Contents (Elt F)),
    StableHlo.reshape main_v22 main_v23 rfl shapeCasts_S1x128_S128,
    StableHlo.unary main_v23 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S850000x128 ![0, 1] bcast_S1x128_S850000x128_0_1 : (⟨S1x128, .f32⟩ : BufTy).Contents (Elt F) → (⟨S850000x128, .f32⟩ : BufTy).Contents (Elt F)),
    StableHlo.binary main_v21 main_v25 main_v26 (addf : (⟨S850000x128, .f32⟩ : BufTy).Contents (Elt F) → (⟨S850000x128, .f32⟩ : BufTy).Contents (Elt F) → (⟨S850000x128, .f32⟩ : BufTy).Contents (Elt F)),
    StableHlo.nullary main_c_3 (constantI S_ 32 0#32),
    StableHlo.unary main_c_3 main_v27 (broadcastInDim S850000 ![] bcast_S_S850000 : (⟨S_, .i32⟩ : BufTy).Contents (Elt F) → (⟨S850000, .i32⟩ : BufTy).Contents (Elt F)),
    StableHlo.binary main_v6 main_v27 main_v28 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v29 (broadcastInDim S850000 ![] bcast_S_S850000 : (⟨S_, .i32⟩ : BufTy).Contents (Elt F) → (⟨S850000, .i32⟩ : BufTy).Contents (Elt F)),
    StableHlo.binary main_v6 main_v29 main_v30 (addi : (⟨S850000, .i32⟩ : BufTy).Contents (Elt F) → (⟨S850000, .i32⟩ : BufTy).Contents (Elt F) → (⟨S850000, .i32⟩ : BufTy).Contents (Elt F)),
    StableHlo.ternary main_v28 main_v30 main_v6 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v31 main_v32 (broadcastInDim S850000x1 ![0] bcast_S850000_S850000x1_0 : (⟨S850000, .i32⟩ : BufTy).Contents (Elt F) → (⟨S850000x1, .i32⟩ : BufTy).Contents (Elt F)),
    StableHlo.binary main_v18 main_v32 main_v33 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.binary main_v33 main_v26 main_v34 ((fun a b => concatenate S850000x256 1 [⟨S850000x128, a⟩, ⟨S850000x128, b⟩] concatenates_S850000x128_S850000x128_S850000x256_d1) : (⟨S850000x128, .f32⟩ : BufTy).Contents (Elt F) → (⟨S850000x128, .f32⟩ : BufTy).Contents (Elt F) → (⟨S850000x256, .f32⟩ : BufTy).Contents (Elt F)),
    StableHlo.nullary main_cst_5 (constant S_ .f32 0x00000000#32),
    StableHlo.unary main_cst_5 main_v35 (broadcastInDim S50000x256 ![] bcast_S_S50000x256 : (⟨S_, .f32⟩ : BufTy).Contents (Elt F) → (⟨S50000x256, .f32⟩ : BufTy).Contents (Elt F)),
    StableHlo.unary main_v3 main_v36 (broadcastInDim S850000x1 ![0] bcast_S850000_S850000x1_0 : (⟨S850000, .i32⟩ : BufTy).Contents (Elt F) → (⟨S850000x1, .i32⟩ : BufTy).Contents (Elt F)),
    StableHlo.ternary main_v35 main_v36 main_v34 main_v37 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v38 ((extractStridedSlice S1x256x256 ![0, 0, 0] · slices_S2x256x256_S1x256x256_0_0_0) : (⟨S2x256x256, .f32⟩ : BufTy).Contents (Elt F) → (⟨S1x256x256, .f32⟩ : BufTy).Contents (Elt F)),
    StableHlo.reshape main_v38 main_v39 rfl shapeCasts_S1x256x256_S256x256,
    StableHlo.binary main_v37 main_v39 main_v40 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v41 ((extractStridedSlice S1x256 ![0, 0] · slices_S2x256_S1x256_0_0) : (⟨S2x256, .f32⟩ : BufTy).Contents (Elt F) → (⟨S1x256, .f32⟩ : BufTy).Contents (Elt F)),
    StableHlo.reshape main_v41 main_v42 rfl shapeCasts_S1x256_S256,
    StableHlo.unary main_v42 main_v43 (broadcastInDim S1x256 ![1] bcast_S256_S1x256_1 : (⟨S256, .f32⟩ : BufTy).Contents (Elt F) → (⟨S1x256, .f32⟩ : BufTy).Contents (Elt F)),
    StableHlo.unary main_v43 main_v44 (broadcastInDim S50000x256 ![0, 1] bcast_S1x256_S50000x256_0_1 : (⟨S1x256, .f32⟩ : BufTy).Contents (Elt F) → (⟨S50000x256, .f32⟩ : BufTy).Contents (Elt F)),
    StableHlo.binary main_v40 main_v44 main_v45 (addf : (⟨S50000x256, .f32⟩ : BufTy).Contents (Elt F) → (⟨S50000x256, .f32⟩ : BufTy).Contents (Elt F) → (⟨S50000x256, .f32⟩ : BufTy).Contents (Elt F)) ]

-- entries 55 … 102 of ops (48): main_cst_6 … main_v84
set_option maxHeartbeats 40000000 in
abbrev opsB : List (HloOp τ sig (Elt F)) :=
  [ StableHlo.nullary main_cst_6 (constant S_ .f32 0x00000000#32),
    StableHlo.binary main_v45 main_cst_6 main_v46 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_7 (constant S_ .f32 0x47435000#32),
    StableHlo.unary main_cst_7 main_v47 (broadcastInDim S256 ![] bcast_S_S256 : (⟨S_, .f32⟩ : BufTy).Contents (Elt F) → (⟨S256, .f32⟩ : BufTy).Contents (Elt F)),
    StableHlo.binary main_v46 main_v47 main_v48 (Host.divf : (⟨S256, .f32⟩ : BufTy).Contents (Elt F) → (⟨S256, .f32⟩ : BufTy).Contents (Elt F) → (⟨S256, .f32⟩ : BufTy).Contents (Elt F)),
    StableHlo.unary main_v48 main_v49 (broadcastInDim S1x256 ![1] bcast_S256_S1x256_1 : (⟨S256, .f32⟩ : BufTy).Contents (Elt F) → (⟨S1x256, .f32⟩ : BufTy).Contents (Elt F)),
    StableHlo.unary main_v49 main_v50 (broadcastInDim S50000x256 ![0, 1] bcast_S1x256_S50000x256_0_1 : (⟨S1x256, .f32⟩ : BufTy).Contents (Elt F) → (⟨S50000x256, .f32⟩ : BufTy).Contents (Elt F)),
    StableHlo.binary main_v45 main_v50 main_v51 (subf : (⟨S50000x256, .f32⟩ : BufTy).Contents (Elt F) → (⟨S50000x256, .f32⟩ : BufTy).Contents (Elt F) → (⟨S50000x256, .f32⟩ : BufTy).Contents (Elt F)),
    StableHlo.binary main_v51 main_v51 main_v52 (mulf : (⟨S50000x256, .f32⟩ : BufTy).Contents (Elt F) → (⟨S50000x256, .f32⟩ : BufTy).Contents (Elt F) → (⟨S50000x256, .f32⟩ : BufTy).Contents (Elt F)),
    StableHlo.nullary main_cst_8 (constant S_ .f32 0x00000000#32),
    StableHlo.binary main_v52 main_cst_8 main_v53 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_9 (constant S_ .f32 0x47435000#32),
    StableHlo.unary main_cst_9 main_v54 (broadcastInDim S256 ![] bcast_S_S256 : (⟨S_, .f32⟩ : BufTy).Contents (Elt F) → (⟨S256, .f32⟩ : BufTy).Contents (Elt F)),
    StableHlo.binary main_v53 main_v54 main_v55 (Host.divf : (⟨S256, .f32⟩ : BufTy).Contents (Elt F) → (⟨S256, .f32⟩ : BufTy).Contents (Elt F) → (⟨S256, .f32⟩ : BufTy).Contents (Elt F)),
    StableHlo.unary main_v48 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S50000x256 ![0, 1] bcast_S1x256_S50000x256_0_1 : (⟨S1x256, .f32⟩ : BufTy).Contents (Elt F) → (⟨S50000x256, .f32⟩ : BufTy).Contents (Elt F)),
    StableHlo.binary main_v45 main_v57 main_v58 (subf : (⟨S50000x256, .f32⟩ : BufTy).Contents (Elt F) → (⟨S50000x256, .f32⟩ : BufTy).Contents (Elt F) → (⟨S50000x256, .f32⟩ : BufTy).Contents (Elt F)),
    StableHlo.nullary main_cst_10 (constant S_ .f32 0x3727C5AC#32),
    StableHlo.unary main_cst_10 main_v59 (broadcastInDim S256 ![] bcast_S_S256 : (⟨S_, .f32⟩ : BufTy).Contents (Elt F) → (⟨S256, .f32⟩ : BufTy).Contents (Elt F)),
    StableHlo.binary main_v55 main_v59 main_v60 (addf : (⟨S256, .f32⟩ : BufTy).Contents (Elt F) → (⟨S256, .f32⟩ : BufTy).Contents (Elt F) → (⟨S256, .f32⟩ : BufTy).Contents (Elt F)),
    StableHlo.unary main_v60 main_v61 (Host.rsqrt : (⟨S256, .f32⟩ : BufTy).Contents (Elt F) → (⟨S256, .f32⟩ : BufTy).Contents (Elt F)),
    StableHlo.unary main_v61 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S50000x256 ![0, 1] bcast_S1x256_S50000x256_0_1 : (⟨S1x256, .f32⟩ : BufTy).Contents (Elt F) → (⟨S50000x256, .f32⟩ : BufTy).Contents (Elt F)),
    StableHlo.binary main_v58 main_v63 main_v64 (mulf : (⟨S50000x256, .f32⟩ : BufTy).Contents (Elt F) → (⟨S50000x256, .f32⟩ : BufTy).Contents (Elt F) → (⟨S50000x256, .f32⟩ : BufTy).Contents (Elt F)),
    StableHlo.unary main_arg9 main_v65 ((extractStridedSlice S1x256 ![0, 0] · slices_S2x256_S1x256_0_0) : (⟨S2x256, .f32⟩ : BufTy).Contents (Elt F) → (⟨S1x256, .f32⟩ : BufTy).Contents (Elt F)),
    StableHlo.reshape main_v65 main_v66 rfl shapeCasts_S1x256_S256,
    StableHlo.unary main_v66 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S50000x256 ![0, 1] bcast_S1x256_S50000x256_0_1 : (⟨S1x256, .f32⟩ : BufTy).Contents (Elt F) → (⟨S50000x256, .f32⟩ : BufTy).Contents (Elt F)),
    StableHlo.binary main_v64 main_v68 main_v69 (mulf : (⟨S50000x256, .f32⟩ : BufTy).Contents (Elt F) → (⟨S50000x256, .f32⟩ : BufTy).Contents (Elt F) → (⟨S50000x256, .f32⟩ : BufTy).Contents (Elt F)),
    StableHlo.unary main_arg10 main_v70 ((extractStridedSlice S1x256 ![0, 0] · slices_S2x256_S1x256_0_0) : (⟨S2x256, .f32⟩ : BufTy).Contents (Elt F) → (⟨S1x256, .f32⟩ : BufTy).Contents (Elt F)),
    StableHlo.reshape main_v70 main_v71 rfl shapeCasts_S1x256_S256,
    StableHlo.unary main_v71 main_v72 (broadcastInDim S1x256 ![1] bcast_S256_S1x256_1 : (⟨S256, .f32⟩ : BufTy).Contents (Elt F) → (⟨S1x256, .f32⟩ : BufTy).Contents (Elt F)),
    StableHlo.unary main_v72 main_v73 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v73 main_v74 (addf : (⟨S50000x256, .f32⟩ : BufTy).Contents (Elt F) → (⟨S50000x256, .f32⟩ : BufTy).Contents (Elt F) → (⟨S50000x256, .f32⟩ : BufTy).Contents (Elt F)),
    StableHlo.TRef.nullary main_call0.cst (constant S_ .f32 0x00000000#32),
    StableHlo.TRef.unary main_call0.cst main_call0.v0 (broadcastInDim S50000x256 ![] bcast_S_S50000x256),
    StableHlo.TRef.binary (.of main_v74) main_call0.v0 main_call0.v1 maximumf,
    StableHlo.unary main_arg11 main_v76 ((extractStridedSlice S1x256x128 ![0, 0, 0] · slices_S2x256x128_S1x256x128_0_0_0) : (⟨S2x256x128, .f32⟩ : BufTy).Contents (Elt F) → (⟨S1x256x128, .f32⟩ : BufTy).Contents (Elt F)),
    StableHlo.reshape main_v76 main_v77 rfl shapeCasts_S1x256x128_S256x128,
    StableHlo.binary main_v75 main_v77 main_v78 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v79 ((extractStridedSlice S1x128 ![0, 0] · slices_S2x128_S1x128_0_0) : (⟨S2x128, .f32⟩ : BufTy).Contents (Elt F) → (⟨S1x128, .f32⟩ : BufTy).Contents (Elt F)),
    StableHlo.reshape main_v79 main_v80 rfl shapeCasts_S1x128_S128,
    StableHlo.unary main_v80 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v78 main_v82 main_v83 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v83) main_call1.v0 main_call1.v1 maximumf ]

-- entries 103 … 132 of ops (30): main_v85 … main_v111
set_option maxHeartbeats 40000000 in
abbrev opsC : List (HloOp τ sig (Elt F)) :=
  [ StableHlo.unary main_arg5 main_v85 ((extractStridedSlice S1x9x128 ![1, 0, 0] · slices_S2x9x128_S1x9x128_1_0_0) : (⟨S2x9x128, .f32⟩ : BufTy).Contents (Elt F) → (⟨S1x9x128, .f32⟩ : BufTy).Contents (Elt F)),
    StableHlo.reshape main_v85 main_v86 rfl shapeCasts_S1x9x128_S9x128,
    StableHlo.binary main_v11 main_v86 main_v87 ((fun l r => Host.dotGeneral dot_S850000x9_S9x128_S850000x128_1_0_0_1_n_n none l r) : (⟨S850000x9, .f32⟩ : BufTy).Contents (Elt F) → (⟨S9x128, .f32⟩ : BufTy).Contents (Elt F) → (⟨S850000x128, .f32⟩ : BufTy).Contents (Elt F)),
    StableHlo.unary main_arg6 main_v88 ((extractStridedSlice S1x128 ![1, 0] · slices_S2x128_S1x128_1_0) : (⟨S2x128, .f32⟩ : BufTy).Contents (Elt F) → (⟨S1x128, .f32⟩ : BufTy).Contents (Elt F)),
    StableHlo.reshape main_v88 main_v89 rfl shapeCasts_S1x128_S128,
    StableHlo.unary main_v89 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S850000x128 ![0, 1] bcast_S1x128_S850000x128_0_1 : (⟨S1x128, .f32⟩ : BufTy).Contents (Elt F) → (⟨S850000x128, .f32⟩ : BufTy).Contents (Elt F)),
    StableHlo.binary main_v87 main_v91 main_v92 (addf : (⟨S850000x128, .f32⟩ : BufTy).Contents (Elt F) → (⟨S850000x128, .f32⟩ : BufTy).Contents (Elt F) → (⟨S850000x128, .f32⟩ : BufTy).Contents (Elt F)),
    StableHlo.nullary main_c_11 (constantI S_ 32 0#32),
    StableHlo.unary main_c_11 main_v93 (broadcastInDim S850000 ![] bcast_S_S850000 : (⟨S_, .i32⟩ : BufTy).Contents (Elt F) → (⟨S850000, .i32⟩ : BufTy).Contents (Elt F)),
    StableHlo.binary main_v6 main_v93 main_v94 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v95 (broadcastInDim S850000 ![] bcast_S_S850000 : (⟨S_, .i32⟩ : BufTy).Contents (Elt F) → (⟨S850000, .i32⟩ : BufTy).Contents (Elt F)),
    StableHlo.binary main_v6 main_v95 main_v96 (addi : (⟨S850000, .i32⟩ : BufTy).Contents (Elt F) → (⟨S850000, .i32⟩ : BufTy).Contents (Elt F) → (⟨S850000, .i32⟩ : BufTy).Contents (Elt F)),
    StableHlo.ternary main_v94 main_v96 main_v6 main_v97 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v97 main_v98 (broadcastInDim S850000x1 ![0] bcast_S850000_S850000x1_0 : (⟨S850000, .i32⟩ : BufTy).Contents (Elt F) → (⟨S850000x1, .i32⟩ : BufTy).Contents (Elt F)),
    StableHlo.binary main_v84 main_v98 main_v99 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.binary main_v99 main_v92 main_v100 ((fun a b => concatenate S850000x256 1 [⟨S850000x128, a⟩, ⟨S850000x128, b⟩] concatenates_S850000x128_S850000x128_S850000x256_d1) : (⟨S850000x128, .f32⟩ : BufTy).Contents (Elt F) → (⟨S850000x128, .f32⟩ : BufTy).Contents (Elt F) → (⟨S850000x256, .f32⟩ : BufTy).Contents (Elt F)),
    StableHlo.nullary main_cst_13 (constant S_ .f32 0x00000000#32),
    StableHlo.unary main_cst_13 main_v101 (broadcastInDim S50000x256 ![] bcast_S_S50000x256 : (⟨S_, .f32⟩ : BufTy).Contents (Elt F) → (⟨S50000x256, .f32⟩ : BufTy).Contents (Elt F)),
    StableHlo.unary main_v3 main_v102 (broadcastInDim S850000x1 ![0] bcast_S850000_S850000x1_0 : (⟨S850000, .i32⟩ : BufTy).Contents (Elt F) → (⟨S850000x1, .i32⟩ : BufTy).Contents (Elt F)),
    StableHlo.ternary main_v101 main_v102 main_v100 main_v103 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v104 ((extractStridedSlice S1x256x256 ![1, 0, 0] · slices_S2x256x256_S1x256x256_1_0_0) : (⟨S2x256x256, .f32⟩ : BufTy).Contents (Elt F) → (⟨S1x256x256, .f32⟩ : BufTy).Contents (Elt F)),
    StableHlo.reshape main_v104 main_v105 rfl shapeCasts_S1x256x256_S256x256,
    StableHlo.binary main_v103 main_v105 main_v106 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg8 main_v107 ((extractStridedSlice S1x256 ![1, 0] · slices_S2x256_S1x256_1_0) : (⟨S2x256, .f32⟩ : BufTy).Contents (Elt F) → (⟨S1x256, .f32⟩ : BufTy).Contents (Elt F)),
    StableHlo.reshape main_v107 main_v108 rfl shapeCasts_S1x256_S256,
    StableHlo.unary main_v108 main_v109 (broadcastInDim S1x256 ![1] bcast_S256_S1x256_1 : (⟨S256, .f32⟩ : BufTy).Contents (Elt F) → (⟨S1x256, .f32⟩ : BufTy).Contents (Elt F)),
    StableHlo.unary main_v109 main_v110 (broadcastInDim S50000x256 ![0, 1] bcast_S1x256_S50000x256_0_1 : (⟨S1x256, .f32⟩ : BufTy).Contents (Elt F) → (⟨S50000x256, .f32⟩ : BufTy).Contents (Elt F)),
    StableHlo.binary main_v106 main_v110 main_v111 (addf : (⟨S50000x256, .f32⟩ : BufTy).Contents (Elt F) → (⟨S50000x256, .f32⟩ : BufTy).Contents (Elt F) → (⟨S50000x256, .f32⟩ : BufTy).Contents (Elt F)) ]

-- entries 133 … 177 of ops (45): main_cst_14 … main_v149
set_option maxHeartbeats 40000000 in
abbrev opsD : List (HloOp τ sig (Elt F)) :=
  [ StableHlo.nullary main_cst_14 (constant S_ .f32 0x00000000#32),
    StableHlo.binary main_v111 main_cst_14 main_v112 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_15 (constant S_ .f32 0x47435000#32),
    StableHlo.unary main_cst_15 main_v113 (broadcastInDim S256 ![] bcast_S_S256 : (⟨S_, .f32⟩ : BufTy).Contents (Elt F) → (⟨S256, .f32⟩ : BufTy).Contents (Elt F)),
    StableHlo.binary main_v112 main_v113 main_v114 (Host.divf : (⟨S256, .f32⟩ : BufTy).Contents (Elt F) → (⟨S256, .f32⟩ : BufTy).Contents (Elt F) → (⟨S256, .f32⟩ : BufTy).Contents (Elt F)),
    StableHlo.unary main_v114 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v116 main_v117 (subf : (⟨S50000x256, .f32⟩ : BufTy).Contents (Elt F) → (⟨S50000x256, .f32⟩ : BufTy).Contents (Elt F) → (⟨S50000x256, .f32⟩ : BufTy).Contents (Elt F)),
    StableHlo.binary main_v117 main_v117 main_v118 (mulf : (⟨S50000x256, .f32⟩ : BufTy).Contents (Elt F) → (⟨S50000x256, .f32⟩ : BufTy).Contents (Elt F) → (⟨S50000x256, .f32⟩ : BufTy).Contents (Elt F)),
    StableHlo.nullary main_cst_16 (constant S_ .f32 0x00000000#32),
    StableHlo.binary main_v118 main_cst_16 main_v119 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_17 (constant S_ .f32 0x47435000#32),
    StableHlo.unary main_cst_17 main_v120 (broadcastInDim S256 ![] bcast_S_S256 : (⟨S_, .f32⟩ : BufTy).Contents (Elt F) → (⟨S256, .f32⟩ : BufTy).Contents (Elt F)),
    StableHlo.binary main_v119 main_v120 main_v121 (Host.divf : (⟨S256, .f32⟩ : BufTy).Contents (Elt F) → (⟨S256, .f32⟩ : BufTy).Contents (Elt F) → (⟨S256, .f32⟩ : BufTy).Contents (Elt F)),
    StableHlo.unary main_v114 main_v122 (broadcastInDim S1x256 ![1] bcast_S256_S1x256_1 : (⟨S256, .f32⟩ : BufTy).Contents (Elt F) → (⟨S1x256, .f32⟩ : BufTy).Contents (Elt F)),
    StableHlo.unary main_v122 main_v123 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v123 main_v124 (subf : (⟨S50000x256, .f32⟩ : BufTy).Contents (Elt F) → (⟨S50000x256, .f32⟩ : BufTy).Contents (Elt F) → (⟨S50000x256, .f32⟩ : BufTy).Contents (Elt F)),
    StableHlo.nullary main_cst_18 (constant S_ .f32 0x3727C5AC#32),
    StableHlo.unary main_cst_18 main_v125 (broadcastInDim S256 ![] bcast_S_S256 : (⟨S_, .f32⟩ : BufTy).Contents (Elt F) → (⟨S256, .f32⟩ : BufTy).Contents (Elt F)),
    StableHlo.binary main_v121 main_v125 main_v126 (addf : (⟨S256, .f32⟩ : BufTy).Contents (Elt F) → (⟨S256, .f32⟩ : BufTy).Contents (Elt F) → (⟨S256, .f32⟩ : BufTy).Contents (Elt F)),
    StableHlo.unary main_v126 main_v127 (Host.rsqrt : (⟨S256, .f32⟩ : BufTy).Contents (Elt F) → (⟨S256, .f32⟩ : BufTy).Contents (Elt F)),
    StableHlo.unary main_v127 main_v128 (broadcastInDim S1x256 ![1] bcast_S256_S1x256_1 : (⟨S256, .f32⟩ : BufTy).Contents (Elt F) → (⟨S1x256, .f32⟩ : BufTy).Contents (Elt F)),
    StableHlo.unary main_v128 main_v129 (broadcastInDim S50000x256 ![0, 1] bcast_S1x256_S50000x256_0_1 : (⟨S1x256, .f32⟩ : BufTy).Contents (Elt F) → (⟨S50000x256, .f32⟩ : BufTy).Contents (Elt F)),
    StableHlo.binary main_v124 main_v129 main_v130 (mulf : (⟨S50000x256, .f32⟩ : BufTy).Contents (Elt F) → (⟨S50000x256, .f32⟩ : BufTy).Contents (Elt F) → (⟨S50000x256, .f32⟩ : BufTy).Contents (Elt F)),
    StableHlo.unary main_arg9 main_v131 ((extractStridedSlice S1x256 ![1, 0] · slices_S2x256_S1x256_1_0) : (⟨S2x256, .f32⟩ : BufTy).Contents (Elt F) → (⟨S1x256, .f32⟩ : BufTy).Contents (Elt F)),
    StableHlo.reshape main_v131 main_v132 rfl shapeCasts_S1x256_S256,
    StableHlo.unary main_v132 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S50000x256 ![0, 1] bcast_S1x256_S50000x256_0_1 : (⟨S1x256, .f32⟩ : BufTy).Contents (Elt F) → (⟨S50000x256, .f32⟩ : BufTy).Contents (Elt F)),
    StableHlo.binary main_v130 main_v134 main_v135 (mulf : (⟨S50000x256, .f32⟩ : BufTy).Contents (Elt F) → (⟨S50000x256, .f32⟩ : BufTy).Contents (Elt F) → (⟨S50000x256, .f32⟩ : BufTy).Contents (Elt F)),
    StableHlo.unary main_arg10 main_v136 ((extractStridedSlice S1x256 ![1, 0] · slices_S2x256_S1x256_1_0) : (⟨S2x256, .f32⟩ : BufTy).Contents (Elt F) → (⟨S1x256, .f32⟩ : BufTy).Contents (Elt F)),
    StableHlo.reshape main_v136 main_v137 rfl shapeCasts_S1x256_S256,
    StableHlo.unary main_v137 main_v138 (broadcastInDim S1x256 ![1] bcast_S256_S1x256_1 : (⟨S256, .f32⟩ : BufTy).Contents (Elt F) → (⟨S1x256, .f32⟩ : BufTy).Contents (Elt F)),
    StableHlo.unary main_v138 main_v139 (broadcastInDim S50000x256 ![0, 1] bcast_S1x256_S50000x256_0_1 : (⟨S1x256, .f32⟩ : BufTy).Contents (Elt F) → (⟨S50000x256, .f32⟩ : BufTy).Contents (Elt F)),
    StableHlo.binary main_v135 main_v139 main_v140 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v140) main_call2.v0 main_call2.v1 maximumf,
    StableHlo.unary main_arg11 main_v142 ((extractStridedSlice S1x256x128 ![1, 0, 0] · slices_S2x256x128_S1x256x128_1_0_0) : (⟨S2x256x128, .f32⟩ : BufTy).Contents (Elt F) → (⟨S1x256x128, .f32⟩ : BufTy).Contents (Elt F)),
    StableHlo.reshape main_v142 main_v143 rfl shapeCasts_S1x256x128_S256x128,
    StableHlo.binary main_v141 main_v143 main_v144 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg12 main_v145 ((extractStridedSlice S1x128 ![1, 0] · slices_S2x128_S1x128_1_0) : (⟨S2x128, .f32⟩ : BufTy).Contents (Elt F) → (⟨S1x128, .f32⟩ : BufTy).Contents (Elt F)),
    StableHlo.reshape main_v145 main_v146 rfl shapeCasts_S1x128_S128,
    StableHlo.unary main_v146 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S50000x128 ![0, 1] bcast_S1x128_S50000x128_0_1 : (⟨S1x128, .f32⟩ : BufTy).Contents (Elt F) → (⟨S50000x128, .f32⟩ : BufTy).Contents (Elt F)),
    StableHlo.binary main_v144 main_v148 main_v149 (addf : (⟨S50000x128, .f32⟩ : BufTy).Contents (Elt F) → (⟨S50000x128, .f32⟩ : BufTy).Contents (Elt F) → (⟨S50000x128, .f32⟩ : BufTy).Contents (Elt F)) ]

-- entries 178 … 264 of ops (87): main_cst_19 … main_v200
set_option maxHeartbeats 40000000 in
abbrev opsH : List (HloOp τ sig (Elt F)) :=
  [ StableHlo.nullary main_cst_19 (constant S_ .f32 0x3F800000#32),
    StableHlo.unary main_cst_19 main_v150 (broadcastInDim S50000x1 ![] bcast_S_S50000x1 : (⟨S_, .f32⟩ : BufTy).Contents (Elt F) → (⟨S50000x1, .f32⟩ : BufTy).Contents (Elt F)),
    StableHlo.nullary main_cst_20 (constant S_ .f32 0x00000000#32),
    StableHlo.unary main_cst_20 main_v151 (broadcastInDim S256x1 ![] bcast_S_S256x1 : (⟨S_, .f32⟩ : BufTy).Contents (Elt F) → (⟨S256x1, .f32⟩ : BufTy).Contents (Elt F)),
    StableHlo.unary main_arg2 main_v152 (broadcastInDim S50000x1 ![0] bcast_S50000_S50000x1_0 : (⟨S50000, .i32⟩ : BufTy).Contents (Elt F) → (⟨S50000x1, .i32⟩ : BufTy).Contents (Elt F)),
    StableHlo.ternary main_v151 main_v152 main_v150 main_v153 ((fun x i u => Host.scatterAdd scatter_S256x1_S50000x1_S50000x1_1_0_0_1 x i u) : (⟨S256x1, .f32⟩ : BufTy).Contents (Elt F) → (⟨S50000x1, .i32⟩ : BufTy).Contents (Elt F) → (⟨S50000x1, .f32⟩ : BufTy).Contents (Elt F) → (⟨S256x1, .f32⟩ : BufTy).Contents (Elt F)),
    StableHlo.nullary main_cst_21 (constant S_ .f32 0x00000000#32),
    StableHlo.unary main_cst_21 main_v154 (broadcastInDim S256x128 ![] bcast_S_S256x128 : (⟨S_, .f32⟩ : BufTy).Contents (Elt F) → (⟨S256x128, .f32⟩ : BufTy).Contents (Elt F)),
    StableHlo.unary main_arg2 main_v155 (broadcastInDim S50000x1 ![0] bcast_S50000_S50000x1_0 : (⟨S50000, .i32⟩ : BufTy).Contents (Elt F) → (⟨S50000x1, .i32⟩ : BufTy).Contents (Elt F)),
    StableHlo.ternary main_v154 main_v155 main_v149 main_v156 ((fun x i u => Host.scatterAdd scatter_S256x128_S50000x1_S50000x128_1_0_0_1 x i u) : (⟨S256x128, .f32⟩ : BufTy).Contents (Elt F) → (⟨S50000x1, .i32⟩ : BufTy).Contents (Elt F) → (⟨S50000x128, .f32⟩ : BufTy).Contents (Elt F) → (⟨S256x128, .f32⟩ : BufTy).Contents (Elt F)),
    StableHlo.nullary main_cst_22 (constant S_ .f32 0x3F800000#32),
    StableHlo.unary main_cst_22 main_v157 (broadcastInDim S256x1 ![] bcast_S_S256x1 : (⟨S_, .f32⟩ : BufTy).Contents (Elt F) → (⟨S256x1, .f32⟩ : BufTy).Contents (Elt F)),
    StableHlo.binary main_v153 main_v157 main_v158 (maximumf : (⟨S256x1, .f32⟩ : BufTy).Contents (Elt F) → (⟨S256x1, .f32⟩ : BufTy).Contents (Elt F) → (⟨S256x1, .f32⟩ : BufTy).Contents (Elt F)),
    StableHlo.unary main_v158 main_v159 (broadcastInDim S256x128 ![0, 1] bcast_S256x1_S256x128_0_1 : (⟨S256x1, .f32⟩ : BufTy).Contents (Elt F) → (⟨S256x128, .f32⟩ : BufTy).Contents (Elt F)),
    StableHlo.binary main_v156 main_v159 main_v160 (Host.divf : (⟨S256x128, .f32⟩ : BufTy).Contents (Elt F) → (⟨S256x128, .f32⟩ : BufTy).Contents (Elt F) → (⟨S256x128, .f32⟩ : BufTy).Contents (Elt F)),
    StableHlo.unary main_v160 main_v161 (Host.negf : (⟨S256x128, .f32⟩ : BufTy).Contents (Elt F) → (⟨S256x128, .f32⟩ : BufTy).Contents (Elt F)),
    StableHlo.unary main_v161 main_v162 (Host.exp : (⟨S256x128, .f32⟩ : BufTy).Contents (Elt F) → (⟨S256x128, .f32⟩ : BufTy).Contents (Elt F)),
    StableHlo.nullary main_cst_23 (constant S_ .f32 0x3F800000#32),
    StableHlo.unary main_cst_23 main_v163 (broadcastInDim S256x128 ![] bcast_S_S256x128 : (⟨S_, .f32⟩ : BufTy).Contents (Elt F) → (⟨S256x128, .f32⟩ : BufTy).Contents (Elt F)),
    StableHlo.binary main_v163 main_v162 main_v164 (addf : (⟨S256x128, .f32⟩ : BufTy).Contents (Elt F) → (⟨S256x128, .f32⟩ : BufTy).Contents (Elt F) → (⟨S256x128, .f32⟩ : BufTy).Contents (Elt F)),
    StableHlo.nullary main_cst_24 (constant S_ .f32 0x3F800000#32),
    StableHlo.unary main_cst_24 main_v165 (broadcastInDim S256x128 ![] bcast_S_S256x128 : (⟨S_, .f32⟩ : BufTy).Contents (Elt F) → (⟨S256x128, .f32⟩ : BufTy).Contents (Elt F)),
    StableHlo.binary main_v165 main_v164 main_v166 (Host.divf : (⟨S256x128, .f32⟩ : BufTy).Contents (Elt F) → (⟨S256x128, .f32⟩ : BufTy).Contents (Elt F) → (⟨S256x128, .f32⟩ : BufTy).Contents (Elt F)),
    StableHlo.nullary main_v167 (iotaInDim S256 32 0),
    StableHlo.nullary main_c_25 (constantI S_ 32 1#32),
    StableHlo.unary main_c_25 main_v168 (broadcastInDim S256 ![] bcast_S_S256 : (⟨S_, .i32⟩ : BufTy).Contents (Elt F) → (⟨S256, .i32⟩ : BufTy).Contents (Elt F)),
    StableHlo.binary main_v167 main_v168 main_v169 (addi : (⟨S256, .i32⟩ : BufTy).Contents (Elt F) → (⟨S256, .i32⟩ : BufTy).Contents (Elt F) → (⟨S256, .i32⟩ : BufTy).Contents (Elt F)),
    StableHlo.nullary main_c_26 (constantI S_ 32 256#32),
    StableHlo.TRef.unary (.of main_c_26) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S256 ![] bcast_S_S256),
    StableHlo.TRef.binary (.of main_v169) main_call3.v3 main_call3.v4 Host.remsi,
    StableHlo.TRef.nullary main_call3.c_1 (constantI S_ 32 0#32),
    StableHlo.TRef.unary main_call3.c_1 main_call3.v5 (broadcastInDim S256 ![] bcast_S_S256),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S256 ![] bcast_S_S256),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S256 ![] bcast_S_S256),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S256 ![] bcast_S_S256),
    StableHlo.TRef.binary main_call3.v4 main_call3.v13 main_call3.v14 addi,
    StableHlo.TRef.ternary main_call3.v12 main_call3.v14 main_call3.v4 main_call3.v15 select,
    StableHlo.nullary main_c_27 (constantI S_ 32 0#32),
    StableHlo.unary main_c_27 main_v171 (broadcastInDim S256 ![] bcast_S_S256 : (⟨S_, .i32⟩ : BufTy).Contents (Elt F) → (⟨S256, .i32⟩ : BufTy).Contents (Elt F)),
    StableHlo.binary main_v170 main_v171 main_v172 (cmpi .slt : (⟨S256, .i32⟩ : BufTy).Contents (Elt F) → (⟨S256, .i32⟩ : BufTy).Contents (Elt F) → (⟨S256, .i1⟩ : BufTy).Contents (Elt F)),
    StableHlo.nullary main_c_28 (constantI S_ 32 256#32),
    StableHlo.unary main_c_28 main_v173 (broadcastInDim S256 ![] bcast_S_S256 : (⟨S_, .i32⟩ : BufTy).Contents (Elt F) → (⟨S256, .i32⟩ : BufTy).Contents (Elt F)),
    StableHlo.binary main_v170 main_v173 main_v174 (addi : (⟨S256, .i32⟩ : BufTy).Contents (Elt F) → (⟨S256, .i32⟩ : BufTy).Contents (Elt F) → (⟨S256, .i32⟩ : BufTy).Contents (Elt F)),
    StableHlo.ternary main_v172 main_v174 main_v170 main_v175 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v175 main_v176 (broadcastInDim S256x1 ![0] bcast_S256_S256x1_0 : (⟨S256, .i32⟩ : BufTy).Contents (Elt F) → (⟨S256x1, .i32⟩ : BufTy).Contents (Elt F)),
    StableHlo.binary main_v166 main_v176 main_v177 ((fun x i => Host.gather gather_S256x128_S256x1_S256x128_1_0_n_n_0_1_1128 x i) : (⟨S256x128, .f32⟩ : BufTy).Contents (Elt F) → (⟨S256x1, .i32⟩ : BufTy).Contents (Elt F) → (⟨S256x128, .f32⟩ : BufTy).Contents (Elt F)),
    StableHlo.nullary main_c_29 (constantI S_ 32 0#32),
    StableHlo.unary main_c_29 main_v178 (broadcastInDim S50000 ![] bcast_S_S50000 : (⟨S_, .i32⟩ : BufTy).Contents (Elt F) → (⟨S50000, .i32⟩ : BufTy).Contents (Elt F)),
    StableHlo.binary main_arg2 main_v178 main_v179 (cmpi .slt : (⟨S50000, .i32⟩ : BufTy).Contents (Elt F) → (⟨S50000, .i32⟩ : BufTy).Contents (Elt F) → (⟨S50000, .i1⟩ : BufTy).Contents (Elt F)),
    StableHlo.nullary main_c_30 (constantI S_ 32 256#32),
    StableHlo.unary main_c_30 main_v180 (broadcastInDim S50000 ![] bcast_S_S50000 : (⟨S_, .i32⟩ : BufTy).Contents (Elt F) → (⟨S50000, .i32⟩ : BufTy).Contents (Elt F)),
    StableHlo.binary main_arg2 main_v180 main_v181 (addi : (⟨S50000, .i32⟩ : BufTy).Contents (Elt F) → (⟨S50000, .i32⟩ : BufTy).Contents (Elt F) → (⟨S50000, .i32⟩ : BufTy).Contents (Elt F)),
    StableHlo.ternary main_v179 main_v181 main_arg2 main_v182 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v182 main_v183 (broadcastInDim S50000x1 ![0] bcast_S50000_S50000x1_0 : (⟨S50000, .i32⟩ : BufTy).Contents (Elt F) → (⟨S50000x1, .i32⟩ : BufTy).Contents (Elt F)),
    StableHlo.binary main_v166 main_v183 main_v184 ((fun x i => Host.gather gather_S256x128_S50000x1_S50000x128_1_0_n_n_0_1_1128 x i) : (⟨S256x128, .f32⟩ : BufTy).Contents (Elt F) → (⟨S50000x1, .i32⟩ : BufTy).Contents (Elt F) → (⟨S50000x128, .f32⟩ : BufTy).Contents (Elt F)),
    StableHlo.binary main_v184 main_arg13 main_v185 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v149 main_v185 main_v186 (mulf : (⟨S50000x128, .f32⟩ : BufTy).Contents (Elt F) → (⟨S50000x128, .f32⟩ : BufTy).Contents (Elt F) → (⟨S50000x128, .f32⟩ : BufTy).Contents (Elt F)),
    StableHlo.nullary main_cst_31 (constant S_ .f32 0x00000000#32),
    StableHlo.binary main_v186 main_cst_31 main_v187 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.nullary main_c_32 (constantI S_ 32 0#32),
    StableHlo.unary main_c_32 main_v188 (broadcastInDim S50000 ![] bcast_S_S50000 : (⟨S_, .i32⟩ : BufTy).Contents (Elt F) → (⟨S50000, .i32⟩ : BufTy).Contents (Elt F)),
    StableHlo.binary main_arg2 main_v188 main_v189 (cmpi .slt : (⟨S50000, .i32⟩ : BufTy).Contents (Elt F) → (⟨S50000, .i32⟩ : BufTy).Contents (Elt F) → (⟨S50000, .i1⟩ : BufTy).Contents (Elt F)),
    StableHlo.nullary main_c_33 (constantI S_ 32 256#32),
    StableHlo.unary main_c_33 main_v190 (broadcastInDim S50000 ![] bcast_S_S50000 : (⟨S_, .i32⟩ : BufTy).Contents (Elt F) → (⟨S50000, .i32⟩ : BufTy).Contents (Elt F)),
    StableHlo.binary main_arg2 main_v190 main_v191 (addi : (⟨S50000, .i32⟩ : BufTy).Contents (Elt F) → (⟨S50000, .i32⟩ : BufTy).Contents (Elt F) → (⟨S50000, .i32⟩ : BufTy).Contents (Elt F)),
    StableHlo.ternary main_v189 main_v191 main_arg2 main_v192 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v192 main_v193 (broadcastInDim S50000x1 ![0] bcast_S50000_S50000x1_0 : (⟨S50000, .i32⟩ : BufTy).Contents (Elt F) → (⟨S50000x1, .i32⟩ : BufTy).Contents (Elt F)),
    StableHlo.binary main_v177 main_v193 main_v194 ((fun x i => Host.gather gather_S256x128_S50000x1_S50000x128_1_0_n_n_0_1_1128 x i) : (⟨S256x128, .f32⟩ : BufTy).Contents (Elt F) → (⟨S50000x1, .i32⟩ : BufTy).Contents (Elt F) → (⟨S50000x128, .f32⟩ : BufTy).Contents (Elt F)),
    StableHlo.binary main_v194 main_arg13 main_v195 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v149 main_v195 main_v196 (mulf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x00000000#32),
    StableHlo.binary main_v196 main_cst_34 main_v197 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v187 main_v198 (broadcastInDim S1x50000 ![1] bcast_S50000_S1x50000_1 : (⟨S50000, .f32⟩ : BufTy).Contents (Elt F) → (⟨S1x50000, .f32⟩ : BufTy).Contents (Elt F)),
    StableHlo.unary main_v197 main_v199 (broadcastInDim S1x50000 ![1] bcast_S50000_S1x50000_1 : (⟨S50000, .f32⟩ : BufTy).Contents (Elt F) → (⟨S1x50000, .f32⟩ : BufTy).Contents (Elt F)),
    StableHlo.binary main_v198 main_v199 main_v200 ((fun a b => concatenate S2x50000 0 [⟨S1x50000, a⟩, ⟨S1x50000, b⟩] concatenates_S1x50000_S1x50000_S2x50000_d0) : (⟨S1x50000, .f32⟩ : BufTy).Contents (Elt F) → (⟨S1x50000, .f32⟩ : BufTy).Contents (Elt F) → (⟨S2x50000, .f32⟩ : BufTy).Contents (Elt F)) ]

set_option maxRecDepth 8192 in
/-- The whole line is the five stages one after the other. -/
theorem ops_split : (ops : List (HloOp τ sig (Elt F))) = opsA ++ (opsB ++ (opsC ++ (opsD ++ opsH))) := rfl

/-- Folding the whole line is folding the stages in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_ops (V : Valuation τ sig (Elt F)) :
    after ops V = after opsH (after opsD (after opsC (after opsB (after opsA V)))) := by
  rw [ops_split, after_append, after_append, after_append, after_append]

end Cert.ReferenceIdeal.RefRun

end
-- ==== Proof.LibHostKeeps.lean ====
/-
  Two small tactics for reading buffers through straight lines of host operations.

  A straight line of host operations writes only its operations' result buffers. So a buffer that is none of them
  holds after the line what it held before, whatever contents the line is entered with: `host_keeps ops` proves a goal
  `StableHlo.after ops W (Proc.devRef .tc b) = W (Proc.devRef .tc b)` for a literal list `ops` (named by the
  abbreviation that a `simp only` may unfold) and a literal reference `b`, by comparing `b` with each result buffer in
  turn. It is the step with which a value is carried across the host stretches of a program of several kernel
  regions (across a region, the frame's own `W…_of_ne` does the same).

  The operations of an outlined function (a `where`, a `relu`: `TRef.unary …`) carry each value to its buffer's own
  type and back. For literal references both carriages are casts along an equation between one type and itself:
  `drop_casts` removes them all, leaving the plain operations' term for `rfl` or a rewrite.
-/
import Idealize.ShloMosaic.Lib.StableHlo.Run

namespace Cert.LibHostKeeps

open Idealize.ShloMosaic

/-- No operation of the named list writes the goal's buffer: its result buffers, one by one, are other references. -/
macro "host_keeps " ops:ident : tactic => `(tactic| exact StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

/-- The carriages of values to and from their buffers' own types, at literal references, are the identity. -/
macro "drop_casts" : tactic => `(tactic| simp only [StableHlo.TRef.toBuf, StableHlo.TRef.ofBuf, cast_eq])

end Cert.LibHostKeeps
-- ==== Proof.RefKeeps.lean ====
/-
  What the reference's straight line leaves alone, and its frame.

  A straight line of host operations writes only its operations' result buffers. Read stage by stage (the five
  consecutive pieces of the line), a buffer that is none of a stage's result buffers holds after the stage what it held
  before: the parameters pass through the stages that come before their use, and the edge lists and edge features
  prepared once pass through layer 0's second stage to layer 1. Read over the whole line, no operation writes an
  argument buffer, so the fourteen arguments end as launched. With the run of the line (every weakly fair execution
  terminates without a fault, each buffer ending at the fold of the operations over the launch contents) this is the
  reference's frame, and the result buffer ends at the stages' folds composed.
-/
import proofs.«107108_j75977971466801_2_alg».proof.Proof.RefSplit
import proofs.«107108_j75977971466801_2_alg».proof.Proof.LibHostKeeps
import proofs.«107108_j75977971466801_2_alg».proof.Defs

noncomputable section

namespace Cert.RefKeeps

open Idealize.ShloMosaic Idealize.ShloMosaic.TcCoe Idealize.SL.Sem Cert.ReferenceIdeal Cert.ReferenceIdeal.RefRun Cert.LibHostKeeps

variable {F : FTy → Type} [FloatOps F]

/-! ## A stage leaves alone what it does not write -/

theorem keep_A_arg2 (X : Valuation τ sig (Elt F)) :
    StableHlo.after opsA X (Proc.devRef .tc main_arg2) = X (Proc.devRef .tc main_arg2) := by host_keeps opsA
theorem keep_A_arg5 (X : Valuation τ sig (Elt F)) :
    StableHlo.after opsA X (Proc.devRef .tc main_arg5) = X (Proc.devRef .tc main_arg5) := by host_keeps opsA
theorem keep_A_arg6 (X : Valuation τ sig (Elt F)) :
    StableHlo.after opsA X (Proc.devRef .tc main_arg6) = X (Proc.devRef .tc main_arg6) := by host_keeps opsA
theorem keep_A_arg7 (X : Valuation τ sig (Elt F)) :
    StableHlo.after opsA X (Proc.devRef .tc main_arg7) = X (Proc.devRef .tc main_arg7) := by host_keeps opsA
theorem keep_A_arg8 (X : Valuation τ sig (Elt F)) :
    StableHlo.after opsA X (Proc.devRef .tc main_arg8) = X (Proc.devRef .tc main_arg8) := by host_keeps opsA
theorem keep_A_arg9 (X : Valuation τ sig (Elt F)) :
    StableHlo.after opsA X (Proc.devRef .tc main_arg9) = X (Proc.devRef .tc main_arg9) := by host_keeps opsA
theorem keep_A_arg10 (X : Valuation τ sig (Elt F)) :
    StableHlo.after opsA X (Proc.devRef .tc main_arg10) = X (Proc.devRef .tc main_arg10) := by host_keeps opsA
theorem keep_A_arg11 (X : Valuation τ sig (Elt F)) :
    StableHlo.after opsA X (Proc.devRef .tc main_arg11) = X (Proc.devRef .tc main_arg11) := by host_keeps opsA
theorem keep_A_arg12 (X : Valuation τ sig (Elt F)) :
    StableHlo.after opsA X (Proc.devRef .tc main_arg12) = X (Proc.devRef .tc main_arg12) := by host_keeps opsA
theorem keep_A_arg13 (X : Valuation τ sig (Elt F)) :
    StableHlo.after opsA X (Proc.devRef .tc main_arg13) = X (Proc.devRef .tc main_arg13) := by host_keeps opsA

theorem keep_B_arg2 (X : Valuation τ sig (Elt F)) :
    StableHlo.after opsB X (Proc.devRef .tc main_arg2) = X (Proc.devRef .tc main_arg2) := by host_keeps opsB
theorem keep_B_arg5 (X : Valuation τ sig (Elt F)) :
    StableHlo.after opsB X (Proc.devRef .tc main_arg5) = X (Proc.devRef .tc main_arg5) := by host_keeps opsB
theorem keep_B_arg6 (X : Valuation τ sig (Elt F)) :
    StableHlo.after opsB X (Proc.devRef .tc main_arg6) = X (Proc.devRef .tc main_arg6) := by host_keeps opsB
theorem keep_B_arg7 (X : Valuation τ sig (Elt F)) :
    StableHlo.after opsB X (Proc.devRef .tc main_arg7) = X (Proc.devRef .tc main_arg7) := by host_keeps opsB
theorem keep_B_arg8 (X : Valuation τ sig (Elt F)) :
    StableHlo.after opsB X (Proc.devRef .tc main_arg8) = X (Proc.devRef .tc main_arg8) := by host_keeps opsB
theorem keep_B_arg9 (X : Valuation τ sig (Elt F)) :
    StableHlo.after opsB X (Proc.devRef .tc main_arg9) = X (Proc.devRef .tc main_arg9) := by host_keeps opsB
theorem keep_B_arg10 (X : Valuation τ sig (Elt F)) :
    StableHlo.after opsB X (Proc.devRef .tc main_arg10) = X (Proc.devRef .tc main_arg10) := by host_keeps opsB
theorem keep_B_arg11 (X : Valuation τ sig (Elt F)) :
    StableHlo.after opsB X (Proc.devRef .tc main_arg11) = X (Proc.devRef .tc main_arg11) := by host_keeps opsB
theorem keep_B_arg12 (X : Valuation τ sig (Elt F)) :
    StableHlo.after opsB X (Proc.devRef .tc main_arg12) = X (Proc.devRef .tc main_arg12) := by host_keeps opsB
theorem keep_B_arg13 (X : Valuation τ sig (Elt F)) :
    StableHlo.after opsB X (Proc.devRef .tc main_arg13) = X (Proc.devRef .tc main_arg13) := by host_keeps opsB
theorem keep_B_v3 (X : Valuation τ sig (Elt F)) :
    StableHlo.after opsB X (Proc.devRef .tc main_v3) = X (Proc.devRef .tc main_v3) := by host_keeps opsB
theorem keep_B_v6 (X : Valuation τ sig (Elt F)) :
    StableHlo.after opsB X (Proc.devRef .tc main_v6) = X (Proc.devRef .tc main_v6) := by host_keeps opsB
theorem keep_B_v11 (X : Valuation τ sig (Elt F)) :
    StableHlo.after opsB X (Proc.devRef .tc main_v11) = X (Proc.devRef .tc main_v11) := by host_keeps opsB

theorem keep_C_arg2 (X : Valuation τ sig (Elt F)) :
    StableHlo.after opsC X (Proc.devRef .tc main_arg2) = X (Proc.devRef .tc main_arg2) := by host_keeps opsC
theorem keep_C_arg9 (X : Valuation τ sig (Elt F)) :
    StableHlo.after opsC X (Proc.devRef .tc main_arg9) = X (Proc.devRef .tc main_arg9) := by host_keeps opsC
theorem keep_C_arg10 (X : Valuation τ sig (Elt F)) :
    StableHlo.after opsC X (Proc.devRef .tc main_arg10) = X (Proc.devRef .tc main_arg10) := by host_keeps opsC
theorem keep_C_arg11 (X : Valuation τ sig (Elt F)) :
    StableHlo.after opsC X (Proc.devRef .tc main_arg11) = X (Proc.devRef .tc main_arg11) := by host_keeps opsC
theorem keep_C_arg12 (X : Valuation τ sig (Elt F)) :
    StableHlo.after opsC X (Proc.devRef .tc main_arg12) = X (Proc.devRef .tc main_arg12) := by host_keeps opsC
theorem keep_C_arg13 (X : Valuation τ sig (Elt F)) :
    StableHlo.after opsC X (Proc.devRef .tc main_arg13) = X (Proc.devRef .tc main_arg13) := by host_keeps opsC

theorem keep_D_arg2 (X : Valuation τ sig (Elt F)) :
    StableHlo.after opsD X (Proc.devRef .tc main_arg2) = X (Proc.devRef .tc main_arg2) := by host_keeps opsD
theorem keep_D_arg13 (X : Valuation τ sig (Elt F)) :
    StableHlo.after opsD X (Proc.devRef .tc main_arg13) = X (Proc.devRef .tc main_arg13) := by host_keeps opsD

/-! ## The whole line writes no argument -/

set_option maxRecDepth 8192 in
set_option maxHeartbeats 4000000 in
theorem keep_ops_arg0 (X : Valuation τ sig (Elt F)) :
    StableHlo.after ops X (Proc.devRef .tc main_arg0) = X (Proc.devRef .tc main_arg0) := by host_keeps ops
set_option maxRecDepth 8192 in
set_option maxHeartbeats 4000000 in
theorem keep_ops_arg1 (X : Valuation τ sig (Elt F)) :
    StableHlo.after ops X (Proc.devRef .tc main_arg1) = X (Proc.devRef .tc main_arg1) := by host_keeps ops
set_option maxRecDepth 8192 in
set_option maxHeartbeats 4000000 in
theorem keep_ops_arg2 (X : Valuation τ sig (Elt F)) :
    StableHlo.after ops X (Proc.devRef .tc main_arg2) = X (Proc.devRef .tc main_arg2) := by host_keeps ops
set_option maxRecDepth 8192 in
set_option maxHeartbeats 4000000 in
theorem keep_ops_arg3 (X : Valuation τ sig (Elt F)) :
    StableHlo.after ops X (Proc.devRef .tc main_arg3) = X (Proc.devRef .tc main_arg3) := by host_keeps ops
set_option maxRecDepth 8192 in
set_option maxHeartbeats 4000000 in
theorem keep_ops_arg4 (X : Valuation τ sig (Elt F)) :
    StableHlo.after ops X (Proc.devRef .tc main_arg4) = X (Proc.devRef .tc main_arg4) := by host_keeps ops
set_option maxRecDepth 8192 in
set_option maxHeartbeats 4000000 in
theorem keep_ops_arg5 (X : Valuation τ sig (Elt F)) :
    StableHlo.after ops X (Proc.devRef .tc main_arg5) = X (Proc.devRef .tc main_arg5) := by host_keeps ops
set_option maxRecDepth 8192 in
set_option maxHeartbeats 4000000 in
theorem keep_ops_arg6 (X : Valuation τ sig (Elt F)) :
    StableHlo.after ops X (Proc.devRef .tc main_arg6) = X (Proc.devRef .tc main_arg6) := by host_keeps ops
set_option maxRecDepth 8192 in
set_option maxHeartbeats 4000000 in
theorem keep_ops_arg7 (X : Valuation τ sig (Elt F)) :
    StableHlo.after ops X (Proc.devRef .tc main_arg7) = X (Proc.devRef .tc main_arg7) := by host_keeps ops
set_option maxRecDepth 8192 in
set_option maxHeartbeats 4000000 in
theorem keep_ops_arg8 (X : Valuation τ sig (Elt F)) :
    StableHlo.after ops X (Proc.devRef .tc main_arg8) = X (Proc.devRef .tc main_arg8) := by host_keeps ops
set_option maxRecDepth 8192 in
set_option maxHeartbeats 4000000 in
theorem keep_ops_arg9 (X : Valuation τ sig (Elt F)) :
    StableHlo.after ops X (Proc.devRef .tc main_arg9) = X (Proc.devRef .tc main_arg9) := by host_keeps ops
set_option maxRecDepth 8192 in
set_option maxHeartbeats 4000000 in
theorem keep_ops_arg10 (X : Valuation τ sig (Elt F)) :
    StableHlo.after ops X (Proc.devRef .tc main_arg10) = X (Proc.devRef .tc main_arg10) := by host_keeps ops
set_option maxRecDepth 8192 in
set_option maxHeartbeats 4000000 in
theorem keep_ops_arg11 (X : Valuation τ sig (Elt F)) :
    StableHlo.after ops X (Proc.devRef .tc main_arg11) = X (Proc.devRef .tc main_arg11) := by host_keeps ops
set_option maxRecDepth 8192 in
set_option maxHeartbeats 4000000 in
theorem keep_ops_arg12 (X : Valuation τ sig (Elt F)) :
    StableHlo.after ops X (Proc.devRef .tc main_arg12) = X (Proc.devRef .tc main_arg12) := by host_keeps ops
set_option maxRecDepth 8192 in
set_option maxHeartbeats 4000000 in
theorem keep_ops_arg13 (X : Valuation τ sig (Elt F)) :
    StableHlo.after ops X (Proc.devRef .tc main_arg13) = X (Proc.devRef .tc main_arg13) := by host_keeps ops

/-! ## The run, read at the result and at the arguments -/

/-- From any memory with zero counters every weakly fair execution of the reference terminates without a fault; its result
    buffer ends at the five stages' folds composed over the launch contents, and its fourteen argument buffers as
    launched (no operation writes an argument). -/
theorem ref_post (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v200)
          = StableHlo.after (opsH (F := Ideal)) (StableHlo.after opsD (StableHlo.after opsC (StableHlo.after opsB
              (StableHlo.after opsA (StableHlo.launchContents m' c))))) (Proc.devRef .tc main_v200)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run defs _ _).mono (fun _ h c =>
    ⟨(h c main_v200).trans (congrFun (after_ops (StableHlo.launchContents m' c)) _),
      (h c main_arg0).trans (keep_ops_arg0 (StableHlo.launchContents m' c)),
      (h c main_arg1).trans (keep_ops_arg1 (StableHlo.launchContents m' c)),
      (h c main_arg2).trans (keep_ops_arg2 (StableHlo.launchContents m' c)),
      (h c main_arg3).trans (keep_ops_arg3 (StableHlo.launchContents m' c)),
      (h c main_arg4).trans (keep_ops_arg4 (StableHlo.launchContents m' c)),
      (h c main_arg5).trans (keep_ops_arg5 (StableHlo.launchContents m' c)),
      (h c main_arg6).trans (keep_ops_arg6 (StableHlo.launchContents m' c)),
      (h c main_arg7).trans (keep_ops_arg7 (StableHlo.launchContents m' c)),
      (h c main_arg8).trans (keep_ops_arg8 (StableHlo.launchContents m' c)),
      (h c main_arg9).trans (keep_ops_arg9 (StableHlo.launchContents m' c)),
      (h c main_arg10).trans (keep_ops_arg10 (StableHlo.launchContents m' c)),
      (h c main_arg11).trans (keep_ops_arg11 (StableHlo.launchContents m' c)),
      (h c main_arg12).trans (keep_ops_arg12 (StableHlo.launchContents m' c)),
      (h c main_arg13).trans (keep_ops_arg13 (StableHlo.launchContents m' c))⟩)
    (run_main (F := Ideal) m' ρ')

/-- The reference's frame: it runs (terminates, no fault) and its argument arrays end unchanged — whatever the
    precondition, which the run does not need. -/
theorem frame_ri [hR : Cert.ReferenceIdeal.Facts] [hP : Cert.Pre_finite_inputs.Facts] : Cert.frame_ReferenceIdeal :=
  fun m ρ _ => (θ_run defs _ _).mono (fun _ h c => (h c).2) (ref_post m ρ)

end Cert.RefKeeps

end
-- ==== Proof.LibMatOps.lean ====
/-
  Array functions over the extended reals, for any sizes, each stated at an index through its two coordinates: the
  matrix product entry by entry (mm), one row added to every row (addRow), the sums down each column of the entries
  (colSum) and of their squares (colSumSq) as one row, a scale and a shift applied column by column (affine), and the
  positive part (relu).  The lemmas named `_apply` read each at the index built from two literal coordinates, by
  definition.  A tiled kernel's closed form (a dense layer with a bias row, a column-sum accumulator, a column-wise
  normalisation) can be stated as one of these functions of its whole input arrays.
-/
import Idealize.ShloMosaic.Lib.ValueIdx
import Idealize.ShloMosaic.PureOps.Ideal

noncomputable section

open scoped BigOperators

namespace Cert.Spec

open Idealize.ShloMosaic Idealize.ShloMosaic.ValueIdx

variable {n k d : ℕ}

/-- An n × d array of extended reals. -/
abbrev Mat (n d : ℕ) : Type := (⟨2, ![n, d]⟩ : Shape).Idx → EReal

/-- The matrix product: entry (p, j) is the sum over q of X (p, q) · W (q, j). -/
def mm (X : Mat n k) (W : Mat k d) : Mat n d := fun i => ∑ q : Fin k, X (ix2 (i 0) q) * W (ix2 q (i 1))

theorem mm_apply (X : Mat n k) (W : Mat k d) (p : Fin n) (j : Fin d) :
    mm X W (ix2 p j) = ∑ q : Fin k, X (ix2 p q) * W (ix2 q j) := rfl

/-- The one row B added to every row of Y. -/
def addRow (Y : Mat n d) (B : Mat 1 d) : Mat n d := fun i => Y i + B (ix2 (0 : Fin 1) (i 1))

theorem addRow_apply (Y : Mat n d) (B : Mat 1 d) (p : Fin n) (j : Fin d) :
    addRow Y B (ix2 p j) = Y (ix2 p j) + B (ix2 (0 : Fin 1) j) := rfl

/-- The sum down each column, as one row. -/
def colSum (X : Mat n d) : Mat 1 d := fun i => ∑ p : Fin n, X (ix2 p (i 1))

theorem colSum_apply (X : Mat n d) (z : Fin 1) (j : Fin d) : colSum X (ix2 z j) = ∑ p : Fin n, X (ix2 p j) := rfl

/-- The sum of the squares down each column, as one row. -/
def colSumSq (X : Mat n d) : Mat 1 d := fun i => ∑ p : Fin n, X (ix2 p (i 1)) * X (ix2 p (i 1))

theorem colSumSq_apply (X : Mat n d) (z : Fin 1) (j : Fin d) :
    colSumSq X (ix2 z j) = ∑ p : Fin n, X (ix2 p j) * X (ix2 p j) := rfl

/-- Column j scaled by S j and shifted by T j. -/
def affine (X : Mat n d) (S T : Mat 1 d) : Mat n d :=
  fun i => X i * S (ix2 (0 : Fin 1) (i 1)) + T (ix2 (0 : Fin 1) (i 1))

theorem affine_apply (X : Mat n d) (S T : Mat 1 d) (p : Fin n) (j : Fin d) :
    affine X S T (ix2 p j) = X (ix2 p j) * S (ix2 (0 : Fin 1) j) + T (ix2 (0 : Fin 1) j) := rfl

/-- The positive part, entry by entry. -/
def relu (Y : Mat n d) : Mat n d := fun i => max (Y i) 0

theorem relu_apply (Y : Mat n d) (p : Fin n) (j : Fin d) : relu Y (ix2 p j) = max (Y (ix2 p j)) 0 := rfl

end Cert.Spec

end
-- ==== Proof.LibLayerSpec.lean ====
/-
  The perceptron of one message-passing layer, as whole-array functions over the extended reals, for any sizes.

  A layer's update is two dense maps with a column-wise normalisation between them.  With Z = A · W₁ + b₁ the first
  dense map of the aggregated features A, the second stage takes each column j of Z, subtracts a given number μ j,
  scales by the reciprocal square root of a given number v j plus a fixed ε, scales by g j, shifts by β j, and keeps
  the positive part (normRelu); the result goes through the second dense map, (·) · W₂ + b₂, and — in every layer
  but the last — through the positive part again.  Written with the matrix vocabulary (mm, addRow, relu) these are
  dense and layerOut below; the lemmas named _apply read them at an entry, by definition.
-/
import proofs.«107108_j75977971466801_2_alg».proof.Proof.LibMatOps

noncomputable section

open scoped BigOperators

namespace Cert.Spec

open Idealize.ShloMosaic Idealize.ShloMosaic.ValueIdx

variable {n k d : ℕ}

/-- The dense map: X · W plus the row B added to every row. -/
def dense (X : Mat n k) (W : Mat k d) (B : Mat 1 d) : Mat n d := addRow (mm X W) B

theorem dense_apply (X : Mat n k) (W : Mat k d) (B : Mat 1 d) (p : Fin n) (j : Fin d) :
    dense X W B (ix2 p j) = (∑ q : Fin k, X (ix2 p q) * W (ix2 q j)) + B (ix2 (0 : Fin 1) j) := rfl

/-- Column j of X centred at MU j, scaled by rsqrt (VAR j + ε) and by G j, shifted by BT j; then the positive part. -/
def normRelu (ε : EReal) (X : Mat n d) (MU VAR G BT : Mat 1 d) : Mat n d := fun i =>
  max ((X i - MU (ix2 (0 : Fin 1) (i 1))) * Ideal.rsqrt (VAR (ix2 (0 : Fin 1) (i 1)) + ε) * G (ix2 (0 : Fin 1) (i 1))
    + BT (ix2 (0 : Fin 1) (i 1))) 0

theorem normRelu_apply (ε : EReal) (X : Mat n d) (MU VAR G BT : Mat 1 d) (p : Fin n) (j : Fin d) :
    normRelu ε X MU VAR G BT (ix2 p j)
      = max ((X (ix2 p j) - MU (ix2 (0 : Fin 1) j)) * Ideal.rsqrt (VAR (ix2 (0 : Fin 1) j) + ε) * G (ix2 (0 : Fin 1) j)
          + BT (ix2 (0 : Fin 1) j)) 0 := rfl

/-- The second stage of a layer without the closing positive part: normalise, keep the positive part, dense map. -/
def layerOut (ε : EReal) (Z : Mat n k) (MU VAR G BT : Mat 1 k) (W : Mat k d) (B : Mat 1 d) : Mat n d :=
  dense (normRelu ε Z MU VAR G BT) W B

end Cert.Spec

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.LibPlainDot.lean ====
/-
  Plain matrix products, whatever name their dimension numbers are printed under.

  A program prints the dimension numbers of each of its matrix products as a record of its own; for rows × inner
  times inner × columns with no batch axis that record is the library's `DotDims.plain n k d` but for its proof
  field. For any record equal to it, a matrix-unit product into the zero accumulator and a host `dot_general`
  are, at entry (p, c) and over the exact extended reals, the sum over q of lhs (p, q) · rhs (q, c).
-/
import Idealize.ShloMosaic.Lib.ValueIdx
import Idealize.ShloMosaic.PureOps.Ideal.Laws
import proofs.«107108_j75977971466801_2_alg».proof.Proof.LibDense

noncomputable section

open scoped BigOperators

namespace Cert.LibPlainDot

open Idealize.ShloMosaic Idealize.ShloMosaic.ValueIdx

variable {n k d : ℕ}

theorem plain_rank : (DotDims.plain n k d).contr.rank = 1 := rfl
theorem plain_size : (DotDims.plain n k d).contr.size ⟨0, by rw [plain_rank]; omega⟩ = k := rfl

theorem plain_lhs0 (i : (⟨2, ![n, d]⟩ : Shape).Idx) (q : (DotDims.plain n k d).contr.Idx) :
    ((DotDims.plain n k d).lhsIdx i q 0).val = (i 0).val := by
  unfold DotDims.lhsIdx
  rw [dif_neg (show ¬(0 : Fin 2) ∈ (DotDims.plain n k d).lhsBatch from List.not_mem_nil),
    dif_pos (show (0 : Fin 2) ∈ (DotDims.plain n k d).lhsNonContracting from List.mem_cons_self)]
  rfl
theorem plain_lhs1 (i : (⟨2, ![n, d]⟩ : Shape).Idx) (q : (DotDims.plain n k d).contr.Idx) :
    ((DotDims.plain n k d).lhsIdx i q 1).val = (q ⟨0, by rw [plain_rank]; omega⟩).val :=
  (DotDims.plain n k d).lhsIdx_val_of_single rfl i q
theorem plain_rhs0 (i : (⟨2, ![n, d]⟩ : Shape).Idx) (q : (DotDims.plain n k d).contr.Idx) :
    ((DotDims.plain n k d).rhsIdx i q 0).val = (q ⟨0, by rw [plain_rank]; omega⟩).val :=
  (DotDims.plain n k d).rhsIdx_val_of_single rfl i q
theorem plain_rhs1 (i : (⟨2, ![n, d]⟩ : Shape).Idx) (q : (DotDims.plain n k d).contr.Idx) :
    ((DotDims.plain n k d).rhsIdx i q 1).val = (i 1).val := by
  unfold DotDims.rhsIdx
  rw [dif_neg (show ¬(1 : Fin 2) ∈ (DotDims.plain n k d).rhsBatch from List.not_mem_nil),
    dif_pos (show (1 : Fin 2) ∈ (DotDims.plain n k d).rhsNonContracting from List.mem_cons_self)]
  rfl

/-- A matrix-unit product into the zero accumulator under dimension numbers that are the plain ones, at (p, c). -/
theorem matmul_zero_apply {φ₁ φ₂ : FTy} (D : DotDims ⟨2, ![n, k]⟩ ⟨2, ![k, d]⟩ ⟨2, ![n, d]⟩) (hD : D = DotDims.plain n k d)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  subst hD
  exact Cert.LibDense.matmul_zero_apply (DotDims.plain n k d) plain_rank plain_size plain_lhs0 plain_lhs1 plain_rhs0 plain_rhs1
    prec lhs rhs p c

/-- A host `dot_general` under dimension numbers that are the plain ones, at (p, c). -/
theorem dotGeneral_apply {φ₁ φ₂ : FTy} (D : DotDims ⟨2, ![n, k]⟩ ⟨2, ![k, d]⟩ ⟨2, ![n, d]⟩) (hD : D = DotDims.plain n k d)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  subst hD
  exact Cert.LibDense.dotGeneral_apply (DotDims.plain n k d) plain_rank plain_size plain_lhs0 plain_lhs1 plain_rhs0 plain_rhs1
    prec sched lhs rhs p c

end Cert.LibPlainDot

end
-- ==== Proof.RegionDense.lean ====
/-
  The two dense regions of the idealized kernel, each as one function of the arrays it finds.

  Regions 0 and 2 run the same body over ten tiles of 5000 rows: a tile X_t of the [50000, 256] input, the whole
  [256, 256] weight array W and the one bias row B are brought in, and the tile of the output is the matrix-unit
  product of X_t and W into the zero accumulator plus B repeated over the rows.  Over the extended reals that product
  is the plain sum  ∑ q, X_t (p, q) · W (q, j)  (narrowing the operands' format first changes nothing), so entry (p, j)
  of tile t is entry (5000·t + p, j) of the dense map  X · W + B  of the whole arrays: it depends on row 5000·t + p of X
  alone.  The ten output tiles are disjoint row ranges that fill the output array — row r belongs to tile r / 5000 — so
  after the region the output array IS  Cert.Spec.dense X W B  of the three arrays as the region found them
  (region0_value, region2_value).  No law of arithmetic is used beyond reading each sum where it is written.

  Per region: the body at an entry (payK_apply) and against whole arrays (payK_eq_dense); the block indices decided over
  the ten points (idx_factsK); each input block as entries of its array (iblkK_w_apply) and the output block's place
  (embK_3); what a point writes back (flushedK_eq); membership in a block and the cover (mem_blkK, coverK).
-/
import proofs.«107108_j75977971466801_2_alg».proof.Proof.Gen.KernelIdeal.Frame
import proofs.«107108_j75977971466801_2_alg».proof.Proof.LibLayerSpec
import proofs.«107108_j75977971466801_2_alg».proof.Proof.LibPlainDot
import Idealize.ShloMosaic.Lib.Pipeline.Value
import Idealize.ShloMosaic.Lib.ValueLayout
import Idealize.ShloMosaic.Lib.ValueIdx

set_option maxRecDepth 16384

noncomputable section

open scoped BigOperators

namespace Cert.KernelIdeal.RegionValue.Dense

open Idealize.ShloMosaic Idealize.ShloMosaic.TcCoe Idealize.SL.Sem
open Idealize.ShloMosaic.Pipeline (Dat)
open Idealize.ShloMosaic.ValueIdx
open Cert.KernelIdeal Cert.KernelIdeal.Gen

/-- The zero offset of a load or store of a whole buffer. -/
theorem zero_off : (![0, 0] : Fin 2 → Nat) = fun _ => 0 := funext fun a => by fin_cases a <;> rfl

/-- The product's dimension numbers are the plain ones: rows × inner times inner × columns. -/
theorem dot_plain : dot_S5000x256_S256x256_S5000x256_1_0_0_1_n_n = DotDims.plain 5000 256 256 := rfl

/-! ## Region 0 -/

section Region0

/-- The body of region 0 at entry (p, j) of a tile: the sum over q of the tile's row p against column j of the weights,
    plus the bias row at j (the narrowing of the operands' format is the identity on extended reals). -/
theorem pay0_apply (x0 : Vec Ideal S5000x256 .f32) (x1 : Vec Ideal S256x256 .f32) (x2 : Vec Ideal S1x256 .f32)
    (p : Fin 5000) (j : Fin 256) :
    k0_pay1 x0 x1 x2 (ix2 p j) = (∑ q : Fin 256, x0 (ix2 p q) * x1 (ix2 q j)) + x2 (ix2 (0 : Fin 1) j) := by
  unfold k0_pay1
  simp only [shapeCast_self]
  refine congrArg₂ (· + ·) ?_ ?_
  · exact Cert.LibPlainDot.matmul_zero_apply _ dot_plain none (truncf FTy.bf16 x0 bitsLt_bf16_f32)
      (truncf FTy.bf16 x1 bitsLt_bf16_f32) p j
  · exact broadcastTo_1b_ab_apply x2 broadcasts_S1x256_S5000x256 p j

/-- The body on a tile whose entries are read off whole arrays: entry (p, j) of the tile's result is entry (r, j) of
    the dense map of the arrays, when row p of the tile's input is row r of X and the tile's weights and bias row are
    those of W and B. -/
theorem pay0_eq_dense (x0 : Vec Ideal S5000x256 .f32) (x1 : Vec Ideal S256x256 .f32) (x2 : Vec Ideal S1x256 .f32)
    (X : Cert.Spec.Mat 50000 256) (W : Cert.Spec.Mat 256 256) (B : Cert.Spec.Mat 1 256)
    (p : Fin 5000) (j : Fin 256) (r : Fin 50000)
    (h0 : ∀ q : Fin 256, x0 (ix2 p q) = X (ix2 r q))
    (h1 : ∀ q : Fin 256, x1 (ix2 q j) = W (ix2 q j))
    (h2 : x2 (ix2 (0 : Fin 1) j) = B (ix2 (0 : Fin 1) j)) :
    k0_pay1 x0 x1 x2 (ix2 p j) = Cert.Spec.dense X W B (ix2 r j) := by
  rw [pay0_apply, Cert.Spec.dense_apply, h2]
  exact congrArg (· + B (ix2 (0 : Fin 1) j)) (Finset.sum_congr rfl fun q _ => by rw [h0 q, h1 q])

/-- The block indices of region 0, decided over its ten points: the row block of the input and of the output is the
    point's number, every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b)) (c : Dev nD)

/-- At point t the input window's block is rows 5000·t … 5000·t + 4999 of the input array. -/
theorem iblk0_0_apply (t : Fin cfg0.N) (p : Fin 5000) (q : Fin 256) (r : Fin 50000) (hr : r.val = 5000 * t.val + p.val) :
    iblk0 V c 0 t (ix2 p q) = V c (Pipeline.arrRef spec0 0) (ix2 r q) := by
  obtain ⟨e00, e01, -⟩ := idx_facts0 t
  show V c (Pipeline.arrRef spec0 0) (((cfg0.win 0).blk t).view.emb (ix2 p q)) = _
  refine congrArg (V c (Pipeline.arrRef spec0 0)) (funext fun a => Fin.ext ?_)
  match a with
  | ⟨0, _⟩ => show win0_0.index t (0 : Fin 2) * 5000 + 1 * p.val = r.val; omega
  | ⟨1, _⟩ => show win0_0.index t (1 : Fin 2) * 256 + 1 * q.val = q.val; omega

/-- At every point the weights' window holds the whole weight array. -/
theorem iblk0_1_apply (t : Fin cfg0.N) (q : Fin 256) (j : Fin 256) :
    iblk0 V c 1 t (ix2 q j) = V c (Pipeline.arrRef spec0 1) (ix2 q j) := by
  obtain ⟨-, -, e10, e11, -⟩ := idx_facts0 t
  show V c (Pipeline.arrRef spec0 1) (((cfg0.win 1).blk t).view.emb (ix2 q j)) = _
  refine congrArg (V c (Pipeline.arrRef spec0 1)) (funext fun a => Fin.ext ?_)
  match a with
  | ⟨0, _⟩ => show win0_1.index t (0 : Fin 2) * 256 + 1 * q.val = q.val; omega
  | ⟨1, _⟩ => show win0_1.index t (1 : Fin 2) * 256 + 1 * j.val = j.val; omega

/-- At every point the bias window holds the whole bias row. -/
theorem iblk0_2_apply (t : Fin cfg0.N) (z : Fin 1) (j : Fin 256) :
    iblk0 V c 2 t (ix2 z j) = V c (Pipeline.arrRef spec0 2) (ix2 z j) := by
  obtain ⟨-, -, -, -, e20, e21, -⟩ := idx_facts0 t
  show V c (Pipeline.arrRef spec0 2) (((cfg0.win 2).blk t).view.emb (ix2 z j)) = _
  refine congrArg (V c (Pipeline.arrRef spec0 2)) (funext fun a => Fin.ext ?_)
  match a with
  | ⟨0, _⟩ => show win0_2.index t (0 : Fin 2) * 1 + 1 * z.val = z.val; omega
  | ⟨1, _⟩ => show win0_2.index t (1 : Fin 2) * 256 + 1 * j.val = j.val; omega

/-- The output window's block at point t sits at rows 5000·t … 5000·t + 4999 of the output array. -/
theorem emb0_3 (t : Fin cfg0.N) (p : Fin 5000) (j : Fin 256) (r : Fin 50000) (hr : r.val = 5000 * t.val + p.val) :
    ((cfg0.win 3).blk t).view.emb (ix2 p j) = ix2 r j := by
  obtain ⟨-, -, -, -, -, -, e30, e31⟩ := idx_facts0 t
  funext a; apply Fin.ext
  match a with
  | ⟨0, _⟩ => show win0_3.index t (0 : Fin 2) * 5000 + 1 * p.val = r.val; omega
  | ⟨1, _⟩ => show win0_3.index t (1 : Fin 2) * 256 + 1 * j.val = j.val; omega

/-- What point t writes back is block t of the dense map of the arrays the region found. -/
theorem flushed0_eq (t : Fin cfg0.N) :
    (dat0 (F := Ideal) V c).flushed 3 t = ((cfg0.win 3).blk t).view.read (Elt Ideal)
      (Cert.Spec.dense (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_off]
  simp only [View.ld_unit_zero (S := S5000x256) zero_off, View.ld_unit_zero (S := S256x256) zero_off,
    View.ld_unit_zero (S := S1x256) zero_off]
  have hN : t.val < 10 := lt_of_lt_of_eq t.isLt N_0
  funext y
  obtain ⟨p, j, rfl⟩ : ∃ (p : Fin 5000) (j : Fin 256), y = ix2 p j := ⟨y 0, y 1, eq_ix2 y⟩
  have hr : 5000 * t.val + p.val < 50000 := by have := p.isLt; omega
  show k0_pay1 (iblk0 V c 0 t) (iblk0 V c 1 t) (iblk0 V c 2 t) (ix2 p j)
    = Cert.Spec.dense (V c (Pipeline.arrRef spec0 0)) (V c (Pipeline.arrRef spec0 1)) (V c (Pipeline.arrRef spec0 2))
        (((cfg0.win 3).blk t).view.emb (ix2 p j))
  rw [emb0_3 t p j ⟨_, hr⟩ rfl]
  exact pay0_eq_dense _ _ _ _ _ _ p j ⟨_, hr⟩ (fun q => iblk0_0_apply V c t p q ⟨_, hr⟩ rfl)
    (fun q => iblk0_1_apply V c t q j) (iblk0_2_apply V c t 0 j)

/-- An index of the output array is in point t's block iff each coordinate is in the block's range on its axis. -/
theorem mem_blk0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v52).slice (win0_3.rect t)).set ↔ _
  rw [View.set_slice_whole, Rect.mem_set_unit]
  exact Iff.rfl

/-- Row r of the output array is written back by point r / 5000. -/
theorem cover0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have ht : (i 0).val / 5000 < cfg0.N := lt_of_lt_of_eq (by omega) N_0.symm
  refine ⟨⟨(i 0).val / 5000, ht⟩, flush0_3 _, ?_⟩
  obtain ⟨-, -, -, -, -, -, e30, e31⟩ := idx_facts0 ⟨(i 0).val / 5000, ht⟩
  rw [mem_blk0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 256 ≤ (i 1).val
      ∧ (i 1).val < win0_3.index ⟨(i 0).val / 5000, ht⟩ (1 : Fin 2) * 256 + 256
    rw [e31]
    omega

end Region0

/-! ## Region 2 -/

section Region2

/-- The body of region 2 at entry (p, j) of a tile: the sum over q of the tile's row p against column j of the weights,
    plus the bias row at j (the narrowing of the operands' format is the identity on extended reals). -/
theorem pay2_apply (x0 : Vec Ideal S5000x256 .f32) (x1 : Vec Ideal S256x256 .f32) (x2 : Vec Ideal S1x256 .f32)
    (p : Fin 5000) (j : Fin 256) :
    k2_pay1 x0 x1 x2 (ix2 p j) = (∑ q : Fin 256, x0 (ix2 p q) * x1 (ix2 q j)) + x2 (ix2 (0 : Fin 1) j) := by
  unfold k2_pay1
  simp only [shapeCast_self]
  refine congrArg₂ (· + ·) ?_ ?_
  · exact Cert.LibPlainDot.matmul_zero_apply _ dot_plain none (truncf FTy.bf16 x0 bitsLt_bf16_f32)
      (truncf FTy.bf16 x1 bitsLt_bf16_f32) p j
  · exact broadcastTo_1b_ab_apply x2 broadcasts_S1x256_S5000x256 p j

/-- The body on a tile whose entries are read off whole arrays: entry (p, j) of the tile's result is entry (r, j) of
    the dense map of the arrays, when row p of the tile's input is row r of X and the tile's weights and bias row are
    those of W and B. -/
theorem pay2_eq_dense (x0 : Vec Ideal S5000x256 .f32) (x1 : Vec Ideal S256x256 .f32) (x2 : Vec Ideal S1x256 .f32)
    (X : Cert.Spec.Mat 50000 256) (W : Cert.Spec.Mat 256 256) (B : Cert.Spec.Mat 1 256)
    (p : Fin 5000) (j : Fin 256) (r : Fin 50000)
    (h0 : ∀ q : Fin 256, x0 (ix2 p q) = X (ix2 r q))
    (h1 : ∀ q : Fin 256, x1 (ix2 q j) = W (ix2 q j))
    (h2 : x2 (ix2 (0 : Fin 1) j) = B (ix2 (0 : Fin 1) j)) :
    k2_pay1 x0 x1 x2 (ix2 p j) = Cert.Spec.dense X W B (ix2 r j) := by
  rw [pay2_apply, Cert.Spec.dense_apply, h2]
  exact congrArg (· + B (ix2 (0 : Fin 1) j)) (Finset.sum_congr rfl fun q _ => by rw [h0 q, h1 q])

/-- The block indices of region 2, decided over its ten points: the row block of the input and of the output is the
    point's number, every other block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b)) (c : Dev nD)

/-- At point t the input window's block is rows 5000·t … 5000·t + 4999 of the input array. -/
theorem iblk2_0_apply (t : Fin cfg2.N) (p : Fin 5000) (q : Fin 256) (r : Fin 50000) (hr : r.val = 5000 * t.val + p.val) :
    iblk2 V c 0 t (ix2 p q) = V c (Pipeline.arrRef spec2 0) (ix2 r q) := by
  obtain ⟨e00, e01, -⟩ := idx_facts2 t
  show V c (Pipeline.arrRef spec2 0) (((cfg2.win 0).blk t).view.emb (ix2 p q)) = _
  refine congrArg (V c (Pipeline.arrRef spec2 0)) (funext fun a => Fin.ext ?_)
  match a with
  | ⟨0, _⟩ => show win2_0.index t (0 : Fin 2) * 5000 + 1 * p.val = r.val; omega
  | ⟨1, _⟩ => show win2_0.index t (1 : Fin 2) * 256 + 1 * q.val = q.val; omega

/-- At every point the weights' window holds the whole weight array. -/
theorem iblk2_1_apply (t : Fin cfg2.N) (q : Fin 256) (j : Fin 256) :
    iblk2 V c 1 t (ix2 q j) = V c (Pipeline.arrRef spec2 1) (ix2 q j) := by
  obtain ⟨-, -, e10, e11, -⟩ := idx_facts2 t
  show V c (Pipeline.arrRef spec2 1) (((cfg2.win 1).blk t).view.emb (ix2 q j)) = _
  refine congrArg (V c (Pipeline.arrRef spec2 1)) (funext fun a => Fin.ext ?_)
  match a with
  | ⟨0, _⟩ => show win2_1.index t (0 : Fin 2) * 256 + 1 * q.val = q.val; omega
  | ⟨1, _⟩ => show win2_1.index t (1 : Fin 2) * 256 + 1 * j.val = j.val; omega

/-- At every point the bias window holds the whole bias row. -/
theorem iblk2_2_apply (t : Fin cfg2.N) (z : Fin 1) (j : Fin 256) :
    iblk2 V c 2 t (ix2 z j) = V c (Pipeline.arrRef spec2 2) (ix2 z j) := by
  obtain ⟨-, -, -, -, e20, e21, -⟩ := idx_facts2 t
  show V c (Pipeline.arrRef spec2 2) (((cfg2.win 2).blk t).view.emb (ix2 z j)) = _
  refine congrArg (V c (Pipeline.arrRef spec2 2)) (funext fun a => Fin.ext ?_)
  match a with
  | ⟨0, _⟩ => show win2_2.index t (0 : Fin 2) * 1 + 1 * z.val = z.val; omega
  | ⟨1, _⟩ => show win2_2.index t (1 : Fin 2) * 256 + 1 * j.val = j.val; omega

/-- The output window's block at point t sits at rows 5000·t … 5000·t + 4999 of the output array. -/
theorem emb2_3 (t : Fin cfg2.N) (p : Fin 5000) (j : Fin 256) (r : Fin 50000) (hr : r.val = 5000 * t.val + p.val) :
    ((cfg2.win 3).blk t).view.emb (ix2 p j) = ix2 r j := by
  obtain ⟨-, -, -, -, -, -, e30, e31⟩ := idx_facts2 t
  funext a; apply Fin.ext
  match a with
  | ⟨0, _⟩ => show win2_3.index t (0 : Fin 2) * 5000 + 1 * p.val = r.val; omega
  | ⟨1, _⟩ => show win2_3.index t (1 : Fin 2) * 256 + 1 * j.val = j.val; omega

/-- What point t writes back is block t of the dense map of the arrays the region found. -/
theorem flushed2_eq (t : Fin cfg2.N) :
    (dat2 (F := Ideal) V c).flushed 3 t = ((cfg2.win 3).blk t).view.read (Elt Ideal)
      (Cert.Spec.dense (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_off]
  simp only [View.ld_unit_zero (S := S5000x256) zero_off, View.ld_unit_zero (S := S256x256) zero_off,
    View.ld_unit_zero (S := S1x256) zero_off]
  have hN : t.val < 10 := lt_of_lt_of_eq t.isLt N_2
  funext y
  obtain ⟨p, j, rfl⟩ : ∃ (p : Fin 5000) (j : Fin 256), y = ix2 p j := ⟨y 0, y 1, eq_ix2 y⟩
  have hr : 5000 * t.val + p.val < 50000 := by have := p.isLt; omega
  show k2_pay1 (iblk2 V c 0 t) (iblk2 V c 1 t) (iblk2 V c 2 t) (ix2 p j)
    = Cert.Spec.dense (V c (Pipeline.arrRef spec2 0)) (V c (Pipeline.arrRef spec2 1)) (V c (Pipeline.arrRef spec2 2))
        (((cfg2.win 3).blk t).view.emb (ix2 p j))
  rw [emb2_3 t p j ⟨_, hr⟩ rfl]
  exact pay2_eq_dense _ _ _ _ _ _ p j ⟨_, hr⟩ (fun q => iblk2_0_apply V c t p q ⟨_, hr⟩ rfl)
    (fun q => iblk2_1_apply V c t q j) (iblk2_2_apply V c t 0 j)

/-- An index of the output array is in point t's block iff each coordinate is in the block's range on its axis. -/
theorem mem_blk2 (t : Fin cfg2.N) (i : S50000x256.Idx) :
    i ∈ ((cfg2.win 3).blk t).view.set ↔ ∀ a : Fin 2, win2_3.index t a * S5000x256.size a ≤ (i a).val
      ∧ (i a).val < win2_3.index t a * S5000x256.size a + S5000x256.size a := by
  show i ∈ ((View.whole main_v103).slice (win2_3.rect t)).set ↔ _
  rw [View.set_slice_whole, Rect.mem_set_unit]
  exact Iff.rfl

/-- Row r of the output array is written back by point r / 5000. -/
theorem cover2 (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  have ht : (i 0).val / 5000 < cfg2.N := lt_of_lt_of_eq (by omega) N_2.symm
  refine ⟨⟨(i 0).val / 5000, ht⟩, flush2_3 _, ?_⟩
  obtain ⟨-, -, -, -, -, -, e30, e31⟩ := idx_facts2 ⟨(i 0).val / 5000, ht⟩
  rw [mem_blk2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 256 ≤ (i 1).val
      ∧ (i 1).val < win2_3.index ⟨(i 0).val / 5000, ht⟩ (1 : Fin 2) * 256 + 256
    rw [e31]
    omega

end Region2

end Cert.KernelIdeal.RegionValue.Dense

namespace Cert.KernelIdeal.RegionValue

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)

/-- REGION 0: the output array ends at the dense map of the three arrays the region found. -/
theorem region0_value : (Gen.dat0 (F := Ideal) V c).arrAt 3 cfg0.N
    = Cert.Spec.dense (V c (Pipeline.arrRef spec0 0)) (V c (Pipeline.arrRef spec0 1)) (V c (Pipeline.arrRef spec0 2)) :=
  (dat0 (F := Ideal) V c).arrAt_eq_of_cover 3 _ (fun t _ => Dense.flushed0_eq V c t) Dense.cover0

/-- REGION 2: the output array ends at the dense map of the three arrays the region found. -/
theorem region2_value : (Gen.dat2 (F := Ideal) V c).arrAt 3 cfg2.N
    = Cert.Spec.dense (V c (Pipeline.arrRef spec2 0)) (V c (Pipeline.arrRef spec2 1)) (V c (Pipeline.arrRef spec2 2)) :=
  (dat2 (F := Ideal) V c).arrAt_eq_of_cover 3 _ (fun t _ => Dense.flushed2_eq V c t) Dense.cover2

end Cert.KernelIdeal.RegionValue

end
-- ==== Proof.RegionNorm.lean ====
/-
  The two normalising regions of the idealized kernel, each as one function of the arrays it finds.

  Regions 1 and 3 run the second stage of a layer over ten tiles of 5000 rows.  A tile Z_t of the [50000, 256] input is
  brought in together with four rows of 256 numbers — per column q a centre μ q, a variance v q, a scale g q and a
  shift β q —, the whole [256, 128] weight array W and one bias row B.  Each entry (p, q) of the tile becomes
  max ((Z_t (p, q) − μ q) · rsqrt (v q + ε) · g q + β q) 0,  ε a fixed small positive number; the tile of the output is
  the matrix-unit product of these with W into the zero accumulator plus B repeated over the rows, and region 1 keeps
  the positive part of that once more.  Over the extended reals the product is the plain sum over q (narrowing the
  operands' format first changes nothing) and the zero the maximum is taken against is the number 0, so entry (p, j) of
  tile t is entry (5000·t + p, j) of  Cert.Spec.layerOut ε Z μ v g β W B  of the whole arrays — it depends on row
  5000·t + p of Z alone, the four rows and the weights being the same at every point.  The ten output tiles are
  disjoint row ranges that fill the output array — row r belongs to tile r / 5000 — so after region 3 the output array
  IS that function of the seven arrays as the region found them, and after region 1 its positive part
  (region3_value, region1_value).  No law of arithmetic is used beyond reading each operation where it is written.

  Per region: the body at an entry (payK_apply) and against whole arrays (payK_eq_layer); the block indices decided over
  the ten points (idx_factsK); each input block as entries of its array (iblkK_w_apply) and the output block's place
  (embK_7); what a point writes back (flushedK_eq); membership in a block and the cover (mem_blkK, coverK).
-/
import proofs.«107108_j75977971466801_2_alg».proof.Proof.Gen.KernelIdeal.Frame
import proofs.«107108_j75977971466801_2_alg».proof.Proof.LibLayerSpec
import proofs.«107108_j75977971466801_2_alg».proof.Proof.LibPlainDot
import Idealize.ShloMosaic.Lib.Pipeline.Value
import Idealize.ShloMosaic.Lib.ValueLayout
import Idealize.ShloMosaic.Lib.ValueIdx

set_option maxRecDepth 16384

noncomputable section

open scoped BigOperators

namespace Cert.KernelIdeal.RegionValue.Norm

open Idealize.ShloMosaic Idealize.ShloMosaic.TcCoe Idealize.SL.Sem
open Idealize.ShloMosaic.Pipeline (Dat)
open Idealize.ShloMosaic.ValueIdx
open Cert.KernelIdeal Cert.KernelIdeal.Gen

/-- The zero offset of a load or store of a whole buffer. -/
theorem zero_off : (![0, 0] : Fin 2 → Nat) = fun _ => 0 := funext fun a => by fin_cases a <;> rfl

/-- The product's dimension numbers are the plain ones: rows × inner times inner × columns. -/
theorem dot_plain : dot_S5000x256_S256x128_S5000x128_1_0_0_1_n_n = DotDims.plain 5000 256 128 := rfl

/-- The small positive number added to a variance under the square root. -/
abbrev eps : EReal := Ideal.ofBits .f32 0x3727C5AC#32

/-- The zero a positive part is taken against is the number 0. -/
theorem zero_lit : (Scalar.ofBits (F := Ideal) .f32 0x00000000#32 : EReal) = 0 := Ideal.ofBits_zero_f32

/-! ## Region 1 -/

section Region1

/-- The body of region 1 at entry (p, j) of a tile: each entry (p, q) of the tile is centred, scaled by the reciprocal
    square root, scaled and shifted column by column and cut at zero; the sum over q of these against column j of the
    weights, plus the bias row at j, cut at zero again. -/
theorem pay1_apply (x0 : Vec Ideal S5000x256 .f32) (x1 x2 x3 x4 : Vec Ideal S1x256 .f32) (x5 : Vec Ideal S256x128 .f32)
    (x6 : Vec Ideal S1x128 .f32) (p : Fin 5000) (j : Fin 128) :
    k1_pay1 x0 x1 x2 x3 x4 x5 x6 (ix2 p j)
      = max ((∑ q : Fin 256, max ((x0 (ix2 p q) - x1 (ix2 (0 : Fin 1) q)) * Ideal.rsqrt (x2 (ix2 (0 : Fin 1) q) + eps)
            * x3 (ix2 (0 : Fin 1) q) + x4 (ix2 (0 : Fin 1) q)) 0 * x5 (ix2 q j)) + x6 (ix2 (0 : Fin 1) j)) 0 := by
  unfold k1_pay1
  simp only [shapeCast_self]
  refine congrArg₂ max (congrArg₂ (· + ·) ?_ ?_) zero_lit
  · refine (Cert.LibPlainDot.matmul_zero_apply _ dot_plain none _ _ p j).trans ?_
    refine Finset.sum_congr rfl fun q _ => ?_
    refine congrArg₂ (· * ·) ?_ rfl
    refine congrArg₂ max (congrArg₂ (· + ·) (congrArg₂ (· * ·) (congrArg₂ (· * ·) (congrArg₂ (· - ·) rfl ?_) ?_) ?_) ?_) zero_lit
    · exact broadcastTo_1b_ab_apply x1 broadcasts_S1x256_S5000x256 p q
    · exact broadcastTo_1b_ab_apply _ broadcasts_S1x256_S5000x256 p q
    · exact broadcastTo_1b_ab_apply x3 broadcasts_S1x256_S5000x256 p q
    · exact broadcastTo_1b_ab_apply x4 broadcasts_S1x256_S5000x256 p q
  · exact broadcastTo_1b_ab_apply x6 broadcasts_S1x128_S5000x128 p j

/-- The body on a tile whose entries are read off whole arrays: entry (p, j) of the tile's result is entry (r, j) of
    the layer's second stage on the arrays, when row p of the tile's input is row r of Z and the tile's rows of
    statistics, weights and bias are those of the arrays. -/
theorem pay1_eq_layer (x0 : Vec Ideal S5000x256 .f32) (x1 x2 x3 x4 : Vec Ideal S1x256 .f32) (x5 : Vec Ideal S256x128 .f32)
    (x6 : Vec Ideal S1x128 .f32)
    (Z : Cert.Spec.Mat 50000 256) (MU VAR G BT : Cert.Spec.Mat 1 256) (W : Cert.Spec.Mat 256 128) (B : Cert.Spec.Mat 1 128)
    (p : Fin 5000) (j : Fin 128) (r : Fin 50000)
    (h0 : ∀ q : Fin 256, x0 (ix2 p q) = Z (ix2 r q))
    (h1 : ∀ q : Fin 256, x1 (ix2 (0 : Fin 1) q) = MU (ix2 (0 : Fin 1) q))
    (h2 : ∀ q : Fin 256, x2 (ix2 (0 : Fin 1) q) = VAR (ix2 (0 : Fin 1) q))
    (h3 : ∀ q : Fin 256, x3 (ix2 (0 : Fin 1) q) = G (ix2 (0 : Fin 1) q))
    (h4 : ∀ q : Fin 256, x4 (ix2 (0 : Fin 1) q) = BT (ix2 (0 : Fin 1) q))
    (h5 : ∀ q : Fin 256, x5 (ix2 q j) = W (ix2 q j))
    (h6 : x6 (ix2 (0 : Fin 1) j) = B (ix2 (0 : Fin 1) j)) :
    k1_pay1 x0 x1 x2 x3 x4 x5 x6 (ix2 p j)
      = Cert.Spec.relu (Cert.Spec.layerOut eps Z MU VAR G BT W B) (ix2 r j) := by
  rw [pay1_apply, Cert.Spec.relu_apply]
  unfold Cert.Spec.layerOut
  rw [Cert.Spec.dense_apply, h6]
  refine congrArg (fun s => max (s + B (ix2 (0 : Fin 1) j)) 0) (Finset.sum_congr rfl fun q _ => ?_)
  rw [Cert.Spec.normRelu_apply, h0 q, h1 q, h2 q, h3 q, h4 q, h5 q]

/-- The block indices of region 1, decided over its ten points: the row block of the input and of the output is the
    point's number, every other block index is zero. -/
theorem idx_facts1 : ∀ t : Fin cfg1.N, (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

variable (V : (c : Dev nD) → (b : Ref sig .tc) → Buf (Elt Ideal) ((c : Thread nD τ).loc b)) (c : Dev nD)

/-- At point t the input window's block is rows 5000·t … 5000·t + 4999 of the input array. -/
theorem iblk1_0_apply (t : Fin cfg1.N) (p : Fin 5000) (q : Fin 256) (r : Fin 50000) (hr : r.val = 5000 * t.val + p.val) :
    iblk1 V c 0 t (ix2 p q) = V c (Pipeline.arrRef spec1 0) (ix2 r q) := by
  have e := (idx_facts1 t).1
  show V c (Pipeline.arrRef spec1 0) (((cfg1.win 0).blk t).view.emb (ix2 p q)) = _
  refine congrArg (V c (Pipeline.arrRef spec1 0)) (funext fun a => Fin.ext ?_)
  match a with
  | ⟨0, _⟩ => show win1_0.index t (0 : Fin 2) * 5000 + 1 * p.val = r.val; have := e.1; omega
  | ⟨1, _⟩ => show win1_0.index t (1 : Fin 2) * 256 + 1 * q.val = q.val; have := e.2; omega

/-- At every point window 1 holds the whole row of column centres. -/
theorem iblk1_1_apply (t : Fin cfg1.N) (z : Fin 1) (q : Fin 256) :
    iblk1 V c 1 t (ix2 z q) = V c (Pipeline.arrRef spec1 1) (ix2 z q) := by
  have e := (idx_facts1 t).2.1
  show V c (Pipeline.arrRef spec1 1) (((cfg1.win 1).blk t).view.emb (ix2 z q)) = _
  refine congrArg (V c (Pipeline.arrRef spec1 1)) (funext fun a => Fin.ext ?_)
  match a with
  | ⟨0, _⟩ => show win1_1.index t (0 : Fin 2) * 1 + 1 * z.val = z.val; have := e.1; omega
  | ⟨1, _⟩ => show win1_1.index t (1 : Fin 2) * 256 + 1 * q.val = q.val; have := e.2; omega

/-- At every point window 2 holds the whole row of column variances. -/
theorem iblk1_2_apply (t : Fin cfg1.N) (z : Fin 1) (q : Fin 256) :
    iblk1 V c 2 t (ix2 z q) = V c (Pipeline.arrRef spec1 2) (ix2 z q) := by
  have e := (idx_facts1 t).2.2.1
  show V c (Pipeline.arrRef spec1 2) (((cfg1.win 2).blk t).view.emb (ix2 z q)) = _
  refine congrArg (V c (Pipeline.arrRef spec1 2)) (funext fun a => Fin.ext ?_)
  match a with
  | ⟨0, _⟩ => show win1_2.index t (0 : Fin 2) * 1 + 1 * z.val = z.val; have := e.1; omega
  | ⟨1, _⟩ => show win1_2.index t (1 : Fin 2) * 256 + 1 * q.val = q.val; have := e.2; omega

/-- At every point window 3 holds the whole row of column scales. -/
theorem iblk1_3_apply (t : Fin cfg1.N) (z : Fin 1) (q : Fin 256) :
    iblk1 V c 3 t (ix2 z q) = V c (Pipeline.arrRef spec1 3) (ix2 z q) := by
  have e := (idx_facts1 t).2.2.2.1
  show V c (Pipeline.arrRef spec1 3) (((cfg1.win 3).blk t).view.emb (ix2 z q)) = _
  refine congrArg (V c (Pipeline.arrRef spec1 3)) (funext fun a => Fin.ext ?_)
  match a with
  | ⟨0, _⟩ => show win1_3.index t (0 : Fin 2) * 1 + 1 * z.val = z.val; have := e.1; omega
  | ⟨1, _⟩ => show win1_3.index t (1 : Fin 2) * 256 + 1 * q.val = q.val; have := e.2; omega

/-- At every point window 4 holds the whole row of column shifts. -/
theorem iblk1_4_apply (t : Fin cfg1.N) (z : Fin 1) (q : Fin 256) :
    iblk1 V c 4 t (ix2 z q) = V c (Pipeline.arrRef spec1 4) (ix2 z q) := by
  have e := (idx_facts1 t).2.2.2.2.1
  show V c (Pipeline.arrRef spec1 4) (((cfg1.win 4).blk t).view.emb (ix2 z q)) = _
  refine congrArg (V c (Pipeline.arrRef spec1 4)) (funext fun a => Fin.ext ?_)
  match a with
  | ⟨0, _⟩ => show win1_4.index t (0 : Fin 2) * 1 + 1 * z.val = z.val; have := e.1; omega
  | ⟨1, _⟩ => show win1_4.index t (1 : Fin 2) * 256 + 1 * q.val = q.val; have := e.2; omega

/-- At every point the weights' window holds the whole weight array. -/
theorem iblk1_5_apply (t : Fin cfg1.N) (q : Fin 256) (j : Fin 128) :
    iblk1 V c 5 t (ix2 q j) = V c (Pipeline.arrRef spec1 5) (ix2 q j) := by
  have e := (idx_facts1 t).2.2.2.2.2.1
  show V c (Pipeline.arrRef spec1 5) (((cfg1.win 5).blk t).view.emb (ix2 q j)) = _
  refine congrArg (V c (Pipeline.arrRef spec1 5)) (funext fun a => Fin.ext ?_)
  match a with
  | ⟨0, _⟩ => show win1_5.index t (0 : Fin 2) * 256 + 1 * q.val = q.val; have := e.1; omega
  | ⟨1, _⟩ => show win1_5.index t (1 : Fin 2) * 128 + 1 * j.val = j.val; have := e.2; omega

/-- At every point the bias window holds the whole bias row. -/
theorem iblk1_6_apply (t : Fin cfg1.N) (z : Fin 1) (j : Fin 128) :
    iblk1 V c 6 t (ix2 z j) = V c (Pipeline.arrRef spec1 6) (ix2 z j) := by
  have e := (idx_facts1 t).2.2.2.2.2.2.1
  show V c (Pipeline.arrRef spec1 6) (((cfg1.win 6).blk t).view.emb (ix2 z j)) = _
  refine congrArg (V c (Pipeline.arrRef spec1 6)) (funext fun a => Fin.ext ?_)
  match a with
  | ⟨0, _⟩ => show win1_6.index t (0 : Fin 2) * 1 + 1 * z.val = z.val; have := e.1; omega
  | ⟨1, _⟩ => show win1_6.index t (1 : Fin 2) * 128 + 1 * j.val = j.val; have := e.2; omega

/-- The output window's block at point t sits at rows 5000·t … 5000·t + 4999 of the output array. -/
theorem emb1_7 (t : Fin cfg1.N) (p : Fin 5000) (j : Fin 128) (r : Fin 50000) (hr : r.val = 5000 * t.val + p.val) :
    ((cfg1.win 7).blk t).view.emb (ix2 p j) = ix2 r j := by
  have e := (idx_facts1 t).2.2.2.2.2.2.2
  funext a; apply Fin.ext
  match a with
  | ⟨0, _⟩ => show win1_7.index t (0 : Fin 2) * 5000 + 1 * p.val = r.val; have := e.1; omega
  | ⟨1, _⟩ => show win1_7.index t (1 : Fin 2) * 128 + 1 * j.val = j.val; have := e.2; omega

/-- What point t writes back is the body's result on the seven input blocks at t. -/
theorem flushed1_pay (t : Fin cfg1.N) :
    (dat1 (F := Ideal) V c).flushed 7 t = k1_pay1 (iblk1 V c 0 t) (iblk1 V c 1 t) (iblk1 V c 2 t) (iblk1 V c 3 t)
      (iblk1 V c 4 t) (iblk1 V c 5 t) (iblk1 V c 6 t) := by
  show (cfg1.win 7).cut (grid1.coords t) ((dat1 V c).after 7 t) = _
  rw [after1_7]
  unfold out1_7
  rw [View.canon_unit_zero zero_off]
  simp only [View.ld_unit_zero (S := S5000x256) zero_off, View.ld_unit_zero (S := S1x256) zero_off,
    View.ld_unit_zero (S := S256x128) zero_off, View.ld_unit_zero (S := S1x128) zero_off]
  rfl

/-- The body's result on the blocks at t, at entry (p, j), is entry (5000·t + p, j) of the layer's second stage on the
    arrays the region found. -/
theorem pay1_at (t : Fin cfg1.N) (p : Fin 5000) (j : Fin 128) (r : Fin 50000) (hr : r.val = 5000 * t.val + p.val) :
    k1_pay1 (iblk1 V c 0 t) (iblk1 V c 1 t) (iblk1 V c 2 t) (iblk1 V c 3 t) (iblk1 V c 4 t) (iblk1 V c 5 t)
      (iblk1 V c 6 t) (ix2 p j) = (Cert.Spec.relu (Cert.Spec.layerOut eps (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5)) (V c (Pipeline.arrRef spec1 6)))) (ix2 r j) :=
  pay1_eq_layer (iblk1 V c 0 t) (iblk1 V c 1 t) (iblk1 V c 2 t) (iblk1 V c 3 t) (iblk1 V c 4 t) (iblk1 V c 5 t)
    (iblk1 V c 6 t) (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) p j r (fun q => iblk1_0_apply V c t p q r hr)
    (fun q => iblk1_1_apply V c t 0 q) (fun q => iblk1_2_apply V c t 0 q) (fun q => iblk1_3_apply V c t 0 q)
    (fun q => iblk1_4_apply V c t 0 q) (fun q => iblk1_5_apply V c t q j) (iblk1_6_apply V c t 0 j)

/-- What point t writes back is block t of the layer's second stage on the arrays the region found. -/
theorem flushed1_eq (t : Fin cfg1.N) :
    (dat1 (F := Ideal) V c).flushed 7 t = ((cfg1.win 7).blk t).view.read (Elt Ideal)
      (Cert.Spec.relu (Cert.Spec.layerOut eps (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5)) (V c (Pipeline.arrRef spec1 6)))) := by
  rw [flushed1_pay]
  have hN : t.val < 10 := lt_of_lt_of_eq t.isLt N_1
  funext y
  obtain ⟨p, j, rfl⟩ : ∃ (p : Fin 5000) (j : Fin 128), y = ix2 p j := ⟨y 0, y 1, eq_ix2 y⟩
  have hr : 5000 * t.val + p.val < 50000 := by have := p.isLt; omega
  show _ = (Cert.Spec.relu (Cert.Spec.layerOut eps (V c (Pipeline.arrRef spec1 0)) (V c (Pipeline.arrRef spec1 1))
        (V c (Pipeline.arrRef spec1 2)) (V c (Pipeline.arrRef spec1 3)) (V c (Pipeline.arrRef spec1 4))
        (V c (Pipeline.arrRef spec1 5)) (V c (Pipeline.arrRef spec1 6)))) (((cfg1.win 7).blk t).view.emb (ix2 p j))
  rw [emb1_7 t p j ⟨_, hr⟩ rfl]
  exact pay1_at V c t p j ⟨_, hr⟩ rfl

/-- An index of the output array is in point t's block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v76).slice (win1_7.rect t)).set ↔ _
  rw [View.set_slice_whole, Rect.mem_set_unit]
  exact Iff.rfl

/-- Row r of the output array is written back by point r / 5000. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have ht : (i 0).val / 5000 < cfg1.N := lt_of_lt_of_eq (by omega) N_1.symm
  refine ⟨⟨(i 0).val / 5000, ht⟩, flush1_7 _, ?_⟩
  have e := (idx_facts1 ⟨(i 0).val / 5000, ht⟩).2.2.2.2.2.2.2
  rw [mem_blk1]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [e.1]
    show (i 0).val / 5000 * 5000 ≤ (i 0).val ∧ (i 0).val < (i 0).val / 5000 * 5000 + 5000
    omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    rw [e.2]
    omega

end Region1

/-! ## Region 3 -/

section Region3

/-- The body of region 3 at entry (p, j) of a tile: each entry (p, q) of the tile is centred, scaled by the reciprocal
    square root, scaled and shifted column by column and cut at zero; the sum over q of these against column j of the
    weights, plus the bias row at j. -/
theorem pay3_apply (x0 : Vec Ideal S5000x256 .f32) (x1 x2 x3 x4 : Vec Ideal S1x256 .f32) (x5 : Vec Ideal S256x128 .f32)
    (x6 : Vec Ideal S1x128 .f32) (p : Fin 5000) (j : Fin 128) :
    k3_pay1 x0 x1 x2 x3 x4 x5 x6 (ix2 p j)
      = (∑ q : Fin 256, max ((x0 (ix2 p q) - x1 (ix2 (0 : Fin 1) q)) * Ideal.rsqrt (x2 (ix2 (0 : Fin 1) q) + eps)
            * x3 (ix2 (0 : Fin 1) q) + x4 (ix2 (0 : Fin 1) q)) 0 * x5 (ix2 q j)) + x6 (ix2 (0 : Fin 1) j) := by
  unfold k3_pay1
  simp only [shapeCast_self]
  refine congrArg₂ (· + ·) ?_ ?_
  · refine (Cert.LibPlainDot.matmul_zero_apply _ dot_plain none _ _ p j).trans ?_
    refine Finset.sum_congr rfl fun q _ => ?_
    refine congrArg₂ (· * ·) ?_ rfl
    refine congrArg₂ max (congrArg₂ (· + ·) (congrArg₂ (· * ·) (congrArg₂ (· * ·) (congrArg₂ (· - ·) rfl ?_) ?_) ?_) ?_) zero_lit
    · exact broadcastTo_1b_ab_apply x1 broadcasts_S1x256_S5000x256 p q
    · exact broadcastTo_1b_ab_apply _ broadcasts_S1x256_S5000x256 p q
    · exact broadcastTo_1b_ab_apply x3 broadcasts_S1x256_S5000x256 p q
    · exact broadcastTo_1b_ab_apply x4 broadcasts_S1x256_S5000x256 p q
  · exact broadcastTo_1b_ab_apply x6 broadcasts_S1x128_S5000x128 p j

/-- The body on a tile whose entries are read off whole arrays: entry (p, j) of the tile's result is entry (r, j) of
    the layer's second stage on the arrays, when row p of the tile's input is row r of Z and the tile's rows of
    statistics, weights and bias are those of the arrays. -/
theorem pay3_eq_layer (x0 : Vec Ideal S5000x256 .f32) (x1 x2 x3 x4 : Vec Ideal S1x256 .f32) (x5 : Vec Ideal S256x128 .f32)
    (x6 : Vec Ideal S1x128 .f32)
    (Z : Cert.Spec.Mat 50000 256) (MU VAR G BT : Cert.Spec.Mat 1 256) (W : Cert.Spec.Mat 256 128) (B : Cert.Spec.Mat 1 128)
    (p : Fin 5000) (j : Fin 128) (r : Fin 50000)
    (h0 : ∀ q : Fin 256, x0 (ix2 p q) = Z (ix2 r q))
    (h1 : ∀ q : Fin 256, x1 (ix2 (0 : Fin 1) q) = MU (ix2 (0 : Fin 1) q))
    (h2 : ∀ q : Fin 256, x2 (ix2 (0 : Fin 1) q) = VAR (ix2 (0 : Fin 1) q))
    (h3 : ∀ q : Fin 256, x3 (ix2 (0 : Fin 1) q) = G (ix2 (0 : Fin 1) q))
    (h4 : ∀ q : Fin 256, x4 (ix2 (0 : Fin 1) q) = BT (ix2 (0 : Fin 1) q))
    (h5 : ∀ q : Fin 256, x5 (ix2 q j) = W (ix2 q j))
    (h6 : x6 (ix2 (0 : Fin 1) j) = B (ix2 (0 : Fin 1) j)) :
    k3_pay1 x0 x1 x2 x3 x4 x5 x6 (ix2 p j)
      = Cert.Spec.layerOut eps Z MU VAR G BT W B (ix2 r j) := by
  rw [pay3_apply]
  unfold Cert.Spec.layerOut
  rw [Cert.Spec.dense_apply, h6]
  refine congrArg (fun s => s + B (ix2 (0 : Fin 1) j)) (Finset.sum_congr rfl fun q _ => ?_)
  rw [Cert.Spec.normRelu_apply, h0 q, h1 q, h2 q, h3 q, h4 q, h5 q]

/-- The block indices of region 3, decided over its ten points: the row block of the input and of the output is the
    point's number, every other block index is zero. -/
theorem idx_facts3 : ∀ t : Fin cfg3.N, (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0) :=
  (by decide +kernel : ∀ t : Fin grid3.N, _)

variable (V : (c : Dev nD) → (b : Ref sig .tc) → Buf (Elt Ideal) ((c : Thread nD τ).loc b)) (c : Dev nD)

/-- At point t the input window's block is rows 5000·t … 5000·t + 4999 of the input array. -/
theorem iblk3_0_apply (t : Fin cfg3.N) (p : Fin 5000) (q : Fin 256) (r : Fin 50000) (hr : r.val = 5000 * t.val + p.val) :
    iblk3 V c 0 t (ix2 p q) = V c (Pipeline.arrRef spec3 0) (ix2 r q) := by
  have e := (idx_facts3 t).1
  show V c (Pipeline.arrRef spec3 0) (((cfg3.win 0).blk t).view.emb (ix2 p q)) = _
  refine congrArg (V c (Pipeline.arrRef spec3 0)) (funext fun a => Fin.ext ?_)
  match a with
  | ⟨0, _⟩ => show win3_0.index t (0 : Fin 2) * 5000 + 1 * p.val = r.val; have := e.1; omega
  | ⟨1, _⟩ => show win3_0.index t (1 : Fin 2) * 256 + 1 * q.val = q.val; have := e.2; omega

/-- At every point window 1 holds the whole row of column centres. -/
theorem iblk3_1_apply (t : Fin cfg3.N) (z : Fin 1) (q : Fin 256) :
    iblk3 V c 1 t (ix2 z q) = V c (Pipeline.arrRef spec3 1) (ix2 z q) := by
  have e := (idx_facts3 t).2.1
  show V c (Pipeline.arrRef spec3 1) (((cfg3.win 1).blk t).view.emb (ix2 z q)) = _
  refine congrArg (V c (Pipeline.arrRef spec3 1)) (funext fun a => Fin.ext ?_)
  match a with
  | ⟨0, _⟩ => show win3_1.index t (0 : Fin 2) * 1 + 1 * z.val = z.val; have := e.1; omega
  | ⟨1, _⟩ => show win3_1.index t (1 : Fin 2) * 256 + 1 * q.val = q.val; have := e.2; omega

/-- At every point window 2 holds the whole row of column variances. -/
theorem iblk3_2_apply (t : Fin cfg3.N) (z : Fin 1) (q : Fin 256) :
    iblk3 V c 2 t (ix2 z q) = V c (Pipeline.arrRef spec3 2) (ix2 z q) := by
  have e := (idx_facts3 t).2.2.1
  show V c (Pipeline.arrRef spec3 2) (((cfg3.win 2).blk t).view.emb (ix2 z q)) = _
  refine congrArg (V c (Pipeline.arrRef spec3 2)) (funext fun a => Fin.ext ?_)
  match a with
  | ⟨0, _⟩ => show win3_2.index t (0 : Fin 2) * 1 + 1 * z.val = z.val; have := e.1; omega
  | ⟨1, _⟩ => show win3_2.index t (1 : Fin 2) * 256 + 1 * q.val = q.val; have := e.2; omega

/-- At every point window 3 holds the whole row of column scales. -/
theorem iblk3_3_apply (t : Fin cfg3.N) (z : Fin 1) (q : Fin 256) :
    iblk3 V c 3 t (ix2 z q) = V c (Pipeline.arrRef spec3 3) (ix2 z q) := by
  have e := (idx_facts3 t).2.2.2.1
  show V c (Pipeline.arrRef spec3 3) (((cfg3.win 3).blk t).view.emb (ix2 z q)) = _
  refine congrArg (V c (Pipeline.arrRef spec3 3)) (funext fun a => Fin.ext ?_)
  match a with
  | ⟨0, _⟩ => show win3_3.index t (0 : Fin 2) * 1 + 1 * z.val = z.val; have := e.1; omega
  | ⟨1, _⟩ => show win3_3.index t (1 : Fin 2) * 256 + 1 * q.val = q.val; have := e.2; omega

/-- At every point window 4 holds the whole row of column shifts. -/
theorem iblk3_4_apply (t : Fin cfg3.N) (z : Fin 1) (q : Fin 256) :
    iblk3 V c 4 t (ix2 z q) = V c (Pipeline.arrRef spec3 4) (ix2 z q) := by
  have e := (idx_facts3 t).2.2.2.2.1
  show V c (Pipeline.arrRef spec3 4) (((cfg3.win 4).blk t).view.emb (ix2 z q)) = _
  refine congrArg (V c (Pipeline.arrRef spec3 4)) (funext fun a => Fin.ext ?_)
  match a with
  | ⟨0, _⟩ => show win3_4.index t (0 : Fin 2) * 1 + 1 * z.val = z.val; have := e.1; omega
  | ⟨1, _⟩ => show win3_4.index t (1 : Fin 2) * 256 + 1 * q.val = q.val; have := e.2; omega

/-- At every point the weights' window holds the whole weight array. -/
theorem iblk3_5_apply (t : Fin cfg3.N) (q : Fin 256) (j : Fin 128) :
    iblk3 V c 5 t (ix2 q j) = V c (Pipeline.arrRef spec3 5) (ix2 q j) := by
  have e := (idx_facts3 t).2.2.2.2.2.1
  show V c (Pipeline.arrRef spec3 5) (((cfg3.win 5).blk t).view.emb (ix2 q j)) = _
  refine congrArg (V c (Pipeline.arrRef spec3 5)) (funext fun a => Fin.ext ?_)
  match a with
  | ⟨0, _⟩ => show win3_5.index t (0 : Fin 2) * 256 + 1 * q.val = q.val; have := e.1; omega
  | ⟨1, _⟩ => show win3_5.index t (1 : Fin 2) * 128 + 1 * j.val = j.val; have := e.2; omega

/-- At every point the bias window holds the whole bias row. -/
theorem iblk3_6_apply (t : Fin cfg3.N) (z : Fin 1) (j : Fin 128) :
    iblk3 V c 6 t (ix2 z j) = V c (Pipeline.arrRef spec3 6) (ix2 z j) := by
  have e := (idx_facts3 t).2.2.2.2.2.2.1
  show V c (Pipeline.arrRef spec3 6) (((cfg3.win 6).blk t).view.emb (ix2 z j)) = _
  refine congrArg (V c (Pipeline.arrRef spec3 6)) (funext fun a => Fin.ext ?_)
  match a with
  | ⟨0, _⟩ => show win3_6.index t (0 : Fin 2) * 1 + 1 * z.val = z.val; have := e.1; omega
  | ⟨1, _⟩ => show win3_6.index t (1 : Fin 2) * 128 + 1 * j.val = j.val; have := e.2; omega

/-- The output window's block at point t sits at rows 5000·t … 5000·t + 4999 of the output array. -/
theorem emb3_7 (t : Fin cfg3.N) (p : Fin 5000) (j : Fin 128) (r : Fin 50000) (hr : r.val = 5000 * t.val + p.val) :
    ((cfg3.win 7).blk t).view.emb (ix2 p j) = ix2 r j := by
  have e := (idx_facts3 t).2.2.2.2.2.2.2
  funext a; apply Fin.ext
  match a with
  | ⟨0, _⟩ => show win3_7.index t (0 : Fin 2) * 5000 + 1 * p.val = r.val; have := e.1; omega
  | ⟨1, _⟩ => show win3_7.index t (1 : Fin 2) * 128 + 1 * j.val = j.val; have := e.2; omega

/-- What point t writes back is the body's result on the seven input blocks at t. -/
theorem flushed3_pay (t : Fin cfg3.N) :
    (dat3 (F := Ideal) V c).flushed 7 t = k3_pay1 (iblk3 V c 0 t) (iblk3 V c 1 t) (iblk3 V c 2 t) (iblk3 V c 3 t)
      (iblk3 V c 4 t) (iblk3 V c 5 t) (iblk3 V c 6 t) := by
  show (cfg3.win 7).cut (grid3.coords t) ((dat3 V c).after 7 t) = _
  rw [after3_7]
  unfold out3_7
  rw [View.canon_unit_zero zero_off]
  simp only [View.ld_unit_zero (S := S5000x256) zero_off, View.ld_unit_zero (S := S1x256) zero_off,
    View.ld_unit_zero (S := S256x128) zero_off, View.ld_unit_zero (S := S1x128) zero_off]
  rfl

/-- The body's result on the blocks at t, at entry (p, j), is entry (5000·t + p, j) of the layer's second stage on the
    arrays the region found. -/
theorem pay3_at (t : Fin cfg3.N) (p : Fin 5000) (j : Fin 128) (r : Fin 50000) (hr : r.val = 5000 * t.val + p.val) :
    k3_pay1 (iblk3 V c 0 t) (iblk3 V c 1 t) (iblk3 V c 2 t) (iblk3 V c 3 t) (iblk3 V c 4 t) (iblk3 V c 5 t)
      (iblk3 V c 6 t) (ix2 p j) = (Cert.Spec.layerOut eps (V c (Pipeline.arrRef spec3 0)) (V c (Pipeline.arrRef spec3 1))
        (V c (Pipeline.arrRef spec3 2)) (V c (Pipeline.arrRef spec3 3)) (V c (Pipeline.arrRef spec3 4))
        (V c (Pipeline.arrRef spec3 5)) (V c (Pipeline.arrRef spec3 6))) (ix2 r j) :=
  pay3_eq_layer (iblk3 V c 0 t) (iblk3 V c 1 t) (iblk3 V c 2 t) (iblk3 V c 3 t) (iblk3 V c 4 t) (iblk3 V c 5 t)
    (iblk3 V c 6 t) (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6)) p j r (fun q => iblk3_0_apply V c t p q r hr)
    (fun q => iblk3_1_apply V c t 0 q) (fun q => iblk3_2_apply V c t 0 q) (fun q => iblk3_3_apply V c t 0 q)
    (fun q => iblk3_4_apply V c t 0 q) (fun q => iblk3_5_apply V c t q j) (iblk3_6_apply V c t 0 j)

/-- What point t writes back is block t of the layer's second stage on the arrays the region found. -/
theorem flushed3_eq (t : Fin cfg3.N) :
    (dat3 (F := Ideal) V c).flushed 7 t = ((cfg3.win 7).blk t).view.read (Elt Ideal)
      (Cert.Spec.layerOut eps (V c (Pipeline.arrRef spec3 0)) (V c (Pipeline.arrRef spec3 1))
        (V c (Pipeline.arrRef spec3 2)) (V c (Pipeline.arrRef spec3 3)) (V c (Pipeline.arrRef spec3 4))
        (V c (Pipeline.arrRef spec3 5)) (V c (Pipeline.arrRef spec3 6))) := by
  rw [flushed3_pay]
  have hN : t.val < 10 := lt_of_lt_of_eq t.isLt N_3
  funext y
  obtain ⟨p, j, rfl⟩ : ∃ (p : Fin 5000) (j : Fin 128), y = ix2 p j := ⟨y 0, y 1, eq_ix2 y⟩
  have hr : 5000 * t.val + p.val < 50000 := by have := p.isLt; omega
  show _ = (Cert.Spec.layerOut eps (V c (Pipeline.arrRef spec3 0)) (V c (Pipeline.arrRef spec3 1))
        (V c (Pipeline.arrRef spec3 2)) (V c (Pipeline.arrRef spec3 3)) (V c (Pipeline.arrRef spec3 4))
        (V c (Pipeline.arrRef spec3 5)) (V c (Pipeline.arrRef spec3 6))) (((cfg3.win 7).blk t).view.emb (ix2 p j))
  rw [emb3_7 t p j ⟨_, hr⟩ rfl]
  exact pay3_at V c t p j ⟨_, hr⟩ rfl

/-- An index of the output array is in point t's block iff each coordinate is in the block's range on its axis. -/
theorem mem_blk3 (t : Fin cfg3.N) (i : S50000x128.Idx) :
    i ∈ ((cfg3.win 7).blk t).view.set ↔ ∀ a : Fin 2, win3_7.index t a * S5000x128.size a ≤ (i a).val
      ∧ (i a).val < win3_7.index t a * S5000x128.size a + S5000x128.size a := by
  show i ∈ ((View.whole main_v127).slice (win3_7.rect t)).set ↔ _
  rw [View.set_slice_whole, Rect.mem_set_unit]
  exact Iff.rfl

/-- Row r of the output array is written back by point r / 5000. -/
theorem cover3 (i : S50000x128.Idx) :
    ∃ t : Fin cfg3.N, (cfg3.win 7).flush t = true ∧ i ∈ ((cfg3.win 7).blk t).view.set := by
  have hi0 : (i 0).val < 50000 := (i 0).isLt
  have hi1 : (i 1).val < 128 := (i 1).isLt
  have ht : (i 0).val / 5000 < cfg3.N := lt_of_lt_of_eq (by omega) N_3.symm
  refine ⟨⟨(i 0).val / 5000, ht⟩, flush3_7 _, ?_⟩
  have e := (idx_facts3 ⟨(i 0).val / 5000, ht⟩).2.2.2.2.2.2.2
  rw [mem_blk3]
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e.1]
    show (i 0).val / 5000 * 5000 ≤ (i 0).val ∧ (i 0).val < (i 0).val / 5000 * 5000 + 5000
    omega
  | ⟨1, _⟩ =>
    show win3_7.index ⟨(i 0).val / 5000, ht⟩ (1 : Fin 2) * 128 ≤ (i 1).val
      ∧ (i 1).val < win3_7.index ⟨(i 0).val / 5000, ht⟩ (1 : Fin 2) * 128 + 128
    rw [e.2]
    omega

end Region3

end Cert.KernelIdeal.RegionValue.Norm

namespace Cert.KernelIdeal.RegionValue

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b)) (c : Dev nD)

/-- REGION 1: the output array ends at the positive part of the layer's second stage on the seven arrays the region
    found. -/
theorem region1_value : (Gen.dat1 (F := Ideal) V c).arrAt 7 cfg1.N
    = Cert.Spec.relu (Cert.Spec.layerOut (Ideal.ofBits .f32 0x3727C5AC#32) (V c (Pipeline.arrRef spec1 0))
        (V c (Pipeline.arrRef spec1 1)) (V c (Pipeline.arrRef spec1 2)) (V c (Pipeline.arrRef spec1 3))
        (V c (Pipeline.arrRef spec1 4)) (V c (Pipeline.arrRef spec1 5)) (V c (Pipeline.arrRef spec1 6))) :=
  (dat1 (F := Ideal) V c).arrAt_eq_of_cover 7 _ (fun t _ => Norm.flushed1_eq V c t) Norm.cover1

/-- REGION 3: the output array ends at the layer's second stage on the seven arrays the region found. -/
theorem region3_value : (Gen.dat3 (F := Ideal) V c).arrAt 7 cfg3.N
    = Cert.Spec.layerOut (Ideal.ofBits .f32 0x3727C5AC#32) (V c (Pipeline.arrRef spec3 0))
        (V c (Pipeline.arrRef spec3 1)) (V c (Pipeline.arrRef spec3 2)) (V c (Pipeline.arrRef spec3 3))
        (V c (Pipeline.arrRef spec3 4)) (V c (Pipeline.arrRef spec3 5)) (V c (Pipeline.arrRef spec3 6)) :=
  (dat3 (F := Ideal) V c).arrAt_eq_of_cover 7 _ (fun t _ => Norm.flushed3_eq V c t) Norm.cover3

end Cert.KernelIdeal.RegionValue

end
-- ==== Proof.LibRows.lean ====
/-
  Whole rows of a matrix gathered and scatter-added, for any sizes.  A gather with one start index per result row
  (operand [N, C], start indices [E, 1], result [E, C]) reads, at (e, c), the operand at the row the e-th index names
  (read signed, clamped into [0, N - 1]) and column c.  A scatter-add with one index per update row adds, at (r, c),
  the column-c entries of exactly the update rows whose index, read signed, is r; a row whose index is outside the
  operand is dropped.  Summing gathered rows commutes with a matrix product on the right, for finite entries:
  the scatter-add into zeros of the gathered rows of X · W is (the scatter-add into zeros of the gathered rows of X) · W.
-/
import Idealize.ShloMosaic.Lib.ValueIdx
import Idealize.ShloMosaic.PureOps.Ideal
import Idealize.ShloMosaic.PureOps.Ideal.Laws
import proofs.«107108_j75977971466801_2_alg».proof.Proof.LibMatOps

noncomputable section

open scoped BigOperators

namespace Cert.LibRows

open Idealize.ShloMosaic Idealize.ShloMosaic.ValueIdx

variable {N C K E w : ℕ}

/-! ## Gathering whole rows -/

/-- The dimension numbers of a gather of whole rows: operand `[N, C]`, start indices `[E, 1]` (one row number per
    result row), result `[E, C]`; axis 0 of the operand is collapsed and indexed, axis 1 is taken whole. -/
abbrev gatherRowsDims (N C E : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row that result row `e` reads: its start index, read signed, clamped into `[0, N - 1]`. -/
def rowAt (hN : 0 < N) (idx : IVec ⟨2, ![E, 1]⟩ w) (e : Fin E) : Fin N :=
  ⟨min (idx (ix2 e (0 : Fin 1))).toInt.toNat (N - 1), by omega⟩

/-- The gather read at `(e, c)`: the operand at row `rowAt e`, column `c`. -/
theorem gatherRows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N C E wf) x idx (ix2 e c) = x (ix2 (rowAt hN idx e) c) := by
  unfold Host.gather
  congr 1
  have h0 : (gatherRowsDims N C E wf).start (ix2 e c) idx (0 : Fin 2)
      + (gatherRowsDims N C E wf).batchCoord (ix2 e c) (0 : Fin 2)
      + (gatherRowsDims N C E wf).offCoord (ix2 e c) (0 : Fin 2) = (rowAt hN idx e).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (gatherRowsDims N C E wf).startIndexMap from List.mem_singleton.mpr rfl)]
    have hsi : (gatherRowsDims N C E wf).siIdx (ix2 e c)
        ⟨List.idxOf (0 : Fin 2) (gatherRowsDims N C E wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have h1 : (gatherRowsDims N C E wf).start (ix2 e c) idx (1 : Fin 2)
      + (gatherRowsDims N C E wf).batchCoord (ix2 e c) (1 : Fin 2)
      + (gatherRowsDims N C E wf).offCoord (ix2 e c) (1 : Fin 2) = c.val := by
    have hstart : (gatherRowsDims N C E wf).start (ix2 e c) idx (1 : Fin 2) = 0 := by
      unfold GatherDims.start
      rw [dif_neg (show (1 : Fin 2) ∉ (gatherRowsDims N C E wf).startIndexMap from
        (by decide : (1 : Fin 2) ∉ [(0 : Fin 2)]))]
    have hoff : (gatherRowsDims N C E wf).offCoord (ix2 e c) (1 : Fin 2) = c.val := by
      unfold GatherDims.offCoord
      rw [dif_pos (show (1 : Fin 2) ∈ (gatherRowsDims N C E wf).sKept from
        (by decide : (1 : Fin 2) ∈ (List.finRange 2).filter (· ∉ ([(0 : Fin 2)] ++ []))))]
      rfl
    rw [GatherDims.batchCoord_eq_zero _ _ _ List.not_mem_nil, hstart, hoff]; omega
  funext a
  refine Fin.ext ?_
  match a with
  | ⟨0, _⟩ => exact h0
  | ⟨1, _⟩ => exact h1

/-! ## Scatter-adding whole rows -/

/-- The dimension numbers of a scatter of whole rows: operand `[N, C]`, scatter indices `[E, 1]` (one row number per
    update row), updates `[E, C]`; update row `e` goes, whole, to the operand row its index names. -/
abbrev scatterRowsDims (N C E : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update element `(e, c')` lands on `(r, c)` exactly when row `e`'s index, read signed, is `r` and `c' = c`. -/
theorem resultIdx_rows_iff (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (scatterRowsDims N C E wf).resultIdx? (ix2 e c') idx = some (ix2 r c)
      ↔ (idx (ix2 e (0 : Fin 1))).toInt = (r.val : ℤ) ∧ c' = c := by
  have hs0 : (scatterRowsDims N C E wf).start (ix2 e c') idx (0 : Fin 2) = (idx (ix2 e (0 : Fin 1))).toInt := by
    unfold ScatterDims.start
    rw [dif_pos (show (0 : Fin 2) ∈ (scatterRowsDims N C E wf).scatterDimsToOperandDims from
      List.mem_singleton.mpr rfl)]
    have hsi : (scatterRowsDims N C E wf).siIdx (ix2 e c')
        ⟨List.idxOf (0 : Fin 2) (scatterRowsDims N C E wf).scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (scatterRowsDims N C E wf).start (ix2 e c') idx (1 : Fin 2) = 0 := by
    unfold ScatterDims.start
    rw [dif_neg (show (1 : Fin 2) ∉ (scatterRowsDims N C E wf).scatterDimsToOperandDims from
      (by decide : (1 : Fin 2) ∉ [(0 : Fin 2)]))]
  have hw0 : (scatterRowsDims N C E wf).window (ix2 e c') (0 : Fin 2) = 0 := by
    unfold ScatterDims.window
    rw [dif_neg (show (0 : Fin 2) ∉ (scatterRowsDims N C E wf).sKept from
      (by decide : (0 : Fin 2) ∉ (List.finRange 2).filter (· ∉ [(0 : Fin 2)])))]
  have hw1 : (scatterRowsDims N C E wf).window (ix2 e c') (1 : Fin 2) = c'.val := by
    unfold ScatterDims.window
    rw [dif_pos (show (1 : Fin 2) ∈ (scatterRowsDims N C E wf).sKept from
      (by decide : (1 : Fin 2) ∈ (List.finRange 2).filter (· ∉ [(0 : Fin 2)])))]
    rfl
  unfold ScatterDims.resultIdx?
  constructor
  · intro h
    split at h
    · rename_i hall
      have hf := Option.some.inj h
      have h0 : ((scatterRowsDims N C E wf).start (ix2 e c') idx (0 : Fin 2)
          + ((scatterRowsDims N C E wf).window (ix2 e c') (0 : Fin 2) : ℤ)).toNat = r.val :=
        congrArg Fin.val (congrFun hf (0 : Fin 2))
      have h1 : ((scatterRowsDims N C E wf).start (ix2 e c') idx (1 : Fin 2)
          + ((scatterRowsDims N C E wf).window (ix2 e c') (1 : Fin 2) : ℤ)).toNat = c.val :=
        congrArg Fin.val (congrFun hf (1 : Fin 2))
      have ha0 := (hall (0 : Fin 2)).1
      rw [hs0, hw0] at h0 ha0
      rw [hs1, hw1] at h1
      refine ⟨by omega, Fin.ext (by omega)⟩
    · exact absurd h (by simp)
  · rintro ⟨hr, rfl⟩
    have hall : ∀ a : Fin 2, 0 ≤ (scatterRowsDims N C E wf).start (ix2 e c') idx a
          + ((scatterRowsDims N C E wf).window (ix2 e c') a : ℤ)
        ∧ (scatterRowsDims N C E wf).start (ix2 e c') idx a + ((scatterRowsDims N C E wf).window (ix2 e c') a : ℤ)
          < ((⟨2, ![N, C]⟩ : Shape).size a : ℤ) := by
      intro a
      match a with
      | ⟨0, _⟩ =>
        show 0 ≤ (scatterRowsDims N C E wf).start (ix2 e c') idx (0 : Fin 2)
            + ((scatterRowsDims N C E wf).window (ix2 e c') (0 : Fin 2) : ℤ)
          ∧ (scatterRowsDims N C E wf).start (ix2 e c') idx (0 : Fin 2)
            + ((scatterRowsDims N C E wf).window (ix2 e c') (0 : Fin 2) : ℤ) < (N : ℤ)
        rw [hs0, hw0, hr]; have := r.isLt; omega
      | ⟨1, _⟩ =>
        show 0 ≤ (scatterRowsDims N C E wf).start (ix2 e c') idx (1 : Fin 2)
            + ((scatterRowsDims N C E wf).window (ix2 e c') (1 : Fin 2) : ℤ)
          ∧ (scatterRowsDims N C E wf).start (ix2 e c') idx (1 : Fin 2)
            + ((scatterRowsDims N C E wf).window (ix2 e c') (1 : Fin 2) : ℤ) < (C : ℤ)
        rw [hs1, hw1]; have := c'.isLt; omega
    rw [dif_pos hall]
    congr 1
    funext a
    refine Fin.ext ?_
    match a with
    | ⟨0, _⟩ =>
      show ((scatterRowsDims N C E wf).start (ix2 e c') idx (0 : Fin 2)
        + ((scatterRowsDims N C E wf).window (ix2 e c') (0 : Fin 2) : ℤ)).toNat = r.val
      rw [hs0, hw0, hr]; omega
    | ⟨1, _⟩ =>
      show ((scatterRowsDims N C E wf).start (ix2 e c') idx (1 : Fin 2)
        + ((scatterRowsDims N C E wf).window (ix2 e c') (1 : Fin 2) : ℤ)).toNat = c'.val
      rw [hs1, hw1]; omega

/-- The scatter-add read at `(r, c)`: the operand's entry plus the updates' column-`c` entries of the rows whose
    index, read signed, is `r`. -/
theorem scatterRows_apply (wf : ScatterDims.WF ⟨2, ![N, C]⟩ ⟨2, ![E, 1]⟩ ⟨2, ![E, C]⟩ [1] [0] [0] 1)
    (x : Cert.Spec.Mat N C) (idx : IVec ⟨2, ![E, 1]⟩ w) (upd : Cert.Spec.Mat E C) (r : Fin N) (c : Fin C) :
    Ideal.hostScatterAdd (scatterRowsDims N C E wf) x idx upd (ix2 r c)
      = x (ix2 r c) + ∑ e ∈ Finset.univ.filter
          (fun e : Fin E => (idx (ix2 e (0 : Fin 1))).toInt = (r.val : ℤ)), upd (ix2 e c) := by
  unfold Ideal.hostScatterAdd
  congr 1
  rw [Finset.sum_filter, Finset.sum_filter, sum_idx2]
  refine Finset.sum_congr rfl fun e _ => ?_
  by_cases hP : (idx (ix2 e (0 : Fin 1))).toInt = (r.val : ℤ)
  · rw [if_pos hP, Finset.sum_eq_single c]
    · rw [if_pos ((resultIdx_rows_iff wf idx e c r c).mpr ⟨hP, rfl⟩)]
    · intro c' _ hc'
      rw [if_neg (fun h => hc' ((resultIdx_rows_iff wf idx e c' r c).mp h).2)]
    · intro h; exact absurd (Finset.mem_univ _) h
  · rw [if_neg hP]
    refine Finset.sum_eq_zero fun c' _ => ?_
    rw [if_neg (fun h => hP ((resultIdx_rows_iff wf idx e c' r c).mp h).1)]

/-! ## Aggregation commutes with a matrix product -/

/-- The coercion of the reals into the extended reals takes a finite sum to the sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Summing gathered rows and multiplying by a matrix commute, for finite entries: scatter-adding, into zeros, the
    gathered rows of `X · W` is `(the scatter-add of the gathered rows of X) · W`. -/
theorem aggregate_mm (hN : 0 < N)
    (wfgK : GatherDims.WF ⟨2, ![N, K]⟩ ⟨2, ![E, 1]⟩ ⟨2, ![E, K]⟩ [1] [0] [] [0] [] 1 ![1, K])
    (wfgC : GatherDims.WF ⟨2, ![N, C]⟩ ⟨2, ![E, 1]⟩ ⟨2, ![E, C]⟩ [1] [0] [] [0] [] 1 ![1, C])
    (wfsK : ScatterDims.WF ⟨2, ![N, K]⟩ ⟨2, ![E, 1]⟩ ⟨2, ![E, K]⟩ [1] [0] [0] 1)
    (wfsC : ScatterDims.WF ⟨2, ![N, C]⟩ ⟨2, ![E, 1]⟩ ⟨2, ![E, C]⟩ [1] [0] [0] 1)
    (X : Cert.Spec.Mat N K) (W : Cert.Spec.Mat K C)
    (hX : ∀ i, ∃ r : ℝ, X i = (r : EReal)) (hW : ∀ i, ∃ r : ℝ, W i = (r : EReal))
    (ZC : Cert.Spec.Mat N C) (ZK : Cert.Spec.Mat N K) (hZC : ∀ i, ZC i = 0) (hZK : ∀ i, ZK i = 0)
    (idxs idxd : IVec ⟨2, ![E, 1]⟩ w) :
    Ideal.hostScatterAdd (scatterRowsDims N C E wfsC) ZC idxd
        (Host.gather (gatherRowsDims N C E wfgC) (Cert.Spec.mm X W) idxs)
      = Cert.Spec.mm (Ideal.hostScatterAdd (scatterRowsDims N K E wfsK) ZK idxd
          (Host.gather (gatherRowsDims N K E wfgK) X idxs)) W := by
  funext i
  obtain ⟨r, c, rfl⟩ : ∃ (r : Fin N) (c : Fin C), i = ix2 r c := ⟨i 0, i 1, eq_ix2 i⟩
  rw [scatterRows_apply, Cert.Spec.mm_apply]
  simp only [scatterRows_apply, gatherRows_apply hN, hZC, hZK, zero_add, Cert.Spec.mm_apply]
  choose xr hxr using hX
  choose wr hwr using hW
  simp only [hxr, hwr, ← EReal.coe_mul, ← coe_sum]
  congr 1
  rw [Finset.sum_comm]
  exact Finset.sum_congr rfl fun q _ => (Finset.sum_mul _ _ _).symm

end Cert.LibRows

end
-- ==== Proof.LibAggregateLaw.lean ====
/-
  Summing edge messages into nodes is linear in the messages.

  An edge e carries the message  m e = (∑ q, a e q · w q) + b : a dense map of the edge's attribute row a e.  A node
  collects the messages of the edges S that point at it.  Because the dense map is affine, the collected sum is the
  dense map of the collected attributes, with the bias counted once per collected edge:

      ∑ e ∈ S, ((∑ q, a e q · w q) + b)  =  (∑ q, (∑ e ∈ S, a e q) · w q) + (∑ e ∈ S, 1) · b .

  Over the reals this is distributivity and an exchange of two finite sums.  Over the extended reals it holds when the
  attributes, the weights and the bias are finite (each side is then the real number above); it is the one place where
  the two programs' agreement needs finite inputs.  The second fact here needs no finiteness: picking whole rows of a
  matrix and then multiplying by W on the right is multiplying first and picking the same rows of the product.
-/
import proofs.«107108_j75977971466801_2_alg».proof.Proof.LibRows

noncomputable section

open scoped BigOperators

namespace Cert.Aggregate

open Idealize.ShloMosaic Idealize.ShloMosaic.ValueIdx Cert.Spec Cert.LibRows

variable {ι : Type} {K : ℕ}

/-- Over the reals: the sum over a set of edges of an affine map of each edge's row is the affine map of the summed
    rows, the constant term counted once per edge. -/
theorem sum_affine_real (S : Finset ι) (a : ι → Fin K → ℝ) (w : Fin K → ℝ) (b : ℝ) :
    ∑ e ∈ S, ((∑ q, a e q * w q) + b) = (∑ q, (∑ e ∈ S, a e q) * w q) + (∑ _e ∈ S, (1 : ℝ)) * b := by
  rw [Finset.sum_add_distrib, Finset.sum_comm]
  congr 1
  · exact Finset.sum_congr rfl fun q _ => (Finset.sum_mul _ _ _).symm
  · rw [Finset.sum_mul]; exact Finset.sum_congr rfl fun _ _ => (one_mul b).symm

/-- The same over the extended reals, for finite rows, weights and constant term. -/
theorem sum_affine (S : Finset ι) (A : ι → Fin K → EReal) (W : Fin K → EReal) (B : EReal)
    (hA : ∀ e q, ∃ x : ℝ, A e q = (x : EReal)) (hW : ∀ q, ∃ x : ℝ, W q = (x : EReal)) (hB : ∃ x : ℝ, B = (x : EReal)) :
    ∑ e ∈ S, ((∑ q, A e q * W q) + B) = (∑ q, (∑ e ∈ S, A e q) * W q) + (∑ _e ∈ S, (1 : EReal)) * B := by
  choose a ha using hA
  choose w hw using hW
  obtain ⟨b, rfl⟩ := hB
  simp only [ha, hw, ← EReal.coe_one, ← EReal.coe_mul, ← coe_sum, ← EReal.coe_add]
  exact congrArg _ (sum_affine_real S a w b)

variable {N C E w : ℕ}

/-- Picking whole rows commutes with a matrix product on the right. -/
theorem gather_mm (hN : 0 < N)
    (wfK : GatherDims.WF ⟨2, ![N, K]⟩ ⟨2, ![E, 1]⟩ ⟨2, ![E, K]⟩ [1] [0] [] [0] [] 1 ![1, K])
    (wfC : GatherDims.WF ⟨2, ![N, C]⟩ ⟨2, ![E, 1]⟩ ⟨2, ![E, C]⟩ [1] [0] [] [0] [] 1 ![1, C])
    (X : Mat N K) (W : Mat K C) (idx : IVec ⟨2, ![E, 1]⟩ w) :
    Host.gather (gatherRowsDims N C E wfC) (mm X W) idx = mm (Host.gather (gatherRowsDims N K E wfK) X idx) W := by
  funext i
  obtain ⟨e, c, rfl⟩ : ∃ (e : Fin E) (c : Fin C), i = ix2 e c := ⟨i 0, i 1, eq_ix2 i⟩
  rw [gatherRows_apply hN, mm_apply, mm_apply]
  exact Finset.sum_congr rfl fun q _ => by rw [gatherRows_apply hN]

end Cert.Aggregate

end
-- ==== Proof.LibAggregateSplit.lean ====
/-
  The aggregated features of a layer, computed two ways.

  Every edge e carries a row of 2C numbers: C numbers Hg e (the state of the node it starts from) followed by the C
  numbers of its encoded attributes, (∑ q, EA e q · W q j) + b j.  A node r sums the rows of the edges whose index is r
  (scatter-add into zeros).  The same array is obtained half by half: the left C columns are the scatter-add of Hg alone;
  the right C columns are the dense map applied to the scatter-add of the raw attributes EA, with the bias b j taken
  deg r times, deg r the number of edges whose index is r — itself a scatter-add of ones.  The halves are equal by
  reading a concatenation on either side of column C; the right half is the linearity law of LibAggregateLaw, which is
  where finite attributes, weights and bias are used.
-/
import proofs.«107108_j75977971466801_2_alg».proof.Proof.LibAggregateLaw
import proofs.«107108_j75977971466801_2_alg».proof.Proof.LibPlainDot
import Idealize.ShloMosaic.Lib.Pipeline.Value

noncomputable section

open scoped BigOperators

namespace Cert.Aggregate

open Idealize.ShloMosaic Idealize.ShloMosaic.ValueIdx Cert.Spec Cert.LibRows

variable {N E K C C2 w : ℕ}

/-- The scatter-add of whole rows, in the host's spelling, read at an entry. -/
theorem hostScatterAdd_rows_apply (D : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hD : D = scatterRowsDims N C E wf)
    (Z : Mat N C) (hZ : ∀ i, Z i = 0) (idx : IVec ⟨2, ![E, 1]⟩ w) (U : Mat E C) (r : Fin N) (c : Fin C) :
    Host.scatterAdd (F := Ideal) (φ := .f32) D Z idx U (ix2 r c)
      = ∑ e ∈ Finset.univ.filter (fun e : Fin E => (idx (ix2 e (0 : Fin 1))).toInt = (r.val : ℤ)), U (ix2 e c) := by
  subst hD
  show Ideal.hostScatterAdd _ Z idx U (ix2 r c) = _
  rw [scatterRows_apply, hZ, zero_add]

/-- The layer's aggregated features: summing the concatenated edge rows is concatenating the two halves' sums, the
    encoded half through the dense map of the summed attributes with the bias counted once per edge. -/
theorem aggregate_split (hC2 : C + C = C2)
    (D2 : ScatterDims ⟨2, ![N, C2]⟩ ⟨2, ![E, 1]⟩ ⟨2, ![E, C2]⟩) (wf2) (hD2 : D2 = scatterRowsDims N C2 E wf2)
    (DC : ScatterDims ⟨2, ![N, C]⟩ ⟨2, ![E, 1]⟩ ⟨2, ![E, C]⟩) (wfC) (hDC : DC = scatterRowsDims N C E wfC)
    (DK : ScatterDims ⟨2, ![N, K]⟩ ⟨2, ![E, 1]⟩ ⟨2, ![E, K]⟩) (wfK) (hDK : DK = scatterRowsDims N K E wfK)
    (D1 : ScatterDims ⟨2, ![N, 1]⟩ ⟨2, ![E, 1]⟩ ⟨2, ![E, 1]⟩) (wf1) (hD1 : D1 = scatterRowsDims N 1 E wf1)
    (dE : DotDims ⟨2, ![E, K]⟩ ⟨2, ![K, C]⟩ ⟨2, ![E, C]⟩) (hdE : dE = DotDims.plain E K C)
    (dN : DotDims ⟨2, ![N, K]⟩ ⟨2, ![K, C]⟩ ⟨2, ![N, C]⟩) (hdN : dN = DotDims.plain N K C)
    (hcatE : Shape.Concatenates [(⟨2, ![E, C]⟩ : Shape), ⟨2, ![E, C]⟩] ⟨2, ![E, C2]⟩ 1)
    (hcatN : Shape.Concatenates [(⟨2, ![N, C]⟩ : Shape), ⟨2, ![N, C]⟩] ⟨2, ![N, C2]⟩ 1)
    (Z2 : Mat N C2) (hZ2 : ∀ i, Z2 i = 0) (ZC : Mat N C) (hZC : ∀ i, ZC i = 0)
    (ZK : Mat N K) (hZK : ∀ i, ZK i = 0) (Z1 : Mat N 1) (hZ1 : ∀ i, Z1 i = 0)
    (idx : IVec ⟨2, ![E, 1]⟩ w)
    (Hg : Mat E C) (EA : Mat E K) (W : Mat K C) (b : Fin C → EReal)
    (hEA : ∀ i, ∃ x : ℝ, EA i = (x : EReal)) (hW : ∀ i, ∃ x : ℝ, W i = (x : EReal)) (hb : ∀ j, ∃ x : ℝ, b j = (x : EReal))
    (BE : Mat E C) (hBE : ∀ e j, BE (ix2 e j) = b j) (BN : Mat N C) (hBN : ∀ r j, BN (ix2 r j) = b j)
    (ones : Mat E 1) (hones : ∀ i, ones i = 1)
    (Deg : Mat N C) (hDeg : ∀ r j, Deg (ix2 r j) = Host.scatterAdd (F := Ideal) (φ := .f32) D1 Z1 idx ones (ix2 r (0 : Fin 1))) :
    Host.scatterAdd (F := Ideal) (φ := .f32) D2 Z2 idx
        (concatenate ⟨2, ![E, C2]⟩ 1 [⟨⟨2, ![E, C]⟩, Hg⟩,
          ⟨⟨2, ![E, C]⟩, addf (Host.dotGeneral (F := Ideal) (φ₁ := .f32) (φ₂ := .f32) dE none EA W) BE⟩] hcatE)
      = concatenate ⟨2, ![N, C2]⟩ 1 [⟨⟨2, ![N, C]⟩, Host.scatterAdd (F := Ideal) (φ := .f32) DC ZC idx Hg⟩,
          ⟨⟨2, ![N, C]⟩, addf (Host.dotGeneral (F := Ideal) (φ₁ := .f32) (φ₂ := .f32) dN none
              (Host.scatterAdd (F := Ideal) (φ := .f32) DK ZK idx EA) W) (mulf Deg BN)⟩] hcatN := by
  funext i
  obtain ⟨r, j, rfl⟩ : ∃ (r : Fin N) (j : Fin C2), i = ix2 r j := ⟨i 0, i 1, eq_ix2 i⟩
  rw [hostScatterAdd_rows_apply D2 wf2 hD2 Z2 hZ2]
  by_cases hj : j.val < C
  · -- a column of the left half: the states, summed
    rw [concatenate_pair_apply_left (s₁ := ⟨2, ![N, C]⟩) (s₂ := ⟨2, ![N, C]⟩) (1 : Fin 2) _ _ hcatN (ix2 r j) rfl (ix2 r (⟨j.val, hj⟩ : Fin C))
      (fun b => by match b with | ⟨0, _⟩ => rfl | ⟨1, _⟩ => rfl)]
    rw [hostScatterAdd_rows_apply DC wfC hDC ZC hZC]
    refine Finset.sum_congr rfl fun e _ => ?_
    exact concatenate_pair_apply_left (s₁ := ⟨2, ![E, C]⟩) (s₂ := ⟨2, ![E, C]⟩) (1 : Fin 2) _ _ hcatE (ix2 e j) rfl (ix2 e (⟨j.val, hj⟩ : Fin C))
      (fun b => by match b with | ⟨0, _⟩ => rfl | ⟨1, _⟩ => rfl)
  · -- a column of the right half: the encoded attributes, summed
    have hjC : j.val - C < C := by have := j.isLt; omega
    rw [concatenate_pair_apply_right (s₁ := ⟨2, ![N, C]⟩) (s₂ := ⟨2, ![N, C]⟩) (1 : Fin 2) _ _ hcatN (ix2 r j) rfl rfl (ix2 r (⟨j.val - C, hjC⟩ : Fin C))
      (fun b hb => by match b with | ⟨0, _⟩ => rfl | ⟨1, _⟩ => exact absurd rfl hb)
      (by show (j.val - C) + C = j.val; omega)]
    rw [addf_apply, mulf_apply, hDeg, hBN, hostScatterAdd_rows_apply D1 wf1 hD1 Z1 hZ1]
    show _ = Host.dotGeneral (F := Ideal) dN none _ W (ix2 r (⟨j.val - C, hjC⟩ : Fin C)) + _
    unfold Host.dotGeneral
    rw [Cert.LibPlainDot.dotGeneral_apply dN hdN]
    simp only [hostScatterAdd_rows_apply DK wfK hDK ZK hZK, hones]
    rw [← sum_affine _ (fun e q => EA (ix2 e q)) (fun q => W (ix2 q ⟨j.val - C, hjC⟩)) (b ⟨j.val - C, hjC⟩)
      (fun e q => hEA _) (fun q => hW _) (hb _)]
    refine Finset.sum_congr rfl fun e _ => ?_
    rw [concatenate_pair_apply_right (s₁ := ⟨2, ![E, C]⟩) (s₂ := ⟨2, ![E, C]⟩) (1 : Fin 2) _ _ hcatE (ix2 e j) rfl rfl (ix2 e (⟨j.val - C, hjC⟩ : Fin C))
      (fun b hb => by match b with | ⟨0, _⟩ => rfl | ⟨1, _⟩ => exact absurd rfl hb)
      (by show (j.val - C) + C = j.val; omega)]
    rw [addf_apply, hBE]
    exact congrArg (· + b ⟨j.val - C, hjC⟩) (Cert.LibPlainDot.dotGeneral_apply dE hdE none .single EA W e ⟨j.val - C, hjC⟩)

end Cert.Aggregate

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.LibHostRead.lean ====
/-
  A few host layouts read at an entry, for any sizes: a scalar constant spread over an array; a length-d vector laid as
  one row and repeated over n rows; a column [n, 1] repeated across d columns.
-/
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal
import proofs.«107108_j75977971466801_2_alg».proof.Proof.LibConsts

noncomputable section

namespace Cert.HostRead

open Idealize.ShloMosaic Idealize.ShloMosaic.ValueIdx

variable {α : Type} {n d : ℕ}

/-- The zero word spread over any shape is zero everywhere. -/
theorem fill_zero_apply {T : Shape} (h : (⟨0, ![]⟩ : Shape).BroadcastsInDim T ![]) (i : T.Idx) :
    broadcastInDim T ![] h (constant (F := Ideal) ⟨0, ![]⟩ .f32 0x00000000#32) i = 0 := by
  rw [broadcastInDim_scalar_apply, constant_apply, Cert.Consts.ofBits_zero]

/-- The word of 1.0 spread over any shape is one everywhere. -/
theorem fill_one_apply {T : Shape} (h : (⟨0, ![]⟩ : Shape).BroadcastsInDim T ![]) (i : T.Idx) :
    broadcastInDim T ![] h (constant (F := Ideal) ⟨0, ![]⟩ .f32 0x3F800000#32) i = 1 := by
  rw [broadcastInDim_scalar_apply, constant_apply, Cert.Consts.ofBits_one, EReal.coe_one]

/-- A length-d vector laid as one row reads, at (0, j), the vector at j. -/
theorem asRow_apply (v : (⟨1, ![d]⟩ : Shape).Idx → α) (h : (⟨1, ![d]⟩ : Shape).BroadcastsInDim ⟨2, ![1, d]⟩ ![1])
    (z : Fin 1) (j : Fin d) : broadcastInDim ⟨2, ![1, d]⟩ ![1] h v (ix2 z j) = v (ix1 j) := by
  refine broadcastInDim_apply ![1] h v (ix2 z j) (ix1 j) ?_
  intro a
  match a with
  | ⟨0, _⟩ =>
    show j.val = if d = 1 then 0 else j.val
    split_ifs with hd
    · have := j.isLt; omega
    · rfl

/-- A length-d vector laid as one row and repeated over n rows reads, at (p, j), the vector at j. -/
theorem rows_apply (v : (⟨1, ![d]⟩ : Shape).Idx → α) (h₁ : (⟨1, ![d]⟩ : Shape).BroadcastsInDim ⟨2, ![1, d]⟩ ![1])
    (h₂ : (⟨2, ![1, d]⟩ : Shape).BroadcastsInDim ⟨2, ![n, d]⟩ ![0, 1]) (p : Fin n) (j : Fin d) :
    broadcastInDim ⟨2, ![n, d]⟩ ![0, 1] h₂ (broadcastInDim ⟨2, ![1, d]⟩ ![1] h₁ v) (ix2 p j) = v (ix1 j) :=
  (broadcastInDim_oneRow_apply h₂ _ p j).trans (asRow_apply v h₁ 0 j)

/-- A column repeated across d columns reads, at (p, j), the column at p. -/
theorem cols_apply (hn : n ≠ 1) (x : (⟨2, ![n, 1]⟩ : Shape).Idx → α)
    (h : (⟨2, ![n, 1]⟩ : Shape).BroadcastsInDim ⟨2, ![n, d]⟩ ![0, 1]) (p : Fin n) (j : Fin d) :
    broadcastInDim ⟨2, ![n, d]⟩ ![0, 1] h x (ix2 p j) = x (ix2 p (0 : Fin 1)) := by
  refine broadcastInDim_apply ![0, 1] h x (ix2 p j) (ix2 p (0 : Fin 1)) ?_
  intro a
  match a with
  | ⟨0, _⟩ =>
    show p.val = if n = 1 then 0 else p.val
    rw [if_neg hn]
  | ⟨1, _⟩ =>
    show (0 : ℕ) = if (1 : ℕ) = 1 then 0 else _
    simp

end Cert.HostRead

end
-- ==== Proof.LibNary.lean ====
/-
  A host operation over a literal family of three or of five buffers, read at its result.

  An operation of several operands (a concatenation) is printed over a family `![a, b, …]` of references, and its result
  is its function of the family `fun k => F (xs k)` of the operands' contents.  Under that binder the reference
  `![a, b, …] k` is no literal, so nothing more can be said of the contents there.  For a literal family the same result
  is the function of the contents listed one by one, each AT ITS OWN reference, where the contents of each operand can be
  read further.  The library states this for four operands; here are three and five, in the same words.
-/
import Idealize.ShloMosaic.Lib.StableHlo.Run

namespace Cert.LibNary

open Idealize.ShloMosaic Idealize.ShloMosaic.TcCoe Idealize.SL.Sem Idealize.ShloMosaic.StableHlo

variable {τ : Topo} {sig : RefSig} {Val : EltTy → Type}
variable {x a b c d y : Ref sig .tc}

/-- The result of an operation over three literal references, each operand's contents at its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The result of an operation over five literal references, each operand's contents at its own reference. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

end Cert.LibNary

/-- The contents of one buffer after a literal line of host operations, in one pass: every operation's result at its own
    result buffer is its function of its operands' contents, and at any other buffer what was there; an operation over
    three, four or five literal references is read operand by operand. -/
macro "after_results_each" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- What the one pass leaves unread — contents standing inside a pair of a concatenation's list, where a rewriting pass
    does not enter —, read by rewriting: each operation's result at its own result buffer to its function's value, at
    any other buffer to what was there, until none applies. -/
macro "after_results_rest" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))
-- ==== Proof.LibReadLine.lean ====
/-
  Reading one buffer after a straight line of host operations, when the line concatenates.

  A concatenation of two arrays is printed over a two-element list of (shape, array) pairs.  Written instead as a
  function cat2 of its two arrays, it is a term whose pieces stand as plain arguments, so that a single pass which reads
  every operation's result at its own buffer also reads the buffers the two pieces came from.
-/
import Idealize.ShloMosaic.Lib.StableHlo.Run
import proofs.«107108_j75977971466801_2_alg».proof.Proof.LibNary

namespace Cert.ReadLine

open Idealize.ShloMosaic

/-- The concatenation of two arrays along axis a, as a function of the two arrays. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem cat2_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

end Cert.ReadLine

/-- The contents of one buffer after a literal line of host operations, in one pass, two-piece concatenations folded
    into cat2 so that the pass goes on into their pieces. -/
macro "read_line" : tactic =>
  `(tactic| (simp (disch := decide) only [Idealize.ShloMosaic.StableHlo.after_cons, Idealize.ShloMosaic.StableHlo.after_nil,
      Cert.ReadLine.cat2_eq,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.LibNary.nary3_result', Idealize.ShloMosaic.StableHlo.nary4_result', Cert.LibNary.nary5_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))
-- ==== Proof.AggPair.lean ====
/-
  One layer's aggregated features in the two programs.

  The reference gives every edge the row (state of its source node ‖ encoded attributes) and scatter-adds the rows into
  the nodes; the kernel's program scatter-adds the states and the raw attributes separately, encodes the summed
  attributes once per node, adds the bias once per incoming edge, and concatenates.  For one index array, one state
  array, finite attributes, weights and bias, the two arrays are equal: LibAggregateSplit's law, read in the two programs'
  own names for their shapes and dimension numbers.
-/
import proofs.«107108_j75977971466801_2_alg».proof.KernelIdeal
import proofs.«107108_j75977971466801_2_alg».proof.ReferenceIdeal
import proofs.«107108_j75977971466801_2_alg».proof.Proof.Gen.KernelIdeal
import proofs.«107108_j75977971466801_2_alg».proof.Proof.Gen.ReferenceIdeal
import proofs.«107108_j75977971466801_2_alg».proof.Proof.LibAggregateSplit
import proofs.«107108_j75977971466801_2_alg».proof.Proof.LibHostRead
import proofs.«107108_j75977971466801_2_alg».proof.Proof.LibReadLine

noncomputable section

namespace Cert.AggPair

open Idealize.ShloMosaic Idealize.ShloMosaic.ValueIdx Cert.Spec Cert.LibRows Cert.ReadLine Cert.HostRead

/-- The reference's aggregated features are the kernel program's, for one index array src, one array Hg of gathered
    states, finite attributes ea, weights W and bias b. -/
theorem agg_eq (src : IVec ⟨1, ![850000]⟩ 32) (Hg : Mat 850000 128) (ea : Mat 850000 9) (W : Mat 9 128)
    (b : (⟨1, ![128]⟩ : Shape).Idx → EReal)
    (hea : ∀ i, ∃ x : ℝ, ea i = (x : EReal)) (hW : ∀ i, ∃ x : ℝ, W i = (x : EReal)) (hb : ∀ i, ∃ x : ℝ, b i = (x : EReal)) :
    Host.scatterAdd (F := Ideal) (φ := .f32) Cert.ReferenceIdeal.scatter_S50000x256_S850000x1_S850000x256_1_0_0_1
        (broadcastInDim Cert.ReferenceIdeal.S50000x256 ![] Cert.ReferenceIdeal.Gen.bcast_S_S50000x256 (constant (F := Ideal) Cert.ReferenceIdeal.S_ .f32 0x00000000#32))
        (broadcastInDim Cert.ReferenceIdeal.S850000x1 ![0] Cert.ReferenceIdeal.Gen.bcast_S850000_S850000x1_0 src)
        (cat2 Cert.ReferenceIdeal.S850000x256 1 Cert.ReferenceIdeal.S850000x128 Cert.ReferenceIdeal.S850000x128
          Cert.ReferenceIdeal.Gen.concatenates_S850000x128_S850000x128_S850000x256_d1 Hg
          (addf (Host.dotGeneral (F := Ideal) (φ₁ := .f32) (φ₂ := .f32) Cert.ReferenceIdeal.dot_S850000x9_S9x128_S850000x128_1_0_0_1_n_n none ea W)
            (broadcastInDim Cert.ReferenceIdeal.S850000x128 ![0, 1] Cert.ReferenceIdeal.Gen.bcast_S1x128_S850000x128_0_1
              (broadcastInDim Cert.ReferenceIdeal.S1x128 ![1] Cert.ReferenceIdeal.Gen.bcast_S128_S1x128_1 b))))
      = cat2 Cert.KernelIdeal.S50000x256 1 Cert.KernelIdeal.S50000x128 Cert.KernelIdeal.S50000x128
          Cert.KernelIdeal.Gen.concatenates_S50000x128_S50000x128_S50000x256_d1
          (Host.scatterAdd (F := Ideal) (φ := .f32) Cert.KernelIdeal.scatter_S50000x128_S850000x1_S850000x128_1_0_0_1
            (broadcastInDim Cert.KernelIdeal.S50000x128 ![] Cert.KernelIdeal.Gen.bcast_S_S50000x128 (constant (F := Ideal) Cert.KernelIdeal.S_ .f32 0x00000000#32))
            (broadcastInDim Cert.KernelIdeal.S850000x1 ![0] Cert.KernelIdeal.Gen.bcast_S850000_S850000x1_0 src) Hg)
          (addf (Host.dotGeneral (F := Ideal) (φ₁ := .f32) (φ₂ := .f32) Cert.KernelIdeal.dot_S50000x9_S9x128_S50000x128_1_0_0_1_n_n none
              (Host.scatterAdd (F := Ideal) (φ := .f32) Cert.KernelIdeal.scatter_S50000x9_S850000x1_S850000x9_1_0_0_1
                (broadcastInDim Cert.KernelIdeal.S50000x9 ![] Cert.KernelIdeal.Gen.bcast_S_S50000x9 (constant (F := Ideal) Cert.KernelIdeal.S_ .f32 0x00000000#32))
                (broadcastInDim Cert.KernelIdeal.S850000x1 ![0] Cert.KernelIdeal.Gen.bcast_S850000_S850000x1_0 src) ea) W)
            (mulf
              (broadcastInDim Cert.KernelIdeal.S50000x128 ![0, 1] Cert.KernelIdeal.Gen.bcast_S50000x1_S50000x128_0_1
                (Host.scatterAdd (F := Ideal) (φ := .f32) Cert.KernelIdeal.scatter_S50000x1_S850000x1_S850000x1_1_0_0_1
                  (broadcastInDim Cert.KernelIdeal.S50000x1 ![] Cert.KernelIdeal.Gen.bcast_S_S50000x1 (constant (F := Ideal) Cert.KernelIdeal.S_ .f32 0x00000000#32))
                  (broadcastInDim Cert.KernelIdeal.S850000x1 ![0] Cert.KernelIdeal.Gen.bcast_S850000_S850000x1_0 src)
                  (broadcastInDim Cert.KernelIdeal.S850000x1 ![] Cert.KernelIdeal.Gen.bcast_S_S850000x1 (constant (F := Ideal) Cert.KernelIdeal.S_ .f32 0x3F800000#32))))
              (broadcastInDim Cert.KernelIdeal.S50000x128 ![0, 1] Cert.KernelIdeal.Gen.bcast_S1x128_S50000x128_0_1
                (broadcastInDim Cert.KernelIdeal.S1x128 ![1] Cert.KernelIdeal.Gen.bcast_S128_S1x128_1 b)))) := by
  unfold cat2
  exact Cert.Aggregate.aggregate_split (N := 50000) (E := 850000) (K := 9) (C := 128) (C2 := 256) rfl
    _ Cert.ReferenceIdeal.scatter_S50000x256_S850000x1_S850000x256_1_0_0_1.wf rfl
    _ Cert.KernelIdeal.scatter_S50000x128_S850000x1_S850000x128_1_0_0_1.wf rfl
    _ Cert.KernelIdeal.scatter_S50000x9_S850000x1_S850000x9_1_0_0_1.wf rfl
    _ Cert.KernelIdeal.scatter_S50000x1_S850000x1_S850000x1_1_0_0_1.wf rfl
    _ rfl _ rfl _ _
    _ (fun i => fill_zero_apply _ i) _ (fun i => fill_zero_apply _ i) _ (fun i => fill_zero_apply _ i) _ (fun i => fill_zero_apply _ i)
    _ Hg ea W (fun j => b (ix1 j)) hea hW (fun j => hb _)
    _ (fun e j => rows_apply b _ _ e j) _ (fun r j => rows_apply b _ _ r j)
    _ (fun i => fill_one_apply _ i)
    _ (fun r j => cols_apply (by decide) _ _ r j)

end Cert.AggPair

end
-- ==== Proof.LibFiniteOps.lean ====
/-
  Finite entries are kept by the two host layouts that build the edge-attribute array: laying one array under another
  (every entry of the result is an entry of one of the two), and overwriting some entries of an array by entries of
  another (every entry of the result is an entry of one of the two).
-/
import Idealize.ShloMosaic.Lib.ValueIdx
import Idealize.ShloMosaic.Lib.Pipeline.Value
import Idealize.ShloMosaic.PureOps.Ideal

noncomputable section

namespace Cert.FiniteOps

open Idealize.ShloMosaic Idealize.ShloMosaic.ValueIdx

/-- Every entry is a real number. -/
def Fin' {s : Shape} (x : s.Idx → EReal) : Prop := ∀ i, ∃ r : ℝ, x i = (r : EReal)

variable {n₁ n₂ n d : ℕ}

/-- One array laid under another (concatenation along the rows) has finite entries when both have. -/
theorem concat_rows (h : Shape.Concatenates [(⟨2, ![n₁, d]⟩ : Shape), ⟨2, ![n₂, d]⟩] ⟨2, ![n, d]⟩ 0)
    (hn : n₁ + n₂ = n) (x : (⟨2, ![n₁, d]⟩ : Shape).Idx → EReal) (y : (⟨2, ![n₂, d]⟩ : Shape).Idx → EReal)
    (hx : Fin' x) (hy : Fin' y) : Fin' (concatenate ⟨2, ![n, d]⟩ 0 [⟨⟨2, ![n₁, d]⟩, x⟩, ⟨⟨2, ![n₂, d]⟩, y⟩] h) := by
  intro i
  obtain ⟨p, j, rfl⟩ : ∃ (p : Fin n) (j : Fin d), i = ix2 p j := ⟨i 0, i 1, eq_ix2 i⟩
  by_cases hp : p.val < n₁
  · rw [concatenate_pair_apply_left (s₁ := ⟨2, ![n₁, d]⟩) (s₂ := ⟨2, ![n₂, d]⟩) (0 : Fin 2) x y h (ix2 p j) rfl
      (ix2 (⟨p.val, hp⟩ : Fin n₁) j) (fun b => by match b with | ⟨0, _⟩ => rfl | ⟨1, _⟩ => rfl)]
    exact hx _
  · have hp2 : p.val - n₁ < n₂ := by have := p.isLt; omega
    rw [concatenate_pair_apply_right (s₁ := ⟨2, ![n₁, d]⟩) (s₂ := ⟨2, ![n₂, d]⟩) (0 : Fin 2) x y h (ix2 p j) rfl rfl
      (ix2 (⟨p.val - n₁, hp2⟩ : Fin n₂) j)
      (fun b hb => by match b with | ⟨0, _⟩ => exact absurd rfl hb | ⟨1, _⟩ => rfl)
      (by show (p.val - n₁) + n₁ = p.val; omega)]
    exact hy _

/-- Overwriting entries of x by entries of u (a scatter whose combiner returns the update) keeps entries finite. -/
theorem scatter_set {s si u : Shape} {w : ℕ} (D : ScatterDims s si u) (x : s.Idx → EReal) (idx : IVec si w)
    (upd : u.Idx → EReal) (hx : Fin' x) (hu : Fin' upd) : Fin' (Host.scatter D (fun _ b => b) x idx upd) := by
  unfold Host.scatter
  generalize List.finRange u.numel = l
  induction l generalizing x with
  | nil => exact hx
  | cons a l ih =>
    rw [List.foldl_cons]
    refine ih _ ?_
    cases hr : D.resultIdx? (u.rowMajor.symm a) idx with
    | none => exact hx
    | some i₀ =>
      intro i'
      by_cases he : i' = i₀
      · simp only [he, if_true]; exact hu _
      · simp only [he, if_false]; exact hx _

end Cert.FiniteOps

end
-- ==== Proof.DensePair.lean ====
/-
  The first stage of each layer in the two programs: the aggregated features through the first dense map.

  The reference scatter-adds the concatenated edge rows and applies the dense map A · W₁ + b₁ on the host; the kernel's
  program builds the aggregated features half by half (LibAggregateSplit's law, in the programs' names: AggPair) and
  applies the same dense map in a tiled kernel whose value is Cert.Spec.dense of the whole arrays.  Entry by entry both
  are (∑ q, A (p, q) · W₁ (q, j)) + b₁ j of one array A.
-/
import proofs.«107108_j75977971466801_2_alg».proof.Proof.Gen.KernelIdeal.Frame
import proofs.«107108_j75977971466801_2_alg».proof.Proof.RefSplit
import proofs.«107108_j75977971466801_2_alg».proof.Proof.AggPair
import proofs.«107108_j75977971466801_2_alg».proof.Proof.LibLayerSpec
import proofs.«107108_j75977971466801_2_alg».proof.Proof.LibHostKeeps
import Idealize.ShloMosaic.Lib.ValueLayout
import proofs.«107108_j75977971466801_2_alg».proof.Proof.LibFiniteOps

set_option maxRecDepth 16384

noncomputable section

open scoped BigOperators

namespace Cert.DensePair

open Idealize.ShloMosaic Idealize.ShloMosaic.TcCoe Idealize.SL.Sem Idealize.ShloMosaic.ValueIdx
open Cert.ReferenceIdeal.RefRun Cert.FiniteOps

/-- A host dot_general with plain dimension numbers, at an entry: the sum over the inner index. -/
theorem hostDot_apply {n k d : ℕ} {φ₁ φ₂ : FTy} (D : DotDims ⟨2, ![n, k]⟩ ⟨2, ![k, d]⟩ ⟨2, ![n, d]⟩) (hD : D = DotDims.plain n k d)
    (lhs : FVec Ideal ⟨2, ![n, k]⟩ φ₁) (rhs : FVec Ideal ⟨2, ![k, d]⟩ φ₂) (p : Fin n) (c : Fin d) :
    Host.dotGeneral (F := Ideal) D none lhs rhs (ix2 p c) = ∑ q : Fin k, lhs (ix2 p q) * rhs (ix2 q c) :=
  Cert.LibPlainDot.dotGeneral_apply D hD none .single lhs rhs p c

set_option maxHeartbeats 4000000 in
/-- Layer 0, first stage: the kernel program's first stretch followed by its first region's dense map gives the array
    the reference's first segment ends with, from launch contents that agree on the arguments, for finite edge
    attributes, encoder weights and encoder bias. -/
theorem dense_pair0 (Xk : Valuation Cert.KernelIdeal.τ Cert.KernelIdeal.sig (Elt Ideal)) (Xr : Valuation Cert.ReferenceIdeal.τ Cert.ReferenceIdeal.sig (Elt Ideal))
    (h0 : Xk (Proc.devRef .tc Cert.KernelIdeal.main_arg0) = Xr (Proc.devRef .tc Cert.ReferenceIdeal.main_arg0))
    (h1 : Xk (Proc.devRef .tc Cert.KernelIdeal.main_arg1) = Xr (Proc.devRef .tc Cert.ReferenceIdeal.main_arg1))
    (h3 : Xk (Proc.devRef .tc Cert.KernelIdeal.main_arg3) = Xr (Proc.devRef .tc Cert.ReferenceIdeal.main_arg3))
    (h4 : Xk (Proc.devRef .tc Cert.KernelIdeal.main_arg4) = Xr (Proc.devRef .tc Cert.ReferenceIdeal.main_arg4))
    (h5 : Xk (Proc.devRef .tc Cert.KernelIdeal.main_arg5) = Xr (Proc.devRef .tc Cert.ReferenceIdeal.main_arg5))
    (h6 : Xk (Proc.devRef .tc Cert.KernelIdeal.main_arg6) = Xr (Proc.devRef .tc Cert.ReferenceIdeal.main_arg6))
    (h7 : Xk (Proc.devRef .tc Cert.KernelIdeal.main_arg7) = Xr (Proc.devRef .tc Cert.ReferenceIdeal.main_arg7))
    (h8 : Xk (Proc.devRef .tc Cert.KernelIdeal.main_arg8) = Xr (Proc.devRef .tc Cert.ReferenceIdeal.main_arg8))
    (f3 : Fin' (s := Cert.ReferenceIdeal.S800000x9) (Xr (Proc.devRef .tc Cert.ReferenceIdeal.main_arg3)))
    (f5 : Fin' (s := Cert.ReferenceIdeal.S2x9x128) (Xr (Proc.devRef .tc Cert.ReferenceIdeal.main_arg5)))
    (f6 : Fin' (s := Cert.ReferenceIdeal.S2x128) (Xr (Proc.devRef .tc Cert.ReferenceIdeal.main_arg6))) :
    Cert.Spec.dense
      (StableHlo.after (Cert.KernelIdeal.Gen.hostOps0 (F := Ideal)) Xk (Proc.devRef .tc Cert.KernelIdeal.main_v46))
      (StableHlo.after (Cert.KernelIdeal.Gen.hostOps0 (F := Ideal)) Xk (Proc.devRef .tc Cert.KernelIdeal.main_v48))
      (StableHlo.after (Cert.KernelIdeal.Gen.hostOps0 (F := Ideal)) Xk (Proc.devRef .tc Cert.KernelIdeal.main_v51))
      = StableHlo.after (opsA (F := Ideal)) Xr (Proc.devRef .tc Cert.ReferenceIdeal.main_v45) := by
  simp only [Cert.KernelIdeal.Gen.hostOps0, opsA]
  read_line
  rw [h0, h1, h3, h4, h5, h6, h7, h8]
  rw [Cert.AggPair.agg_eq]
  · funext i
    obtain ⟨p, j, rfl⟩ : ∃ (p : Fin 50000) (j : Fin 256), i = ix2 p j := ⟨i 0, i 1, eq_ix2 i⟩
    rw [Cert.Spec.dense_apply, addf_apply]
    rw [hostDot_apply Cert.ReferenceIdeal.dot_S50000x256_S256x256_S50000x256_1_0_0_1_n_n rfl, Cert.HostRead.rows_apply]
    refine congr (congrArg _ ?_) ?_
    · rfl
    · exact shapeCast_a_1a_apply _ _ 0 j
  · unfold Cert.ReadLine.cat2
    refine concat_rows (n₁ := 800000) (n₂ := 50000) (n := 850000) (d := 9) _ rfl _ _ f3 (scatter_set _ _ _ _ ?_ ?_)
    · intro i; exact ⟨0, by rw [Cert.HostRead.fill_zero_apply]; rfl⟩
    · intro i; exact ⟨1, by rw [Cert.HostRead.fill_one_apply]; rfl⟩
  · exact fun i => f5 _
  · exact fun i => f6 _

set_option maxHeartbeats 4000000 in
/-- Layer 1, first stage: the kernel program's third stretch followed by its third region's dense map gives the array
    the reference's third segment ends with, from contents that agree on the previous layer's states, on the two index
    arrays and on the arguments, where the kernel program holds the summed attributes and the in-degrees that the
    reference's attribute array determines; for finite attributes, encoder weights and encoder bias. -/
theorem dense_pair1 (Xk : Valuation Cert.KernelIdeal.τ Cert.KernelIdeal.sig (Elt Ideal)) (Xr : Valuation Cert.ReferenceIdeal.τ Cert.ReferenceIdeal.sig (Elt Ideal))
    (hh : Xk (Proc.devRef .tc Cert.KernelIdeal.main_v76) = Xr (Proc.devRef .tc Cert.ReferenceIdeal.main_v84))
    (hs : Xk (Proc.devRef .tc Cert.KernelIdeal.main_v3) = Xr (Proc.devRef .tc Cert.ReferenceIdeal.main_v3))
    (hd : Xk (Proc.devRef .tc Cert.KernelIdeal.main_v6) = Xr (Proc.devRef .tc Cert.ReferenceIdeal.main_v6))
    (he : Xk (Proc.devRef .tc Cert.KernelIdeal.main_v14) = Host.scatterAdd (F := Ideal) (φ := .f32) Cert.KernelIdeal.scatter_S50000x9_S850000x1_S850000x9_1_0_0_1
        (broadcastInDim Cert.KernelIdeal.S50000x9 ![] Cert.KernelIdeal.Gen.bcast_S_S50000x9 (constant (F := Ideal) Cert.KernelIdeal.S_ .f32 0x00000000#32))
        (broadcastInDim Cert.KernelIdeal.S850000x1 ![0] Cert.KernelIdeal.Gen.bcast_S850000_S850000x1_0 (Xr (Proc.devRef .tc Cert.ReferenceIdeal.main_v3)))
        (Xr (Proc.devRef .tc Cert.ReferenceIdeal.main_v11)))
    (hg : Xk (Proc.devRef .tc Cert.KernelIdeal.main_v18) = Host.scatterAdd (F := Ideal) (φ := .f32) Cert.KernelIdeal.scatter_S50000x1_S850000x1_S850000x1_1_0_0_1
        (broadcastInDim Cert.KernelIdeal.S50000x1 ![] Cert.KernelIdeal.Gen.bcast_S_S50000x1 (constant (F := Ideal) Cert.KernelIdeal.S_ .f32 0x00000000#32))
        (broadcastInDim Cert.KernelIdeal.S850000x1 ![0] Cert.KernelIdeal.Gen.bcast_S850000_S850000x1_0 (Xr (Proc.devRef .tc Cert.ReferenceIdeal.main_v3)))
        (broadcastInDim Cert.KernelIdeal.S850000x1 ![] Cert.KernelIdeal.Gen.bcast_S_S850000x1 (constant (F := Ideal) Cert.KernelIdeal.S_ .f32 0x3F800000#32)))
    (h5 : Xk (Proc.devRef .tc Cert.KernelIdeal.main_arg5) = Xr (Proc.devRef .tc Cert.ReferenceIdeal.main_arg5))
    (h6 : Xk (Proc.devRef .tc Cert.KernelIdeal.main_arg6) = Xr (Proc.devRef .tc Cert.ReferenceIdeal.main_arg6))
    (h7 : Xk (Proc.devRef .tc Cert.KernelIdeal.main_arg7) = Xr (Proc.devRef .tc Cert.ReferenceIdeal.main_arg7))
    (h8 : Xk (Proc.devRef .tc Cert.KernelIdeal.main_arg8) = Xr (Proc.devRef .tc Cert.ReferenceIdeal.main_arg8))
    (f11 : Fin' (s := Cert.ReferenceIdeal.S850000x9) (Xr (Proc.devRef .tc Cert.ReferenceIdeal.main_v11)))
    (f5 : Fin' (s := Cert.ReferenceIdeal.S2x9x128) (Xr (Proc.devRef .tc Cert.ReferenceIdeal.main_arg5)))
    (f6 : Fin' (s := Cert.ReferenceIdeal.S2x128) (Xr (Proc.devRef .tc Cert.ReferenceIdeal.main_arg6))) :
    Cert.Spec.dense
      (StableHlo.after (Cert.KernelIdeal.Gen.hostOps2 (F := Ideal)) Xk (Proc.devRef .tc Cert.KernelIdeal.main_v97))
      (StableHlo.after (Cert.KernelIdeal.Gen.hostOps2 (F := Ideal)) Xk (Proc.devRef .tc Cert.KernelIdeal.main_v99))
      (StableHlo.after (Cert.KernelIdeal.Gen.hostOps2 (F := Ideal)) Xk (Proc.devRef .tc Cert.KernelIdeal.main_v102))
      = StableHlo.after (opsC (F := Ideal)) Xr (Proc.devRef .tc Cert.ReferenceIdeal.main_v111) := by
  simp only [Cert.KernelIdeal.Gen.hostOps2, opsC]
  read_line
  rw [hh, hs, hd, he, hg, h5, h6, h7, h8]
  rw [Cert.AggPair.agg_eq]
  · funext i
    obtain ⟨p, j, rfl⟩ : ∃ (p : Fin 50000) (j : Fin 256), i = ix2 p j := ⟨i 0, i 1, eq_ix2 i⟩
    rw [Cert.Spec.dense_apply, addf_apply]
    rw [hostDot_apply Cert.ReferenceIdeal.dot_S50000x256_S256x256_S50000x256_1_0_0_1_n_n rfl, Cert.HostRead.rows_apply]
    refine congr (congrArg _ ?_) ?_
    · rfl
    · exact shapeCast_a_1a_apply _ _ 0 j
  · exact f11
  · exact fun i => f5 _
  · exact fun i => f6 _

end Cert.DensePair

end
-- ==== Proof.NormPair.lean ====
/-
  The second stage of a layer, kernel side against reference side, over the extended reals.

  Both programs take the first dense map's output Z (50000 × 256) and compute, by the same host operations, the column
  means mu = (sum of the rows) / 50000 and variances var = (sum of the rows of (Z − mu)²) / 50000. Then both compute
      max(((Z − mu) · rsqrt(var + ε)) · g + β, 0) · W₂ + b₂
  (and in layer 0 its positive part): the reference by host operations — each vector broadcast to a row and the row to
  every row, subtract, multiply, the reciprocal square root, the outlined rectifier (the maximum with a broadcast zero),
  the matrix product, the bias row added —, the kernel side inside a kernel region whose value is the function
  Cert.Spec.layerOut (under Cert.Spec.relu in layer 0) of the region's seven input arrays, the vectors reshaped to
  one-row matrices. No law of arithmetic is involved: at each entry (p, j) both are the same expression, once a vector
  read through "broadcast to a row, then to every row" at (p, q) and through "reshape to a row" at (0, q) is seen to be
  the vector at q. This is stated once for arbitrary arrays (stage_apply) and then instantiated at the two layers, the
  statistics left as the opaque host terms they are on both sides.
-/
import Idealize.ShloMosaic.Lib.ValueIdx
import Idealize.ShloMosaic.Lib.KernelVsHost
import Idealize.ShloMosaic.Lib.IdealHost
import Idealize.ShloMosaic.Lib.Pipeline.Value
import Idealize.ShloMosaic.Lib.ValueLayout
import proofs.«107108_j75977971466801_2_alg».proof.Proof.LibLayerSpec
import proofs.«107108_j75977971466801_2_alg».proof.Proof.LibPlainDot
import proofs.«107108_j75977971466801_2_alg».proof.Proof.LibConsts
import proofs.«107108_j75977971466801_2_alg».proof.Proof.LibHostKeeps
import proofs.«107108_j75977971466801_2_alg».proof.Proof.LibReadLine
import proofs.«107108_j75977971466801_2_alg».proof.Proof.RefSplit
import proofs.«107108_j75977971466801_2_alg».proof.Proof.Gen.KernelIdeal.Launch

noncomputable section

open scoped BigOperators

namespace Cert.NormPair

open Idealize.ShloMosaic Idealize.ShloMosaic.ValueIdx

variable {α : Type}

/-- A vector broadcast to one row reads, at (u, t), the vector at t. -/
theorem broadcastInDim_row_apply {n : ℕ} (h : (⟨1, ![n]⟩ : Shape).BroadcastsInDim ⟨2, ![1, n]⟩ ![1])
    (y : (⟨1, ![n]⟩ : Shape).Idx → α) (u : Fin 1) (t : Fin n) :
    broadcastInDim ⟨2, ![1, n]⟩ ![1] h y (ix2 u t) = y (ix1 t) := by
  refine broadcastInDim_apply ![1] h y (ix2 u t) (ix1 t) ?_
  intro a
  fin_cases a
  show t.val = if n = 1 then 0 else t.val
  split
  · omega
  · rfl

/-- A vector broadcast to one row and the row to every row reads, at (p, t), the vector at t. -/
theorem broadcastInDim_rows_apply {m n : ℕ} (h₁ : (⟨1, ![n]⟩ : Shape).BroadcastsInDim ⟨2, ![1, n]⟩ ![1])
    (h₂ : (⟨2, ![1, n]⟩ : Shape).BroadcastsInDim ⟨2, ![m, n]⟩ ![0, 1]) (y : (⟨1, ![n]⟩ : Shape).Idx → α) (p : Fin m) (t : Fin n) :
    broadcastInDim ⟨2, ![m, n]⟩ ![0, 1] h₂ (broadcastInDim ⟨2, ![1, n]⟩ ![1] h₁ y) (ix2 p t) = y (ix1 t) := by
  rw [broadcastInDim_oneRow_apply, broadcastInDim_row_apply]

variable {n k d : ℕ}

/-- The second stage of a layer as the host computes it — centre each column at mu, scale by rsqrt (var + ε) and by g,
    shift by β, positive part, matrix product with W, the row b added — is, entry by entry, the function layerOut of
    the same arrays, the five vectors laid out as one-row matrices. Both are the same formula at each entry. -/
theorem stage_apply (e : BitVec 32)
    (Z : FVec Ideal ⟨2, ![n, k]⟩ .f32) (mu var g β : FVec Ideal ⟨1, ![k]⟩ .f32)
    (W : FVec Ideal ⟨2, ![k, d]⟩ .f32) (b : FVec Ideal ⟨1, ![d]⟩ .f32)
    (D : DotDims ⟨2, ![n, k]⟩ ⟨2, ![k, d]⟩ ⟨2, ![n, d]⟩) (hD : D = DotDims.plain n k d)
    (hk₁ : (⟨1, ![k]⟩ : Shape).BroadcastsInDim ⟨2, ![1, k]⟩ ![1])
    (hk₂ : (⟨2, ![1, k]⟩ : Shape).BroadcastsInDim ⟨2, ![n, k]⟩ ![0, 1])
    (hd₁ : (⟨1, ![d]⟩ : Shape).BroadcastsInDim ⟨2, ![1, d]⟩ ![1])
    (hd₂ : (⟨2, ![1, d]⟩ : Shape).BroadcastsInDim ⟨2, ![n, d]⟩ ![0, 1])
    (hε : (⟨0, ![]⟩ : Shape).BroadcastsInDim ⟨1, ![k]⟩ ![])
    (h0 : (⟨0, ![]⟩ : Shape).BroadcastsInDim ⟨2, ![n, k]⟩ ![])
    (ck : (⟨1, ![k]⟩ : Shape).ShapeCasts ⟨2, ![1, k]⟩) (cd : (⟨1, ![d]⟩ : Shape).ShapeCasts ⟨2, ![1, d]⟩)
    (p : Fin n) (j : Fin d) :
    addf (Host.dotGeneral D none
        (maximumf
          (addf
            (mulf
              (mulf (subf Z (broadcastInDim ⟨2, ![n, k]⟩ ![0, 1] hk₂ (broadcastInDim ⟨2, ![1, k]⟩ ![1] hk₁ mu)))
                (broadcastInDim ⟨2, ![n, k]⟩ ![0, 1] hk₂ (broadcastInDim ⟨2, ![1, k]⟩ ![1] hk₁
                  (Host.rsqrt (addf var (broadcastInDim ⟨1, ![k]⟩ ![] hε (constant (F := Ideal) ⟨0, ![]⟩ .f32 e)))))))
              (broadcastInDim ⟨2, ![n, k]⟩ ![0, 1] hk₂ (broadcastInDim ⟨2, ![1, k]⟩ ![1] hk₁ g)))
            (broadcastInDim ⟨2, ![n, k]⟩ ![0, 1] hk₂ (broadcastInDim ⟨2, ![1, k]⟩ ![1] hk₁ β)))
          (broadcastInDim ⟨2, ![n, k]⟩ ![] h0 (constant (F := Ideal) ⟨0, ![]⟩ .f32 0x00000000#32)))
        W)
      (broadcastInDim ⟨2, ![n, d]⟩ ![0, 1] hd₂ (broadcastInDim ⟨2, ![1, d]⟩ ![1] hd₁ b)) (ix2 p j)
      = Cert.Spec.layerOut (Ideal.ofBits .f32 e) Z (shapeCast ⟨2, ![1, k]⟩ mu ck) (shapeCast ⟨2, ![1, k]⟩ var ck)
          (shapeCast ⟨2, ![1, k]⟩ g ck) (shapeCast ⟨2, ![1, k]⟩ β ck) W (shapeCast ⟨2, ![1, d]⟩ b cd) (ix2 p j) := by
  rw [addf_apply, broadcastInDim_rows_apply]
  simp only [Host.dotGeneral]
  rw [Cert.LibPlainDot.dotGeneral_apply D hD]
  unfold Cert.Spec.layerOut
  rw [Cert.Spec.dense_apply, shapeCast_a_1a_apply]
  congr 1
  refine Finset.sum_congr rfl fun q _ => ?_
  rw [Cert.Spec.normRelu_apply, maximumf_apply, addf_apply, mulf_apply, mulf_apply, subf_apply,
    broadcastInDim_rows_apply, broadcastInDim_rows_apply, broadcastInDim_rows_apply, broadcastInDim_rows_apply,
    broadcastInDim_scalar_apply, constant_apply, Cert.Consts.ofBits_zero,
    shapeCast_a_1a_apply, shapeCast_a_1a_apply, shapeCast_a_1a_apply, shapeCast_a_1a_apply]
  show _ = max ((Z (ix2 p q) - mu (ix1 q)) * Ideal.rsqrt (var (ix1 q) + Ideal.ofBits .f32 e) * g (ix1 q) + β (ix1 q)) 0 * _
  rfl

open Idealize.ShloMosaic.StableHlo Cert.LibHostKeeps

set_option maxRecDepth 8192 in
set_option maxHeartbeats 2000000 in
/-- Layer 0, second stage. The kernel side's region computes relu ∘ layerOut of its seven input arrays, which the host
    lines before it prepare from the first dense map's output Z and the parameters; the reference computes the same
    quantities by host operations alone. From equal Z and equal parameters the two results are equal: the column means and
    variances are the same host terms of Z on both sides, and the rest is the same formula entry by entry. -/
theorem norm_pair0 (Xk : Valuation Cert.KernelIdeal.τ Cert.KernelIdeal.sig (Elt Ideal)) (Xr : Valuation Cert.ReferenceIdeal.τ Cert.ReferenceIdeal.sig (Elt Ideal))
    (hz : Xk (Proc.devRef .tc Cert.KernelIdeal.main_v52) = Xr (Proc.devRef .tc Cert.ReferenceIdeal.main_v45))
    (h9 : Xk (Proc.devRef .tc Cert.KernelIdeal.main_arg9) = Xr (Proc.devRef .tc Cert.ReferenceIdeal.main_arg9))
    (h10 : Xk (Proc.devRef .tc Cert.KernelIdeal.main_arg10) = Xr (Proc.devRef .tc Cert.ReferenceIdeal.main_arg10))
    (h11 : Xk (Proc.devRef .tc Cert.KernelIdeal.main_arg11) = Xr (Proc.devRef .tc Cert.ReferenceIdeal.main_arg11))
    (h12 : Xk (Proc.devRef .tc Cert.KernelIdeal.main_arg12) = Xr (Proc.devRef .tc Cert.ReferenceIdeal.main_arg12)) :
    Cert.Spec.relu (Cert.Spec.layerOut (Ideal.ofBits .f32 0x3727C5AC#32)
        (StableHlo.after (Cert.KernelIdeal.Gen.hostOps1 (F := Ideal)) Xk (Proc.devRef .tc Cert.KernelIdeal.main_v52)) (StableHlo.after (Cert.KernelIdeal.Gen.hostOps1 (F := Ideal)) Xk (Proc.devRef .tc Cert.KernelIdeal.main_v71))
        (StableHlo.after (Cert.KernelIdeal.Gen.hostOps1 (F := Ideal)) Xk (Proc.devRef .tc Cert.KernelIdeal.main_v72)) (StableHlo.after (Cert.KernelIdeal.Gen.hostOps1 (F := Ideal)) Xk (Proc.devRef .tc Cert.KernelIdeal.main_v73))
        (StableHlo.after (Cert.KernelIdeal.Gen.hostOps1 (F := Ideal)) Xk (Proc.devRef .tc Cert.KernelIdeal.main_v74)) (StableHlo.after (Cert.KernelIdeal.Gen.hostOps1 (F := Ideal)) Xk (Proc.devRef .tc Cert.KernelIdeal.main_v68))
        (StableHlo.after (Cert.KernelIdeal.Gen.hostOps1 (F := Ideal)) Xk (Proc.devRef .tc Cert.KernelIdeal.main_v75)))
      = StableHlo.after (Cert.ReferenceIdeal.RefRun.opsB (F := Ideal)) Xr (Proc.devRef .tc Cert.ReferenceIdeal.main_v84) := by
  -- both sides as the operations' composed terms of the lines' input buffers; the outlined rectifier's carriages dropped
  simp only [Cert.ReferenceIdeal.RefRun.opsB, Cert.KernelIdeal.Gen.hostOps1]
  read_line
  drop_casts
  -- … of the SAME input arrays
  rw [hz, h9, h10, h11, h12]
  funext i
  obtain ⟨p, j, rfl⟩ : ∃ (p : Fin 50000) (j : Fin 128), i = ix2 p j := ⟨i 0, i 1, eq_ix2 i⟩
  rw [Cert.Spec.relu_apply, maximumf_apply, broadcastInDim_scalar_apply, constant_apply, Cert.Consts.ofBits_zero]
  refine congrArg (fun x : EReal => max x 0) ?_
  -- the means, variances and parameter slices are the same terms on both sides (the two programs' names for one shape and
  -- one shape fact unfold to the same); the rest is stage_apply
  exact (stage_apply (n := 50000) (k := 256) (d := 128) 0x3727C5AC#32 _ _ _ _ _ _ _ _ rfl _ _ _ _ _ _ _ _ p j).symm

set_option maxRecDepth 8192 in
set_option maxHeartbeats 2000000 in
/-- Layer 1, second stage: the same, from layer 1's first dense map and the parameters' second slices; the last layer
    has no closing positive part on either side. -/
theorem norm_pair1 (Xk : Valuation Cert.KernelIdeal.τ Cert.KernelIdeal.sig (Elt Ideal)) (Xr : Valuation Cert.ReferenceIdeal.τ Cert.ReferenceIdeal.sig (Elt Ideal))
    (hz : Xk (Proc.devRef .tc Cert.KernelIdeal.main_v103) = Xr (Proc.devRef .tc Cert.ReferenceIdeal.main_v111))
    (h9 : Xk (Proc.devRef .tc Cert.KernelIdeal.main_arg9) = Xr (Proc.devRef .tc Cert.ReferenceIdeal.main_arg9))
    (h10 : Xk (Proc.devRef .tc Cert.KernelIdeal.main_arg10) = Xr (Proc.devRef .tc Cert.ReferenceIdeal.main_arg10))
    (h11 : Xk (Proc.devRef .tc Cert.KernelIdeal.main_arg11) = Xr (Proc.devRef .tc Cert.ReferenceIdeal.main_arg11))
    (h12 : Xk (Proc.devRef .tc Cert.KernelIdeal.main_arg12) = Xr (Proc.devRef .tc Cert.ReferenceIdeal.main_arg12)) :
    Cert.Spec.layerOut (Ideal.ofBits .f32 0x3727C5AC#32)
        (StableHlo.after (Cert.KernelIdeal.Gen.hostOps3 (F := Ideal)) Xk (Proc.devRef .tc Cert.KernelIdeal.main_v103)) (StableHlo.after (Cert.KernelIdeal.Gen.hostOps3 (F := Ideal)) Xk (Proc.devRef .tc Cert.KernelIdeal.main_v122))
        (StableHlo.after (Cert.KernelIdeal.Gen.hostOps3 (F := Ideal)) Xk (Proc.devRef .tc Cert.KernelIdeal.main_v123)) (StableHlo.after (Cert.KernelIdeal.Gen.hostOps3 (F := Ideal)) Xk (Proc.devRef .tc Cert.KernelIdeal.main_v124))
        (StableHlo.after (Cert.KernelIdeal.Gen.hostOps3 (F := Ideal)) Xk (Proc.devRef .tc Cert.KernelIdeal.main_v125)) (StableHlo.after (Cert.KernelIdeal.Gen.hostOps3 (F := Ideal)) Xk (Proc.devRef .tc Cert.KernelIdeal.main_v119))
        (StableHlo.after (Cert.KernelIdeal.Gen.hostOps3 (F := Ideal)) Xk (Proc.devRef .tc Cert.KernelIdeal.main_v126))
      = StableHlo.after (Cert.ReferenceIdeal.RefRun.opsD (F := Ideal)) Xr (Proc.devRef .tc Cert.ReferenceIdeal.main_v149) := by
  simp only [Cert.ReferenceIdeal.RefRun.opsD, Cert.KernelIdeal.Gen.hostOps3]
  read_line
  drop_casts
  rw [hz, h9, h10, h11, h12]
  funext i
  obtain ⟨p, j, rfl⟩ : ∃ (p : Fin 50000) (j : Fin 128), i = ix2 p j := ⟨i 0, i 1, eq_ix2 i⟩
  exact (stage_apply (n := 50000) (k := 256) (d := 128) 0x3727C5AC#32 _ _ _ _ _ _ _ _ rfl _ _ _ _ _ _ _ _ p j).symm

end Cert.NormPair

end
-- ==== Proof.HeadPair.lean ====
/-
  The read-out head of the two programs.

  From the last layer's node states h [50000, 128] and the graph index of each node, both programs compute by the same
  host operations the per-graph node counts, the per-graph sums of the states, the summary
  σ = 1 / (1 + exp (−(sum / max (count, 1)))) [256, 128], the cyclic shift (g + 1) mod 256 of the graph numbers, and the
  shifted summary σ' (the rows of σ picked by the shifted numbers).  They differ in one place.  The reference picks, for
  every node, the row of σ (of σ') of the node's graph and multiplies the [50000, 128] result by the discriminator
  matrix W on the right; the kernel's program multiplies σ (σ') by W first and picks the node's row of the [256, 128]
  product.  Picking whole rows commutes with a matrix product on the right — entry (e, c) of either is
  ∑ q, σ (row e, q) · W (q, c) — so the two [50000, 128] arrays are equal (gather_dot, from Cert.Aggregate.gather_mm).
  Both programs then finish alike: the row sums of h ⊙ (that array), for σ and for σ', stacked as the two rows of the
  result.

  head_pair: entered with equal node states, graph indices and discriminator matrices, the kernel program's three closing
  stretches of host operations and the reference's closing stretch leave equal result arrays.  Each side's result is
  read as the composed term of its operations over the three entry arrays; the kernel side's two picks-of-products are
  rewritten by the law; what remains is the same term on both sides, the two programs naming their shapes and
  dimension numbers apart.  No sum, scatter or exponential is opened.
-/
import proofs.«107108_j75977971466801_2_alg».proof.Proof.Gen.KernelIdeal.Launch
import proofs.«107108_j75977971466801_2_alg».proof.Proof.RefSplit
import proofs.«107108_j75977971466801_2_alg».proof.Proof.LibAggregateLaw
import proofs.«107108_j75977971466801_2_alg».proof.Proof.LibPlainDot
import proofs.«107108_j75977971466801_2_alg».proof.Proof.LibReadLine
import proofs.«107108_j75977971466801_2_alg».proof.Proof.LibHostKeeps

set_option maxRecDepth 16384

noncomputable section

namespace Cert.HeadPair

open Idealize.ShloMosaic Idealize.ShloMosaic.TcCoe Idealize.SL.Sem Idealize.ShloMosaic.StableHlo
open Cert.ReadLine

/-- Folding a line made of two pieces is folding the pieces in turn. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih (op.result V)

open Cert.Spec Cert.LibRows Idealize.ShloMosaic.ValueIdx in
/-- Picking rows of S · W by an index array is (the rows of S picked by the index array) · W, in the two programs' own
    dimension numbers: a [256, 128] matrix S, a [128, 128] matrix W, 50000 picked rows. -/
theorem gather_dot (S : Mat 256 128) (W : Mat 128 128) (I : IVec ⟨2, ![50000, 1]⟩ 32) :
    Host.gather Cert.KernelIdeal.gather_S256x128_S50000x1_S50000x128_1_0_n_n_0_1_1128
        (Host.dotGeneral (F := Ideal) (φ₁ := .f32) (φ₂ := .f32)
          Cert.KernelIdeal.dot_S256x128_S128x128_S256x128_1_0_0_1_n_n none S W) I
      = Host.dotGeneral (F := Ideal) (φ₁ := .f32) (φ₂ := .f32)
          Cert.ReferenceIdeal.dot_S50000x128_S128x128_S50000x128_1_0_0_1_n_n none
          (Host.gather Cert.ReferenceIdeal.gather_S256x128_S50000x1_S50000x128_1_0_n_n_0_1_1128 S I) W := by
  have e1 : Host.dotGeneral (F := Ideal) (φ₁ := .f32) (φ₂ := .f32)
      Cert.KernelIdeal.dot_S256x128_S128x128_S256x128_1_0_0_1_n_n none S W = mm S W := by
    funext i
    obtain ⟨p, j, rfl⟩ : ∃ (p : Fin 256) (j : Fin 128), i = ix2 p j := ⟨i 0, i 1, eq_ix2 i⟩
    exact Cert.LibPlainDot.dotGeneral_apply _ rfl none _ S W p j
  have e2 : ∀ X : Mat 50000 128, Host.dotGeneral (F := Ideal) (φ₁ := .f32) (φ₂ := .f32)
      Cert.ReferenceIdeal.dot_S50000x128_S128x128_S50000x128_1_0_0_1_n_n none X W = mm X W := by
    intro X
    funext i
    obtain ⟨p, j, rfl⟩ : ∃ (p : Fin 50000) (j : Fin 128), i = ix2 p j := ⟨i 0, i 1, eq_ix2 i⟩
    exact Cert.LibPlainDot.dotGeneral_apply _ rfl none _ X W p j
  rw [e1, e2]
  exact Cert.Aggregate.gather_mm (N := 256) (K := 128) (C := 128) (E := 50000) (by decide)
    Cert.ReferenceIdeal.gather_S256x128_S50000x1_S50000x128_1_0_n_n_0_1_1128.wf
    Cert.KernelIdeal.gather_S256x128_S50000x1_S50000x128_1_0_n_n_0_1_1128.wf S W I

set_option maxHeartbeats 1000000 in
/-- Entered with equal node states, graph indices and discriminator matrices, the two programs' heads leave equal
    results. -/
theorem head_pair (Xk : Valuation Cert.KernelIdeal.τ Cert.KernelIdeal.sig (Elt Ideal))
    (Xr : Valuation Cert.ReferenceIdeal.τ Cert.ReferenceIdeal.sig (Elt Ideal))
    (hh : Xk (Proc.devRef .tc Cert.KernelIdeal.main_v127) = Xr (Proc.devRef .tc Cert.ReferenceIdeal.main_v149))
    (h2 : Xk (Proc.devRef .tc Cert.KernelIdeal.main_arg2) = Xr (Proc.devRef .tc Cert.ReferenceIdeal.main_arg2))
    (h13 : Xk (Proc.devRef .tc Cert.KernelIdeal.main_arg13) = Xr (Proc.devRef .tc Cert.ReferenceIdeal.main_arg13)) :
    StableHlo.after (Cert.KernelIdeal.Gen.hostOps4_2 (F := Ideal))
        (StableHlo.after (Cert.KernelIdeal.Gen.hostOps4_1 (F := Ideal))
          (StableHlo.after (Cert.KernelIdeal.Gen.hostOps4 (F := Ideal)) Xk)) (Proc.devRef .tc Cert.KernelIdeal.main_v178)
      = StableHlo.after (Cert.ReferenceIdeal.RefRun.opsH (F := Ideal)) Xr (Proc.devRef .tc Cert.ReferenceIdeal.main_v200) := by
  -- the kernel program's three stretches as one line, then each side's result as the composed term of its operations
  rw [← after_append, ← after_append]
  simp only [Cert.KernelIdeal.Gen.hostOps4, Cert.KernelIdeal.Gen.hostOps4_1, Cert.KernelIdeal.Gen.hostOps4_2,
    List.cons_append, List.nil_append, Cert.ReferenceIdeal.RefRun.opsH]
  read_line
  drop_casts
  -- the entry arrays agree; rows of σ · W and of σ' · W picked are rows picked times W; the rest is one term
  rw [hh, h2, h13]
  rw [gather_dot, gather_dot]
  rfl

end Cert.HeadPair

end
-- ==== Proof.PrepPair.lean ====
import proofs.«107108_j75977971466801_2_alg».proof.Proof.Gen.KernelIdeal.Frame
import proofs.«107108_j75977971466801_2_alg».proof.Proof.RefSplit
import proofs.«107108_j75977971466801_2_alg».proof.Proof.AggPair
import proofs.«107108_j75977971466801_2_alg».proof.Proof.LibLayerSpec
import proofs.«107108_j75977971466801_2_alg».proof.Proof.LibHostKeeps
import Idealize.ShloMosaic.Lib.ValueLayout
import proofs.«107108_j75977971466801_2_alg».proof.Proof.LibFiniteOps

set_option maxRecDepth 16384

/-
  What the two programs prepare before their first layer, side by side: the same two index arrays (an edge's two
  ends, a self loop appended per node), and the same edge-attribute array (a one-hot row appended per self loop); the
  kernel's program also sums the attributes and counts the edges per node once, ahead of its layers.
-/
noncomputable section

namespace Cert.PrepPair

open Idealize.ShloMosaic Idealize.ShloMosaic.TcCoe Idealize.SL.Sem Idealize.ShloMosaic.ValueIdx
open Cert.FiniteOps

set_option maxHeartbeats 4000000 in
/-- The scatter index array (each edge's first end, then the nodes themselves) is the same in both programs. -/
theorem prep_src (Xk : Valuation Cert.KernelIdeal.τ Cert.KernelIdeal.sig (Elt Ideal)) (Xr : Valuation Cert.ReferenceIdeal.τ Cert.ReferenceIdeal.sig (Elt Ideal)) (h1 : Xk (Proc.devRef .tc Cert.KernelIdeal.main_arg1) = Xr (Proc.devRef .tc Cert.ReferenceIdeal.main_arg1)) :
    StableHlo.after (Cert.KernelIdeal.Gen.hostOps0 (F := Ideal)) Xk (Proc.devRef .tc Cert.KernelIdeal.main_v3) = StableHlo.after (Cert.ReferenceIdeal.RefRun.opsA (F := Ideal)) Xr (Proc.devRef .tc Cert.ReferenceIdeal.main_v3) := by
  simp only [Cert.KernelIdeal.Gen.hostOps0, Cert.ReferenceIdeal.RefRun.opsA]
  read_line
  rw [h1]
  rfl

set_option maxHeartbeats 4000000 in
/-- The gather index array (each edge's second end, then the nodes themselves) is the same in both programs. -/
theorem prep_dst (Xk : Valuation Cert.KernelIdeal.τ Cert.KernelIdeal.sig (Elt Ideal)) (Xr : Valuation Cert.ReferenceIdeal.τ Cert.ReferenceIdeal.sig (Elt Ideal)) (h1 : Xk (Proc.devRef .tc Cert.KernelIdeal.main_arg1) = Xr (Proc.devRef .tc Cert.ReferenceIdeal.main_arg1)) :
    StableHlo.after (Cert.KernelIdeal.Gen.hostOps0 (F := Ideal)) Xk (Proc.devRef .tc Cert.KernelIdeal.main_v6) = StableHlo.after (Cert.ReferenceIdeal.RefRun.opsA (F := Ideal)) Xr (Proc.devRef .tc Cert.ReferenceIdeal.main_v6) := by
  simp only [Cert.KernelIdeal.Gen.hostOps0, Cert.ReferenceIdeal.RefRun.opsA]
  read_line
  rw [h1]
  rfl

set_option maxHeartbeats 4000000 in
/-- The kernel program's summed attributes are the scatter-add, by the reference's index array, of the reference's
    attribute array. -/
theorem prep_ea (Xk : Valuation Cert.KernelIdeal.τ Cert.KernelIdeal.sig (Elt Ideal)) (Xr : Valuation Cert.ReferenceIdeal.τ Cert.ReferenceIdeal.sig (Elt Ideal)) (h1 : Xk (Proc.devRef .tc Cert.KernelIdeal.main_arg1) = Xr (Proc.devRef .tc Cert.ReferenceIdeal.main_arg1)) (h3 : Xk (Proc.devRef .tc Cert.KernelIdeal.main_arg3) = Xr (Proc.devRef .tc Cert.ReferenceIdeal.main_arg3)) :
    StableHlo.after (Cert.KernelIdeal.Gen.hostOps0 (F := Ideal)) Xk (Proc.devRef .tc Cert.KernelIdeal.main_v14)
      = Host.scatterAdd (F := Ideal) (φ := .f32) Cert.KernelIdeal.scatter_S50000x9_S850000x1_S850000x9_1_0_0_1
        (broadcastInDim Cert.KernelIdeal.S50000x9 ![] Cert.KernelIdeal.Gen.bcast_S_S50000x9 (constant (F := Ideal) Cert.KernelIdeal.S_ .f32 0x00000000#32))
        (broadcastInDim Cert.KernelIdeal.S850000x1 ![0] Cert.KernelIdeal.Gen.bcast_S850000_S850000x1_0 (StableHlo.after (Cert.ReferenceIdeal.RefRun.opsA (F := Ideal)) Xr (Proc.devRef .tc Cert.ReferenceIdeal.main_v3)))
        (StableHlo.after (Cert.ReferenceIdeal.RefRun.opsA (F := Ideal)) Xr (Proc.devRef .tc Cert.ReferenceIdeal.main_v11)) := by
  simp only [Cert.KernelIdeal.Gen.hostOps0, Cert.ReferenceIdeal.RefRun.opsA]
  read_line
  rw [h1, h3]
  rfl

set_option maxHeartbeats 4000000 in
/-- The kernel program's in-degrees are the scatter-add of ones by the reference's index array. -/
theorem prep_deg (Xk : Valuation Cert.KernelIdeal.τ Cert.KernelIdeal.sig (Elt Ideal)) (Xr : Valuation Cert.ReferenceIdeal.τ Cert.ReferenceIdeal.sig (Elt Ideal)) (h1 : Xk (Proc.devRef .tc Cert.KernelIdeal.main_arg1) = Xr (Proc.devRef .tc Cert.ReferenceIdeal.main_arg1)) :
    StableHlo.after (Cert.KernelIdeal.Gen.hostOps0 (F := Ideal)) Xk (Proc.devRef .tc Cert.KernelIdeal.main_v18)
      = Host.scatterAdd (F := Ideal) (φ := .f32) Cert.KernelIdeal.scatter_S50000x1_S850000x1_S850000x1_1_0_0_1
        (broadcastInDim Cert.KernelIdeal.S50000x1 ![] Cert.KernelIdeal.Gen.bcast_S_S50000x1 (constant (F := Ideal) Cert.KernelIdeal.S_ .f32 0x00000000#32))
        (broadcastInDim Cert.KernelIdeal.S850000x1 ![0] Cert.KernelIdeal.Gen.bcast_S850000_S850000x1_0 (StableHlo.after (Cert.ReferenceIdeal.RefRun.opsA (F := Ideal)) Xr (Proc.devRef .tc Cert.ReferenceIdeal.main_v3)))
        (broadcastInDim Cert.KernelIdeal.S850000x1 ![] Cert.KernelIdeal.Gen.bcast_S_S850000x1 (constant (F := Ideal) Cert.KernelIdeal.S_ .f32 0x3F800000#32)) := by
  simp only [Cert.KernelIdeal.Gen.hostOps0, Cert.ReferenceIdeal.RefRun.opsA]
  read_line
  rw [h1]
  rfl

set_option maxHeartbeats 4000000 in
/-- The reference's attribute array (the given attributes, then a one-hot row per self loop) has finite entries when
    the given attributes have. -/
theorem prep_fin (Xr : Valuation Cert.ReferenceIdeal.τ Cert.ReferenceIdeal.sig (Elt Ideal))
    (f3 : Fin' (s := Cert.ReferenceIdeal.S800000x9) (Xr (Proc.devRef .tc Cert.ReferenceIdeal.main_arg3))) :
    Fin' (s := Cert.ReferenceIdeal.S850000x9) (StableHlo.after (Cert.ReferenceIdeal.RefRun.opsA (F := Ideal)) Xr (Proc.devRef .tc Cert.ReferenceIdeal.main_v11)) := by
  simp only [Cert.ReferenceIdeal.RefRun.opsA]
  read_line
  unfold Cert.ReadLine.cat2
  refine concat_rows (n₁ := 800000) (n₂ := 50000) (n := 850000) (d := 9) _ rfl _ _ f3 (scatter_set _ _ _ _ ?_ ?_)
  · intro i; exact ⟨0, by rw [Cert.HostRead.fill_zero_apply]; rfl⟩
  · intro i; exact ⟨1, by rw [Cert.HostRead.fill_one_apply]; rfl⟩

end Cert.PrepPair

end
-- ==== Proof.FiniteArgs.lean ====
/-
  From the precondition to real numbers.

  The precondition says that every float argument passes "|x| < +∞ at every entry": it is the conjunction, over the
  eleven float arguments, of one bit each, the "and" over all entries of the comparison of the entry's absolute value
  with +∞.  If the conjunction is 1 every one of its bits is 1; an "and" over all entries that is 1 met a 1 at every
  entry; and over the extended reals the comparison  max x (−x) < ⊤  at an entry x excludes both infinities, so x is a
  real number.  Read off for the three arguments the linearity of the edge aggregation needs: the edge attributes
  [800000, 9], the edge-encoder weights [2, 9, 128] and the edge-encoder biases [2, 128] (finite_args).
-/
import proofs.«107108_j75977971466801_2_alg».proof.Defs
import Idealize.ShloMosaic.Lib.ReduceAll
import Idealize.ShloMosaic.Lib.ValueIdx

set_option maxRecDepth 16384

noncomputable section

namespace Cert.FiniteArgs

open Idealize.ShloMosaic Idealize.ShloMosaic.TcCoe Idealize.SL.Sem
open Cert.Pre_finite_inputs (S_)

/-- The scalar shape has one index. -/
instance : Subsingleton S_.Idx := ⟨fun a b => funext fun d => d.elim0⟩

/-- The word of +∞ reads as the top extended real. -/
theorem inf_lit : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If "|x| < +∞ at every entry" holds of an array — the "and" over all its entries of the comparison, started at 1, is
    1 — then every entry of the array is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) (i : s.Idx) : ∃ r : ℝ, x i = (r : EReal) := by
  have h := Host.reduce_andi_all _ _ hr hu ValueIdx.ix0 e i
  have h' : Ideal.cmp .olt (max (x i) (-(x i))) (Ideal.ofBits .f32 0x7F800000#32) = 1#1 := h
  rw [inf_lit] at h'
  have h2 : BitVec.ofBool (decide (max (x i) (-(x i)) < ⊤)) = 1#1 := h'
  by_cases hlt : max (x i) (-(x i)) < ⊤
  · exact real_of_abs_lt_top _ hlt
  · rw [decide_eq_false hlt] at h2; exact absurd h2 (by decide)

/-- An entrywise "and" of two arrays of words, at an index. -/
theorem andi_apply {s : Shape} {w : ℕ} (a b : IVec s w) (i : s.Idx) : andi a b i = IntOp.andi (a i) (b i) := rfl

/-- Under the precondition every entry of the edge attributes, of the edge-encoder weights and of the edge-encoder
    biases is a real number. -/
theorem finite_args [Cert.Pre_finite_inputs.Facts] [Cert.KernelIdeal.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
      (∀ i, ∃ x : ℝ, m ((c.tc : Thread Cert.KernelIdeal.nD Cert.KernelIdeal.τ).loc Cert.KernelIdeal.main_arg3) i = (x : EReal))
    ∧ (∀ i, ∃ x : ℝ, m ((c.tc : Thread Cert.KernelIdeal.nD Cert.KernelIdeal.τ).loc Cert.KernelIdeal.main_arg5) i = (x : EReal))
    ∧ (∀ i, ∃ x : ℝ, m ((c.tc : Thread Cert.KernelIdeal.nD Cert.KernelIdeal.τ).loc Cert.KernelIdeal.main_arg6) i = (x : EReal)) := by
  have h := congrFun (hpre c) ValueIdx.ix0
  dsimp only [Cert.Pre_finite_inputs.fn, Cert.Pre_finite_inputs.fn_part1, Cert.Pre_finite_inputs.fn_part2,
    Cert.Pre_finite_inputs.fn_part3] at h
  simp only [andi_apply, IntOp.andi_eq_one] at h
  obtain ⟨⟨⟨⟨⟨⟨⟨⟨⟨⟨h3, -⟩, h5⟩, h6⟩, -⟩, -⟩, -⟩, -⟩, -⟩, -⟩, -⟩ := h
  exact ⟨fun i => real_of_all _ _ _ _ h3 i, fun i => real_of_all _ _ _ _ h5 i, fun i => real_of_all _ _ _ _ h6 i⟩

end Cert.FiniteArgs

end
-- ==== Proof.Glue.lean ====
/-
  From the launch to the results: the two programs side by side.

  The kernel's program is five stretches of host operations around four kernel regions; the reference is one line of
  host operations, cut here into five segments at the same places.  Stage by stage the two hold the same array: after
  the first dense map of layer 0, after its second stage, after the first dense map of layer 1, after its second stage,
  and at the results.  Each stage is one of the pair lemmas (the aggregation law, the normalisation stage, the read-out
  head); between them a buffer that no operation of a stretch writes, and no window of a region stages, is carried
  unchanged.  Finite inputs enter once, for the edge attributes and the edge encoder's weights and bias.
-/
import proofs.«107108_j75977971466801_2_alg».proof.Proof.Gen.KernelIdeal.Frame
import proofs.«107108_j75977971466801_2_alg».proof.Proof.RegionDense
import proofs.«107108_j75977971466801_2_alg».proof.Proof.RegionNorm
import proofs.«107108_j75977971466801_2_alg».proof.Proof.DensePair
import proofs.«107108_j75977971466801_2_alg».proof.Proof.NormPair
import proofs.«107108_j75977971466801_2_alg».proof.Proof.HeadPair
import proofs.«107108_j75977971466801_2_alg».proof.Proof.PrepPair
import proofs.«107108_j75977971466801_2_alg».proof.Proof.RefKeeps
import proofs.«107108_j75977971466801_2_alg».proof.Proof.FiniteArgs
import proofs.«107108_j75977971466801_2_alg».proof.Proof.LibHostKeeps

set_option maxRecDepth 16384

noncomputable section

namespace Cert.Glue

open Idealize.ShloMosaic Idealize.ShloMosaic.TcCoe Idealize.SL.Sem
open Cert.KernelIdeal Cert.KernelIdeal.Gen Cert.FiniteOps

/-! ## Buffers a stretch of the kernel's program does not write -/

theorem keep0_arg2 (X : Valuation τ sig (Elt Ideal)) : StableHlo.after (hostOps0 (F := Ideal)) X (Proc.devRef .tc Cert.KernelIdeal.main_arg2) = X (Proc.devRef .tc Cert.KernelIdeal.main_arg2) := by host_keeps hostOps0
theorem keep0_arg5 (X : Valuation τ sig (Elt Ideal)) : StableHlo.after (hostOps0 (F := Ideal)) X (Proc.devRef .tc Cert.KernelIdeal.main_arg5) = X (Proc.devRef .tc Cert.KernelIdeal.main_arg5) := by host_keeps hostOps0
theorem keep0_arg6 (X : Valuation τ sig (Elt Ideal)) : StableHlo.after (hostOps0 (F := Ideal)) X (Proc.devRef .tc Cert.KernelIdeal.main_arg6) = X (Proc.devRef .tc Cert.KernelIdeal.main_arg6) := by host_keeps hostOps0
theorem keep0_arg7 (X : Valuation τ sig (Elt Ideal)) : StableHlo.after (hostOps0 (F := Ideal)) X (Proc.devRef .tc Cert.KernelIdeal.main_arg7) = X (Proc.devRef .tc Cert.KernelIdeal.main_arg7) := by host_keeps hostOps0
theorem keep0_arg8 (X : Valuation τ sig (Elt Ideal)) : StableHlo.after (hostOps0 (F := Ideal)) X (Proc.devRef .tc Cert.KernelIdeal.main_arg8) = X (Proc.devRef .tc Cert.KernelIdeal.main_arg8) := by host_keeps hostOps0
theorem keep0_arg9 (X : Valuation τ sig (Elt Ideal)) : StableHlo.after (hostOps0 (F := Ideal)) X (Proc.devRef .tc Cert.KernelIdeal.main_arg9) = X (Proc.devRef .tc Cert.KernelIdeal.main_arg9) := by host_keeps hostOps0
theorem keep0_arg10 (X : Valuation τ sig (Elt Ideal)) : StableHlo.after (hostOps0 (F := Ideal)) X (Proc.devRef .tc Cert.KernelIdeal.main_arg10) = X (Proc.devRef .tc Cert.KernelIdeal.main_arg10) := by host_keeps hostOps0
theorem keep0_arg11 (X : Valuation τ sig (Elt Ideal)) : StableHlo.after (hostOps0 (F := Ideal)) X (Proc.devRef .tc Cert.KernelIdeal.main_arg11) = X (Proc.devRef .tc Cert.KernelIdeal.main_arg11) := by host_keeps hostOps0
theorem keep0_arg12 (X : Valuation τ sig (Elt Ideal)) : StableHlo.after (hostOps0 (F := Ideal)) X (Proc.devRef .tc Cert.KernelIdeal.main_arg12) = X (Proc.devRef .tc Cert.KernelIdeal.main_arg12) := by host_keeps hostOps0
theorem keep0_arg13 (X : Valuation τ sig (Elt Ideal)) : StableHlo.after (hostOps0 (F := Ideal)) X (Proc.devRef .tc Cert.KernelIdeal.main_arg13) = X (Proc.devRef .tc Cert.KernelIdeal.main_arg13) := by host_keeps hostOps0
theorem keep1_arg2 (X : Valuation τ sig (Elt Ideal)) : StableHlo.after (hostOps1 (F := Ideal)) X (Proc.devRef .tc Cert.KernelIdeal.main_arg2) = X (Proc.devRef .tc Cert.KernelIdeal.main_arg2) := by host_keeps hostOps1
theorem keep1_arg5 (X : Valuation τ sig (Elt Ideal)) : StableHlo.after (hostOps1 (F := Ideal)) X (Proc.devRef .tc Cert.KernelIdeal.main_arg5) = X (Proc.devRef .tc Cert.KernelIdeal.main_arg5) := by host_keeps hostOps1
theorem keep1_arg6 (X : Valuation τ sig (Elt Ideal)) : StableHlo.after (hostOps1 (F := Ideal)) X (Proc.devRef .tc Cert.KernelIdeal.main_arg6) = X (Proc.devRef .tc Cert.KernelIdeal.main_arg6) := by host_keeps hostOps1
theorem keep1_arg7 (X : Valuation τ sig (Elt Ideal)) : StableHlo.after (hostOps1 (F := Ideal)) X (Proc.devRef .tc Cert.KernelIdeal.main_arg7) = X (Proc.devRef .tc Cert.KernelIdeal.main_arg7) := by host_keeps hostOps1
theorem keep1_arg8 (X : Valuation τ sig (Elt Ideal)) : StableHlo.after (hostOps1 (F := Ideal)) X (Proc.devRef .tc Cert.KernelIdeal.main_arg8) = X (Proc.devRef .tc Cert.KernelIdeal.main_arg8) := by host_keeps hostOps1
theorem keep1_arg9 (X : Valuation τ sig (Elt Ideal)) : StableHlo.after (hostOps1 (F := Ideal)) X (Proc.devRef .tc Cert.KernelIdeal.main_arg9) = X (Proc.devRef .tc Cert.KernelIdeal.main_arg9) := by host_keeps hostOps1
theorem keep1_arg10 (X : Valuation τ sig (Elt Ideal)) : StableHlo.after (hostOps1 (F := Ideal)) X (Proc.devRef .tc Cert.KernelIdeal.main_arg10) = X (Proc.devRef .tc Cert.KernelIdeal.main_arg10) := by host_keeps hostOps1
theorem keep1_arg11 (X : Valuation τ sig (Elt Ideal)) : StableHlo.after (hostOps1 (F := Ideal)) X (Proc.devRef .tc Cert.KernelIdeal.main_arg11) = X (Proc.devRef .tc Cert.KernelIdeal.main_arg11) := by host_keeps hostOps1
theorem keep1_arg12 (X : Valuation τ sig (Elt Ideal)) : StableHlo.after (hostOps1 (F := Ideal)) X (Proc.devRef .tc Cert.KernelIdeal.main_arg12) = X (Proc.devRef .tc Cert.KernelIdeal.main_arg12) := by host_keeps hostOps1
theorem keep1_arg13 (X : Valuation τ sig (Elt Ideal)) : StableHlo.after (hostOps1 (F := Ideal)) X (Proc.devRef .tc Cert.KernelIdeal.main_arg13) = X (Proc.devRef .tc Cert.KernelIdeal.main_arg13) := by host_keeps hostOps1
theorem keep1_v3 (X : Valuation τ sig (Elt Ideal)) : StableHlo.after (hostOps1 (F := Ideal)) X (Proc.devRef .tc Cert.KernelIdeal.main_v3) = X (Proc.devRef .tc Cert.KernelIdeal.main_v3) := by host_keeps hostOps1
theorem keep1_v6 (X : Valuation τ sig (Elt Ideal)) : StableHlo.after (hostOps1 (F := Ideal)) X (Proc.devRef .tc Cert.KernelIdeal.main_v6) = X (Proc.devRef .tc Cert.KernelIdeal.main_v6) := by host_keeps hostOps1
theorem keep1_v14 (X : Valuation τ sig (Elt Ideal)) : StableHlo.after (hostOps1 (F := Ideal)) X (Proc.devRef .tc Cert.KernelIdeal.main_v14) = X (Proc.devRef .tc Cert.KernelIdeal.main_v14) := by host_keeps hostOps1
theorem keep1_v18 (X : Valuation τ sig (Elt Ideal)) : StableHlo.after (hostOps1 (F := Ideal)) X (Proc.devRef .tc Cert.KernelIdeal.main_v18) = X (Proc.devRef .tc Cert.KernelIdeal.main_v18) := by host_keeps hostOps1
theorem keep2_arg2 (X : Valuation τ sig (Elt Ideal)) : StableHlo.after (hostOps2 (F := Ideal)) X (Proc.devRef .tc Cert.KernelIdeal.main_arg2) = X (Proc.devRef .tc Cert.KernelIdeal.main_arg2) := by host_keeps hostOps2
theorem keep2_arg9 (X : Valuation τ sig (Elt Ideal)) : StableHlo.after (hostOps2 (F := Ideal)) X (Proc.devRef .tc Cert.KernelIdeal.main_arg9) = X (Proc.devRef .tc Cert.KernelIdeal.main_arg9) := by host_keeps hostOps2
theorem keep2_arg10 (X : Valuation τ sig (Elt Ideal)) : StableHlo.after (hostOps2 (F := Ideal)) X (Proc.devRef .tc Cert.KernelIdeal.main_arg10) = X (Proc.devRef .tc Cert.KernelIdeal.main_arg10) := by host_keeps hostOps2
theorem keep2_arg11 (X : Valuation τ sig (Elt Ideal)) : StableHlo.after (hostOps2 (F := Ideal)) X (Proc.devRef .tc Cert.KernelIdeal.main_arg11) = X (Proc.devRef .tc Cert.KernelIdeal.main_arg11) := by host_keeps hostOps2
theorem keep2_arg12 (X : Valuation τ sig (Elt Ideal)) : StableHlo.after (hostOps2 (F := Ideal)) X (Proc.devRef .tc Cert.KernelIdeal.main_arg12) = X (Proc.devRef .tc Cert.KernelIdeal.main_arg12) := by host_keeps hostOps2
theorem keep2_arg13 (X : Valuation τ sig (Elt Ideal)) : StableHlo.after (hostOps2 (F := Ideal)) X (Proc.devRef .tc Cert.KernelIdeal.main_arg13) = X (Proc.devRef .tc Cert.KernelIdeal.main_arg13) := by host_keeps hostOps2
theorem keep3_arg2 (X : Valuation τ sig (Elt Ideal)) : StableHlo.after (hostOps3 (F := Ideal)) X (Proc.devRef .tc Cert.KernelIdeal.main_arg2) = X (Proc.devRef .tc Cert.KernelIdeal.main_arg2) := by host_keeps hostOps3
theorem keep3_arg13 (X : Valuation τ sig (Elt Ideal)) : StableHlo.after (hostOps3 (F := Ideal)) X (Proc.devRef .tc Cert.KernelIdeal.main_arg13) = X (Proc.devRef .tc Cert.KernelIdeal.main_arg13) := by host_keeps hostOps3

variable (m : (ℓ : Loc nD τ sig) → Buf (Elt Ideal) ℓ) (ρ : Dev nD → PrngReg) (c : Dev nD)

/-! ## What each region leaves in its output array, at the buffers' names -/

theorem v52 : W2 m ρ c (Proc.devRef .tc Cert.KernelIdeal.main_v52) = Cert.Spec.dense (W1 m ρ c (Proc.devRef .tc Cert.KernelIdeal.main_v46)) (W1 m ρ c (Proc.devRef .tc Cert.KernelIdeal.main_v48)) (W1 m ρ c (Proc.devRef .tc Cert.KernelIdeal.main_v51)) :=
  (W2_arr m ρ c 3).trans (Cert.KernelIdeal.RegionValue.region0_value (V1 m ρ) c)

theorem v76 : W4 m ρ c (Proc.devRef .tc Cert.KernelIdeal.main_v76) = Cert.Spec.relu (Cert.Spec.layerOut (Ideal.ofBits .f32 0x3727C5AC#32) (W3 m ρ c (Proc.devRef .tc Cert.KernelIdeal.main_v52)) (W3 m ρ c (Proc.devRef .tc Cert.KernelIdeal.main_v71)) (W3 m ρ c (Proc.devRef .tc Cert.KernelIdeal.main_v72)) (W3 m ρ c (Proc.devRef .tc Cert.KernelIdeal.main_v73)) (W3 m ρ c (Proc.devRef .tc Cert.KernelIdeal.main_v74)) (W3 m ρ c (Proc.devRef .tc Cert.KernelIdeal.main_v68)) (W3 m ρ c (Proc.devRef .tc Cert.KernelIdeal.main_v75))) :=
  (W4_arr m ρ c 7).trans (Cert.KernelIdeal.RegionValue.region1_value (V3 m ρ) c)

theorem v103 : W6 m ρ c (Proc.devRef .tc Cert.KernelIdeal.main_v103) = Cert.Spec.dense (W5 m ρ c (Proc.devRef .tc Cert.KernelIdeal.main_v97)) (W5 m ρ c (Proc.devRef .tc Cert.KernelIdeal.main_v99)) (W5 m ρ c (Proc.devRef .tc Cert.KernelIdeal.main_v102)) :=
  (W6_arr m ρ c 3).trans (Cert.KernelIdeal.RegionValue.region2_value (V5 m ρ) c)

theorem v127 : W8 m ρ c (Proc.devRef .tc Cert.KernelIdeal.main_v127) = Cert.Spec.layerOut (Ideal.ofBits .f32 0x3727C5AC#32) (W7 m ρ c (Proc.devRef .tc Cert.KernelIdeal.main_v103)) (W7 m ρ c (Proc.devRef .tc Cert.KernelIdeal.main_v122)) (W7 m ρ c (Proc.devRef .tc Cert.KernelIdeal.main_v123)) (W7 m ρ c (Proc.devRef .tc Cert.KernelIdeal.main_v124)) (W7 m ρ c (Proc.devRef .tc Cert.KernelIdeal.main_v125)) (W7 m ρ c (Proc.devRef .tc Cert.KernelIdeal.main_v119)) (W7 m ρ c (Proc.devRef .tc Cert.KernelIdeal.main_v126)) :=
  (W8_arr m ρ c 7).trans (Cert.KernelIdeal.RegionValue.region3_value (V7 m ρ) c)

/-- A buffer of the first stretch carried to the third stretch's entry. -/
theorem carry (b : Ref sig .tc) (h0 : ∀ w, Pipeline.arrRef spec0 w ≠ b) (h1 : ∀ w, Pipeline.arrRef spec1 w ≠ b)
    (hk : ∀ X : Valuation τ sig (Elt Ideal), StableHlo.after (hostOps1 (F := Ideal)) X (Proc.devRef .tc b) = X (Proc.devRef .tc b)) :
    W4 m ρ c (Proc.devRef .tc b) = W1 m ρ c (Proc.devRef .tc b) :=
  (W4_of_ne m ρ c b h1).trans ((hk _).trans (W2_of_ne m ρ c b h0))

/-! ## The results -/

set_option maxHeartbeats 1000000 in
/-- From memories that agree on the fourteen arguments, under the precondition, the kernel program's result buffer and
    the reference's end with the same contents. -/
theorem value_eq [Cert.Pre_finite_inputs.Facts] [Cert.KernelIdeal.Facts]
    (m' : (ℓ : Loc Cert.ReferenceIdeal.nD Cert.ReferenceIdeal.τ Cert.ReferenceIdeal.sig) → Buf (Elt Ideal) ℓ)
    (hpre : Cert.Pre_KernelIdeal m)
    (a0 : m' ((c.tc : Thread Cert.ReferenceIdeal.nD Cert.ReferenceIdeal.τ).loc Cert.ReferenceIdeal.main_arg0) = m ((c.tc : Thread nD τ).loc main_arg0))
    (a1 : m' ((c.tc : Thread Cert.ReferenceIdeal.nD Cert.ReferenceIdeal.τ).loc Cert.ReferenceIdeal.main_arg1) = m ((c.tc : Thread nD τ).loc main_arg1))
    (a2 : m' ((c.tc : Thread Cert.ReferenceIdeal.nD Cert.ReferenceIdeal.τ).loc Cert.ReferenceIdeal.main_arg2) = m ((c.tc : Thread nD τ).loc main_arg2))
    (a3 : m' ((c.tc : Thread Cert.ReferenceIdeal.nD Cert.ReferenceIdeal.τ).loc Cert.ReferenceIdeal.main_arg3) = m ((c.tc : Thread nD τ).loc main_arg3))
    (a4 : m' ((c.tc : Thread Cert.ReferenceIdeal.nD Cert.ReferenceIdeal.τ).loc Cert.ReferenceIdeal.main_arg4) = m ((c.tc : Thread nD τ).loc main_arg4))
    (a5 : m' ((c.tc : Thread Cert.ReferenceIdeal.nD Cert.ReferenceIdeal.τ).loc Cert.ReferenceIdeal.main_arg5) = m ((c.tc : Thread nD τ).loc main_arg5))
    (a6 : m' ((c.tc : Thread Cert.ReferenceIdeal.nD Cert.ReferenceIdeal.τ).loc Cert.ReferenceIdeal.main_arg6) = m ((c.tc : Thread nD τ).loc main_arg6))
    (a7 : m' ((c.tc : Thread Cert.ReferenceIdeal.nD Cert.ReferenceIdeal.τ).loc Cert.ReferenceIdeal.main_arg7) = m ((c.tc : Thread nD τ).loc main_arg7))
    (a8 : m' ((c.tc : Thread Cert.ReferenceIdeal.nD Cert.ReferenceIdeal.τ).loc Cert.ReferenceIdeal.main_arg8) = m ((c.tc : Thread nD τ).loc main_arg8))
    (a9 : m' ((c.tc : Thread Cert.ReferenceIdeal.nD Cert.ReferenceIdeal.τ).loc Cert.ReferenceIdeal.main_arg9) = m ((c.tc : Thread nD τ).loc main_arg9))
    (a10 : m' ((c.tc : Thread Cert.ReferenceIdeal.nD Cert.ReferenceIdeal.τ).loc Cert.ReferenceIdeal.main_arg10) = m ((c.tc : Thread nD τ).loc main_arg10))
    (a11 : m' ((c.tc : Thread Cert.ReferenceIdeal.nD Cert.ReferenceIdeal.τ).loc Cert.ReferenceIdeal.main_arg11) = m ((c.tc : Thread nD τ).loc main_arg11))
    (a12 : m' ((c.tc : Thread Cert.ReferenceIdeal.nD Cert.ReferenceIdeal.τ).loc Cert.ReferenceIdeal.main_arg12) = m ((c.tc : Thread nD τ).loc main_arg12))
    (a13 : m' ((c.tc : Thread Cert.ReferenceIdeal.nD Cert.ReferenceIdeal.τ).loc Cert.ReferenceIdeal.main_arg13) = m ((c.tc : Thread nD τ).loc main_arg13)) :
    W11 m ρ c (Proc.devRef .tc Cert.KernelIdeal.main_v178) = (StableHlo.after (Cert.ReferenceIdeal.RefRun.opsH (F := Ideal)) (StableHlo.after (Cert.ReferenceIdeal.RefRun.opsD (F := Ideal)) (StableHlo.after (Cert.ReferenceIdeal.RefRun.opsC (F := Ideal)) (StableHlo.after (Cert.ReferenceIdeal.RefRun.opsB (F := Ideal)) (StableHlo.after (Cert.ReferenceIdeal.RefRun.opsA (F := Ideal)) (StableHlo.launchContents m' c)))))) (Proc.devRef .tc Cert.ReferenceIdeal.main_v200) := by
  -- the launch contents agree on the arguments
  have l0 : W0 m ρ c (Proc.devRef .tc Cert.KernelIdeal.main_arg0) = (StableHlo.launchContents m' c) (Proc.devRef .tc Cert.ReferenceIdeal.main_arg0) := a0.symm
  have l1 : W0 m ρ c (Proc.devRef .tc Cert.KernelIdeal.main_arg1) = (StableHlo.launchContents m' c) (Proc.devRef .tc Cert.ReferenceIdeal.main_arg1) := a1.symm
  have l2 : W0 m ρ c (Proc.devRef .tc Cert.KernelIdeal.main_arg2) = (StableHlo.launchContents m' c) (Proc.devRef .tc Cert.ReferenceIdeal.main_arg2) := a2.symm
  have l3 : W0 m ρ c (Proc.devRef .tc Cert.KernelIdeal.main_arg3) = (StableHlo.launchContents m' c) (Proc.devRef .tc Cert.ReferenceIdeal.main_arg3) := a3.symm
  have l4 : W0 m ρ c (Proc.devRef .tc Cert.KernelIdeal.main_arg4) = (StableHlo.launchContents m' c) (Proc.devRef .tc Cert.ReferenceIdeal.main_arg4) := a4.symm
  have l5 : W0 m ρ c (Proc.devRef .tc Cert.KernelIdeal.main_arg5) = (StableHlo.launchContents m' c) (Proc.devRef .tc Cert.ReferenceIdeal.main_arg5) := a5.symm
  have l6 : W0 m ρ c (Proc.devRef .tc Cert.KernelIdeal.main_arg6) = (StableHlo.launchContents m' c) (Proc.devRef .tc Cert.ReferenceIdeal.main_arg6) := a6.symm
  have l7 : W0 m ρ c (Proc.devRef .tc Cert.KernelIdeal.main_arg7) = (StableHlo.launchContents m' c) (Proc.devRef .tc Cert.ReferenceIdeal.main_arg7) := a7.symm
  have l8 : W0 m ρ c (Proc.devRef .tc Cert.KernelIdeal.main_arg8) = (StableHlo.launchContents m' c) (Proc.devRef .tc Cert.ReferenceIdeal.main_arg8) := a8.symm
  have l9 : W0 m ρ c (Proc.devRef .tc Cert.KernelIdeal.main_arg9) = (StableHlo.launchContents m' c) (Proc.devRef .tc Cert.ReferenceIdeal.main_arg9) := a9.symm
  have l10 : W0 m ρ c (Proc.devRef .tc Cert.KernelIdeal.main_arg10) = (StableHlo.launchContents m' c) (Proc.devRef .tc Cert.ReferenceIdeal.main_arg10) := a10.symm
  have l11 : W0 m ρ c (Proc.devRef .tc Cert.KernelIdeal.main_arg11) = (StableHlo.launchContents m' c) (Proc.devRef .tc Cert.ReferenceIdeal.main_arg11) := a11.symm
  have l12 : W0 m ρ c (Proc.devRef .tc Cert.KernelIdeal.main_arg12) = (StableHlo.launchContents m' c) (Proc.devRef .tc Cert.ReferenceIdeal.main_arg12) := a12.symm
  have l13 : W0 m ρ c (Proc.devRef .tc Cert.KernelIdeal.main_arg13) = (StableHlo.launchContents m' c) (Proc.devRef .tc Cert.ReferenceIdeal.main_arg13) := a13.symm
  -- finite attributes, encoder weights and encoder bias
  obtain ⟨g3, g5, g6⟩ := Cert.FiniteArgs.finite_args m hpre c
  have f3 : Fin' (s := Cert.ReferenceIdeal.S800000x9) ((StableHlo.launchContents m' c) (Proc.devRef .tc Cert.ReferenceIdeal.main_arg3)) := fun i => by rw [← l3]; exact g3 i
  have f5 : Fin' (s := Cert.ReferenceIdeal.S2x9x128) ((StableHlo.launchContents m' c) (Proc.devRef .tc Cert.ReferenceIdeal.main_arg5)) := fun i => by rw [← l5]; exact g5 i
  have f6 : Fin' (s := Cert.ReferenceIdeal.S2x128) ((StableHlo.launchContents m' c) (Proc.devRef .tc Cert.ReferenceIdeal.main_arg6)) := fun i => by rw [← l6]; exact g6 i
  -- layer 0, first stage
  have z0 : W2 m ρ c (Proc.devRef .tc Cert.KernelIdeal.main_v52) = (StableHlo.after (Cert.ReferenceIdeal.RefRun.opsA (F := Ideal)) (StableHlo.launchContents m' c)) (Proc.devRef .tc Cert.ReferenceIdeal.main_v45) :=
    (v52 m ρ c).trans (Cert.DensePair.dense_pair0 (W0 m ρ c) (StableHlo.launchContents m' c) l0 l1 l3 l4 l5 l6 l7 l8 f3 f5 f6)
  -- layer 0, second stage
  have e9_2 : W2 m ρ c (Proc.devRef .tc Cert.KernelIdeal.main_arg9) = (StableHlo.after (Cert.ReferenceIdeal.RefRun.opsA (F := Ideal)) (StableHlo.launchContents m' c)) (Proc.devRef .tc Cert.ReferenceIdeal.main_arg9) :=
    (((W2_of_ne m ρ c main_arg9 (by decide)).trans (keep0_arg9 _)).trans (l9.trans (Cert.RefKeeps.keep_A_arg9 _).symm))
  have e10_2 : W2 m ρ c (Proc.devRef .tc Cert.KernelIdeal.main_arg10) = (StableHlo.after (Cert.ReferenceIdeal.RefRun.opsA (F := Ideal)) (StableHlo.launchContents m' c)) (Proc.devRef .tc Cert.ReferenceIdeal.main_arg10) :=
    (((W2_of_ne m ρ c main_arg10 (by decide)).trans (keep0_arg10 _)).trans (l10.trans (Cert.RefKeeps.keep_A_arg10 _).symm))
  have e11_2 : W2 m ρ c (Proc.devRef .tc Cert.KernelIdeal.main_arg11) = (StableHlo.after (Cert.ReferenceIdeal.RefRun.opsA (F := Ideal)) (StableHlo.launchContents m' c)) (Proc.devRef .tc Cert.ReferenceIdeal.main_arg11) :=
    (((W2_of_ne m ρ c main_arg11 (by decide)).trans (keep0_arg11 _)).trans (l11.trans (Cert.RefKeeps.keep_A_arg11 _).symm))
  have e12_2 : W2 m ρ c (Proc.devRef .tc Cert.KernelIdeal.main_arg12) = (StableHlo.after (Cert.ReferenceIdeal.RefRun.opsA (F := Ideal)) (StableHlo.launchContents m' c)) (Proc.devRef .tc Cert.ReferenceIdeal.main_arg12) :=
    (((W2_of_ne m ρ c main_arg12 (by decide)).trans (keep0_arg12 _)).trans (l12.trans (Cert.RefKeeps.keep_A_arg12 _).symm))
  have s0 : W4 m ρ c (Proc.devRef .tc Cert.KernelIdeal.main_v76) = (StableHlo.after (Cert.ReferenceIdeal.RefRun.opsB (F := Ideal)) (StableHlo.after (Cert.ReferenceIdeal.RefRun.opsA (F := Ideal)) (StableHlo.launchContents m' c))) (Proc.devRef .tc Cert.ReferenceIdeal.main_v84) :=
    (v76 m ρ c).trans (Cert.NormPair.norm_pair0 (W2 m ρ c) (StableHlo.after (Cert.ReferenceIdeal.RefRun.opsA (F := Ideal)) (StableHlo.launchContents m' c)) z0 e9_2 e10_2 e11_2 e12_2)
  -- layer 1, first stage: the carried index arrays, summed attributes and in-degrees
  have hs : W4 m ρ c (Proc.devRef .tc Cert.KernelIdeal.main_v3) = (StableHlo.after (Cert.ReferenceIdeal.RefRun.opsB (F := Ideal)) (StableHlo.after (Cert.ReferenceIdeal.RefRun.opsA (F := Ideal)) (StableHlo.launchContents m' c))) (Proc.devRef .tc Cert.ReferenceIdeal.main_v3) :=
    (carry m ρ c main_v3 (by decide) (by decide) keep1_v3).trans ((Cert.PrepPair.prep_src (W0 m ρ c) (StableHlo.launchContents m' c) l1).trans (Cert.RefKeeps.keep_B_v3 _).symm)
  have hd : W4 m ρ c (Proc.devRef .tc Cert.KernelIdeal.main_v6) = (StableHlo.after (Cert.ReferenceIdeal.RefRun.opsB (F := Ideal)) (StableHlo.after (Cert.ReferenceIdeal.RefRun.opsA (F := Ideal)) (StableHlo.launchContents m' c))) (Proc.devRef .tc Cert.ReferenceIdeal.main_v6) :=
    (carry m ρ c main_v6 (by decide) (by decide) keep1_v6).trans ((Cert.PrepPair.prep_dst (W0 m ρ c) (StableHlo.launchContents m' c) l1).trans (Cert.RefKeeps.keep_B_v6 _).symm)
  have he := (carry m ρ c main_v14 (by decide) (by decide) keep1_v14).trans (Cert.PrepPair.prep_ea (W0 m ρ c) (StableHlo.launchContents m' c) l1 l3)
  rw [← Cert.RefKeeps.keep_B_v3 (StableHlo.after (Cert.ReferenceIdeal.RefRun.opsA (F := Ideal)) (StableHlo.launchContents m' c)), ← Cert.RefKeeps.keep_B_v11 (StableHlo.after (Cert.ReferenceIdeal.RefRun.opsA (F := Ideal)) (StableHlo.launchContents m' c))] at he
  have hg := (carry m ρ c main_v18 (by decide) (by decide) keep1_v18).trans (Cert.PrepPair.prep_deg (W0 m ρ c) (StableHlo.launchContents m' c) l1)
  rw [← Cert.RefKeeps.keep_B_v3 (StableHlo.after (Cert.ReferenceIdeal.RefRun.opsA (F := Ideal)) (StableHlo.launchContents m' c))] at hg
  have f11 : Fin' (s := Cert.ReferenceIdeal.S850000x9) ((StableHlo.after (Cert.ReferenceIdeal.RefRun.opsB (F := Ideal)) (StableHlo.after (Cert.ReferenceIdeal.RefRun.opsA (F := Ideal)) (StableHlo.launchContents m' c))) (Proc.devRef .tc Cert.ReferenceIdeal.main_v11)) := by
    rw [Cert.RefKeeps.keep_B_v11]; exact Cert.PrepPair.prep_fin (StableHlo.launchContents m' c) f3
  have f5' : Fin' (s := Cert.ReferenceIdeal.S2x9x128) ((StableHlo.after (Cert.ReferenceIdeal.RefRun.opsB (F := Ideal)) (StableHlo.after (Cert.ReferenceIdeal.RefRun.opsA (F := Ideal)) (StableHlo.launchContents m' c))) (Proc.devRef .tc Cert.ReferenceIdeal.main_arg5)) := by
    rw [Cert.RefKeeps.keep_B_arg5, Cert.RefKeeps.keep_A_arg5]; exact f5
  have f6' : Fin' (s := Cert.ReferenceIdeal.S2x128) ((StableHlo.after (Cert.ReferenceIdeal.RefRun.opsB (F := Ideal)) (StableHlo.after (Cert.ReferenceIdeal.RefRun.opsA (F := Ideal)) (StableHlo.launchContents m' c))) (Proc.devRef .tc Cert.ReferenceIdeal.main_arg6)) := by
    rw [Cert.RefKeeps.keep_B_arg6, Cert.RefKeeps.keep_A_arg6]; exact f6
  have e5_4 : W4 m ρ c (Proc.devRef .tc Cert.KernelIdeal.main_arg5) = (StableHlo.after (Cert.ReferenceIdeal.RefRun.opsB (F := Ideal)) (StableHlo.after (Cert.ReferenceIdeal.RefRun.opsA (F := Ideal)) (StableHlo.launchContents m' c))) (Proc.devRef .tc Cert.ReferenceIdeal.main_arg5) :=
    (((W4_of_ne m ρ c main_arg5 (by decide)).trans ((keep1_arg5 _).trans ((W2_of_ne m ρ c main_arg5 (by decide)).trans (keep0_arg5 _)))).trans (l5.trans ((Cert.RefKeeps.keep_B_arg5 _).trans (Cert.RefKeeps.keep_A_arg5 _)).symm))
  have e6_4 : W4 m ρ c (Proc.devRef .tc Cert.KernelIdeal.main_arg6) = (StableHlo.after (Cert.ReferenceIdeal.RefRun.opsB (F := Ideal)) (StableHlo.after (Cert.ReferenceIdeal.RefRun.opsA (F := Ideal)) (StableHlo.launchContents m' c))) (Proc.devRef .tc Cert.ReferenceIdeal.main_arg6) :=
    (((W4_of_ne m ρ c main_arg6 (by decide)).trans ((keep1_arg6 _).trans ((W2_of_ne m ρ c main_arg6 (by decide)).trans (keep0_arg6 _)))).trans (l6.trans ((Cert.RefKeeps.keep_B_arg6 _).trans (Cert.RefKeeps.keep_A_arg6 _)).symm))
  have e7_4 : W4 m ρ c (Proc.devRef .tc Cert.KernelIdeal.main_arg7) = (StableHlo.after (Cert.ReferenceIdeal.RefRun.opsB (F := Ideal)) (StableHlo.after (Cert.ReferenceIdeal.RefRun.opsA (F := Ideal)) (StableHlo.launchContents m' c))) (Proc.devRef .tc Cert.ReferenceIdeal.main_arg7) :=
    (((W4_of_ne m ρ c main_arg7 (by decide)).trans ((keep1_arg7 _).trans ((W2_of_ne m ρ c main_arg7 (by decide)).trans (keep0_arg7 _)))).trans (l7.trans ((Cert.RefKeeps.keep_B_arg7 _).trans (Cert.RefKeeps.keep_A_arg7 _)).symm))
  have e8_4 : W4 m ρ c (Proc.devRef .tc Cert.KernelIdeal.main_arg8) = (StableHlo.after (Cert.ReferenceIdeal.RefRun.opsB (F := Ideal)) (StableHlo.after (Cert.ReferenceIdeal.RefRun.opsA (F := Ideal)) (StableHlo.launchContents m' c))) (Proc.devRef .tc Cert.ReferenceIdeal.main_arg8) :=
    (((W4_of_ne m ρ c main_arg8 (by decide)).trans ((keep1_arg8 _).trans ((W2_of_ne m ρ c main_arg8 (by decide)).trans (keep0_arg8 _)))).trans (l8.trans ((Cert.RefKeeps.keep_B_arg8 _).trans (Cert.RefKeeps.keep_A_arg8 _)).symm))
  have z1 : W6 m ρ c (Proc.devRef .tc Cert.KernelIdeal.main_v103) = (StableHlo.after (Cert.ReferenceIdeal.RefRun.opsC (F := Ideal)) (StableHlo.after (Cert.ReferenceIdeal.RefRun.opsB (F := Ideal)) (StableHlo.after (Cert.ReferenceIdeal.RefRun.opsA (F := Ideal)) (StableHlo.launchContents m' c)))) (Proc.devRef .tc Cert.ReferenceIdeal.main_v111) :=
    (v103 m ρ c).trans (Cert.DensePair.dense_pair1 (W4 m ρ c) (StableHlo.after (Cert.ReferenceIdeal.RefRun.opsB (F := Ideal)) (StableHlo.after (Cert.ReferenceIdeal.RefRun.opsA (F := Ideal)) (StableHlo.launchContents m' c))) s0 hs hd he hg e5_4 e6_4 e7_4 e8_4 f11 f5' f6')
  -- layer 1, second stage
  have e9_6 : W6 m ρ c (Proc.devRef .tc Cert.KernelIdeal.main_arg9) = (StableHlo.after (Cert.ReferenceIdeal.RefRun.opsC (F := Ideal)) (StableHlo.after (Cert.ReferenceIdeal.RefRun.opsB (F := Ideal)) (StableHlo.after (Cert.ReferenceIdeal.RefRun.opsA (F := Ideal)) (StableHlo.launchContents m' c)))) (Proc.devRef .tc Cert.ReferenceIdeal.main_arg9) :=
    (((W6_of_ne m ρ c main_arg9 (by decide)).trans ((keep2_arg9 _).trans ((W4_of_ne m ρ c main_arg9 (by decide)).trans ((keep1_arg9 _).trans ((W2_of_ne m ρ c main_arg9 (by decide)).trans (keep0_arg9 _)))))).trans (l9.trans ((Cert.RefKeeps.keep_C_arg9 _).trans ((Cert.RefKeeps.keep_B_arg9 _).trans (Cert.RefKeeps.keep_A_arg9 _))).symm))
  have e10_6 : W6 m ρ c (Proc.devRef .tc Cert.KernelIdeal.main_arg10) = (StableHlo.after (Cert.ReferenceIdeal.RefRun.opsC (F := Ideal)) (StableHlo.after (Cert.ReferenceIdeal.RefRun.opsB (F := Ideal)) (StableHlo.after (Cert.ReferenceIdeal.RefRun.opsA (F := Ideal)) (StableHlo.launchContents m' c)))) (Proc.devRef .tc Cert.ReferenceIdeal.main_arg10) :=
    (((W6_of_ne m ρ c main_arg10 (by decide)).trans ((keep2_arg10 _).trans ((W4_of_ne m ρ c main_arg10 (by decide)).trans ((keep1_arg10 _).trans ((W2_of_ne m ρ c main_arg10 (by decide)).trans (keep0_arg10 _)))))).trans (l10.trans ((Cert.RefKeeps.keep_C_arg10 _).trans ((Cert.RefKeeps.keep_B_arg10 _).trans (Cert.RefKeeps.keep_A_arg10 _))).symm))
  have e11_6 : W6 m ρ c (Proc.devRef .tc Cert.KernelIdeal.main_arg11) = (StableHlo.after (Cert.ReferenceIdeal.RefRun.opsC (F := Ideal)) (StableHlo.after (Cert.ReferenceIdeal.RefRun.opsB (F := Ideal)) (StableHlo.after (Cert.ReferenceIdeal.RefRun.opsA (F := Ideal)) (StableHlo.launchContents m' c)))) (Proc.devRef .tc Cert.ReferenceIdeal.main_arg11) :=
    (((W6_of_ne m ρ c main_arg11 (by decide)).trans ((keep2_arg11 _).trans ((W4_of_ne m ρ c main_arg11 (by decide)).trans ((keep1_arg11 _).trans ((W2_of_ne m ρ c main_arg11 (by decide)).trans (keep0_arg11 _)))))).trans (l11.trans ((Cert.RefKeeps.keep_C_arg11 _).trans ((Cert.RefKeeps.keep_B_arg11 _).trans (Cert.RefKeeps.keep_A_arg11 _))).symm))
  have e12_6 : W6 m ρ c (Proc.devRef .tc Cert.KernelIdeal.main_arg12) = (StableHlo.after (Cert.ReferenceIdeal.RefRun.opsC (F := Ideal)) (StableHlo.after (Cert.ReferenceIdeal.RefRun.opsB (F := Ideal)) (StableHlo.after (Cert.ReferenceIdeal.RefRun.opsA (F := Ideal)) (StableHlo.launchContents m' c)))) (Proc.devRef .tc Cert.ReferenceIdeal.main_arg12) :=
    (((W6_of_ne m ρ c main_arg12 (by decide)).trans ((keep2_arg12 _).trans ((W4_of_ne m ρ c main_arg12 (by decide)).trans ((keep1_arg12 _).trans ((W2_of_ne m ρ c main_arg12 (by decide)).trans (keep0_arg12 _)))))).trans (l12.trans ((Cert.RefKeeps.keep_C_arg12 _).trans ((Cert.RefKeeps.keep_B_arg12 _).trans (Cert.RefKeeps.keep_A_arg12 _))).symm))
  have s1 : W8 m ρ c (Proc.devRef .tc Cert.KernelIdeal.main_v127) = (StableHlo.after (Cert.ReferenceIdeal.RefRun.opsD (F := Ideal)) (StableHlo.after (Cert.ReferenceIdeal.RefRun.opsC (F := Ideal)) (StableHlo.after (Cert.ReferenceIdeal.RefRun.opsB (F := Ideal)) (StableHlo.after (Cert.ReferenceIdeal.RefRun.opsA (F := Ideal)) (StableHlo.launchContents m' c))))) (Proc.devRef .tc Cert.ReferenceIdeal.main_v149) :=
    (v127 m ρ c).trans (Cert.NormPair.norm_pair1 (W6 m ρ c) (StableHlo.after (Cert.ReferenceIdeal.RefRun.opsC (F := Ideal)) (StableHlo.after (Cert.ReferenceIdeal.RefRun.opsB (F := Ideal)) (StableHlo.after (Cert.ReferenceIdeal.RefRun.opsA (F := Ideal)) (StableHlo.launchContents m' c)))) z1 e9_6 e10_6 e11_6 e12_6)
  -- the read-out head
  have e2_8 : W8 m ρ c (Proc.devRef .tc Cert.KernelIdeal.main_arg2) = (StableHlo.after (Cert.ReferenceIdeal.RefRun.opsD (F := Ideal)) (StableHlo.after (Cert.ReferenceIdeal.RefRun.opsC (F := Ideal)) (StableHlo.after (Cert.ReferenceIdeal.RefRun.opsB (F := Ideal)) (StableHlo.after (Cert.ReferenceIdeal.RefRun.opsA (F := Ideal)) (StableHlo.launchContents m' c))))) (Proc.devRef .tc Cert.ReferenceIdeal.main_arg2) :=
    (((W8_of_ne m ρ c main_arg2 (by decide)).trans ((keep3_arg2 _).trans ((W6_of_ne m ρ c main_arg2 (by decide)).trans ((keep2_arg2 _).trans ((W4_of_ne m ρ c main_arg2 (by decide)).trans ((keep1_arg2 _).trans ((W2_of_ne m ρ c main_arg2 (by decide)).trans (keep0_arg2 _)))))))).trans (l2.trans ((Cert.RefKeeps.keep_D_arg2 _).trans ((Cert.RefKeeps.keep_C_arg2 _).trans ((Cert.RefKeeps.keep_B_arg2 _).trans (Cert.RefKeeps.keep_A_arg2 _)))).symm))
  have e13_8 : W8 m ρ c (Proc.devRef .tc Cert.KernelIdeal.main_arg13) = (StableHlo.after (Cert.ReferenceIdeal.RefRun.opsD (F := Ideal)) (StableHlo.after (Cert.ReferenceIdeal.RefRun.opsC (F := Ideal)) (StableHlo.after (Cert.ReferenceIdeal.RefRun.opsB (F := Ideal)) (StableHlo.after (Cert.ReferenceIdeal.RefRun.opsA (F := Ideal)) (StableHlo.launchContents m' c))))) (Proc.devRef .tc Cert.ReferenceIdeal.main_arg13) :=
    (((W8_of_ne m ρ c main_arg13 (by decide)).trans ((keep3_arg13 _).trans ((W6_of_ne m ρ c main_arg13 (by decide)).trans ((keep2_arg13 _).trans ((W4_of_ne m ρ c main_arg13 (by decide)).trans ((keep1_arg13 _).trans ((W2_of_ne m ρ c main_arg13 (by decide)).trans (keep0_arg13 _)))))))).trans (l13.trans ((Cert.RefKeeps.keep_D_arg13 _).trans ((Cert.RefKeeps.keep_C_arg13 _).trans ((Cert.RefKeeps.keep_B_arg13 _).trans (Cert.RefKeeps.keep_A_arg13 _)))).symm))
  exact Cert.HeadPair.head_pair (W8 m ρ c) (StableHlo.after (Cert.ReferenceIdeal.RefRun.opsD (F := Ideal)) (StableHlo.after (Cert.ReferenceIdeal.RefRun.opsC (F := Ideal)) (StableHlo.after (Cert.ReferenceIdeal.RefRun.opsB (F := Ideal)) (StableHlo.after (Cert.ReferenceIdeal.RefRun.opsA (F := Ideal)) (StableHlo.launchContents m' c))))) s1 e2_8 e13_8

end Cert.Glue

end
-- ==== Proof.lean ====
/-
  A two-layer message-passing network with a contrastive read-out, computed two ways over the extended reals.

  Nodes carry 128 numbers, edges 9 attributes; every node gets a self loop with a one-hot attribute row.  A layer gives
  each edge the row (state of the node it starts from ‖ a dense map of its attributes), sums the rows into the edges'
  target nodes, and passes the sums through a dense map, a normalisation of each column by that column's mean and
  variance over all nodes, a positive part, a second dense map and (in the first layer) a positive part.  The read-out
  pools the final states per graph, squashes the pooled means, and scores every node against its own graph's summary
  and against the next graph's, through one bilinear form.

  The reference does all of it with host array operations.  The kernel's program sums the raw attributes and counts the
  edges per node once, ahead of the layers — the sum over edges of an affine map of the attributes is the affine map of
  the summed attributes with the bias counted once per edge (LibAggregateLaw; the one place finite inputs are used) —, runs
  each layer's two dense stages as tiled kernels over blocks of 5000 nodes (RegionDense, RegionNorm: a block of rows of
  the result depends on the same rows of the input only), and in the read-out multiplies the 256 summaries by the
  bilinear form before picking each node's row instead of after (picking rows commutes with a right product).

  Stage by stage the two programs hold the same array (Glue): DensePair and NormPair for the layers' two stages,
  HeadPair for the read-out; the reference's run is RefRun, the kernel program's run with its result is KernelRun.
  The frames of the two kernel programs are the generated ones; the idealization rewrote nothing.
-/
import proofs.«107108_j75977971466801_2_alg».proof.Defs
import proofs.«107108_j75977971466801_2_alg».proof.Proof.Gen.Kernel
import proofs.«107108_j75977971466801_2_alg».proof.Proof.Gen.Kernel.Skeleton
import proofs.«107108_j75977971466801_2_alg».proof.Proof.Gen.Kernel.Launch
import proofs.«107108_j75977971466801_2_alg».proof.Proof.Gen.Kernel.Points
import proofs.«107108_j75977971466801_2_alg».proof.Proof.Gen.Kernel.Frame
import proofs.«107108_j75977971466801_2_alg».proof.Proof.Gen.KernelIdeal
import proofs.«107108_j75977971466801_2_alg».proof.Proof.Gen.KernelIdeal.Skeleton
import proofs.«107108_j75977971466801_2_alg».proof.Proof.Gen.KernelIdeal.Launch
import proofs.«107108_j75977971466801_2_alg».proof.Proof.Gen.KernelIdeal.Points
import proofs.«107108_j75977971466801_2_alg».proof.Proof.Gen.KernelIdeal.Frame
import proofs.«107108_j75977971466801_2_alg».proof.Proof.Gen.ReferenceIdeal
import proofs.«107108_j75977971466801_2_alg».proof.Proof.Gen.Pre_finite_inputs
import proofs.«107108_j75977971466801_2_alg».proof.Proof.KernelRun
import proofs.«107108_j75977971466801_2_alg».proof.Proof.RefKeeps
import proofs.«107108_j75977971466801_2_alg».proof.Proof.Glue
import Idealize.ShloMosaic.Adequacy
import Idealize.ShloMosaic.Init

noncomputable section

namespace Cert.Proof

open Idealize.ShloMosaic Idealize.SL.Sem

/-- From memories that agree on the arguments, under the precondition, both idealized programs run to the end and
    leave the same results: the kernel program's run names its result buffer's contents, the reference's run ends at
    its operations' fold, and the two are equal stage by stage. -/
theorem algebraic : Cert.algebraic_KernelIdeal_ReferenceIdeal := by
  intro m ρ m' ρ' hpre hagree
  refine ⟨fun c => Cert.KernelIdeal.Gen.W11 m ρ c (Proc.devRef .tc Cert.KernelIdeal.main_v178),
    Cert.KernelIdeal.KRun.run_main m ρ, ?_⟩
  refine (θ_run Cert.ReferenceIdeal.defs _ _).mono (fun r h c => ?_) (Cert.RefKeeps.ref_post m' ρ')
  obtain ⟨hv, hargs⟩ := h c
  obtain ⟨a0, a1, a2, a3, a4, a5, a6, a7, a8, a9, a10, a11, a12, a13⟩ := hagree c
  exact ⟨hv.trans (Cert.Glue.value_eq m ρ c m' hpre a0 a1 a2 a3 a4 a5 a6 a7 a8 a9 a10 a11 a12 a13).symm, hargs⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.RefKeeps.frame_ri,
  trivial,
  algebraic⟩

end Cert.Proof

end
